-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v26_1)) (v1 : (c : Dev Cert.KernelIdeal.nD) → Buf (Elt Ideal) ((c.tc : Thread Cert.KernelIdeal.nD Cert.KernelIdeal.τ).loc Cert.KernelIdeal.main_v37_1)) (v2 : (c : Dev Cert.KernelIdeal.nD) → Buf (Elt Ideal) ((c.tc : Thread Cert.KernelIdeal.nD Cert.KernelIdeal.τ).loc Cert.KernelIdeal.main_v26_0)) (v3 : (c : Dev Cert.KernelIdeal.nD) → Buf (Elt Ideal) ((c.tc : Thread Cert.KernelIdeal.nD Cert.KernelIdeal.τ).loc Cert.KernelIdeal.main_v37_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26_1) = v0 c
          ∧ r.2.mem ((c.tc : Thread Cert.KernelIdeal.nD Cert.KernelIdeal.τ).loc Cert.KernelIdeal.main_v37_1) = v1 c
          ∧ r.2.mem ((c.tc : Thread Cert.KernelIdeal.nD Cert.KernelIdeal.τ).loc Cert.KernelIdeal.main_v26_0) = v2 c
          ∧ r.2.mem ((c.tc : Thread Cert.KernelIdeal.nD Cert.KernelIdeal.τ).loc Cert.KernelIdeal.main_v37_0) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_v48) = v1 c
          ∧ r.2.mem ((c.tc : Thread Cert.ReferenceIdeal.nD Cert.ReferenceIdeal.τ).loc Cert.ReferenceIdeal.main_v36) = v2 c
          ∧ r.2.mem ((c.tc : Thread Cert.ReferenceIdeal.nD Cert.ReferenceIdeal.τ).loc Cert.ReferenceIdeal.main_v40) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x50 : Shape := ⟨2, ![2048, 50]⟩
abbrev S2048x512 : Shape := ⟨2, ![2048, 512]⟩
abbrev S100000x256 : Shape := ⟨2, ![100000, 256]⟩
abbrev S256 : Shape := ⟨1, ![256]⟩
abbrev S256x5 : Shape := ⟨2, ![256, 5]⟩
abbrev S5 : Shape := ⟨1, ![5]⟩
abbrev S256x64 : Shape := ⟨2, ![256, 64]⟩
abbrev S64 : Shape := ⟨1, ![64]⟩
abbrev S512x256 : Shape := ⟨2, ![512, 256]⟩
abbrev S_ : Shape := ⟨0, ![]⟩

class Facts : Prop where
  bcast_S_S2048x512 : S_.BroadcastsInDim S2048x512 (![] : Fin 0 → Fin S2048x512.rank)
  reducesTo_S2048x512_S_d0_1 : S2048x512.ReducesTo [0, 1] S_
  h_S_ : 0 < S_.numel
  bcast_S_S100000x256 : S_.BroadcastsInDim S100000x256 (![] : Fin 0 → Fin S100000x256.rank)
  reducesTo_S100000x256_S_d0_1 : S100000x256.ReducesTo [0, 1] S_
  bcast_S_S256 : S_.BroadcastsInDim S256 (![] : Fin 0 → Fin S256.rank)
  reducesTo_S256_S_d0 : S256.ReducesTo [0] S_
  bcast_S_S256x5 : S_.BroadcastsInDim S256x5 (![] : Fin 0 → Fin S256x5.rank)
  reducesTo_S256x5_S_d0_1 : S256x5.ReducesTo [0, 1] S_
  bcast_S_S5 : S_.BroadcastsInDim S5 (![] : Fin 0 → Fin S5.rank)
  reducesTo_S5_S_d0 : S5.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S512x256 : S_.BroadcastsInDim S512x256 (![] : Fin 0 → Fin S512x256.rank)
  reducesTo_S512x256_S_d0_1 : S512x256.ReducesTo [0, 1] S_
  bcast_S_S2048x50 : S_.BroadcastsInDim S2048x50 (![] : Fin 0 → Fin S2048x50.rank)
  reducesTo_S2048x50_S_d0_1 : S2048x50.ReducesTo [0, 1] S_

variable [Facts]

def fn_part4 {F : FTy → Type} [FloatOps F] (main_arg0 : IVec S2048x50 32) (main_v67 : IVec S_ 1) : IVec S_ 1 :=
  let main_c_26 : IVec S_ 32 := constantI S_ 32 100000#32
  let main_v68 : IVec S2048x50 32 := broadcastInDim S2048x50 ![] bcast_S_S2048x50 main_c_26
  let main_v69 : IVec S2048x50 1 := cmpi .slt main_arg0 main_v68
  let main_c_27 : IVec S_ 1 := constantI S_ 1 1#1
  let main_v70 : IVec S_ 1 := (fun x v => Host.reduce IntOp.andi x v reducesTo_S2048x50_S_d0_1 h_S_) main_v69 main_c_27
  let main_v71 : IVec S_ 1 := andi main_v67 main_v70
  main_v71

def fn_part3 {F : FTy → Type} [FloatOps F] (main_arg0 : IVec S2048x50 32) (main_arg12 : FVec F S256x64 .f32) (main_arg13 : FVec F S64 .f32) (main_v48 : IVec S_ 1) (main_v49 : FVec F S5 .f32) (main_v50 : FVec F S5 .f32) : IVec S_ 1 :=
  let main_v51 : IVec S5 1 := cmpf .olt main_v49 main_v50
  let main_c_19 : IVec S_ 1 := constantI S_ 1 1#1
  let main_v52 : IVec S_ 1 := (fun x v => Host.reduce IntOp.andi x v reducesTo_S5_S_d0 h_S_) main_v51 main_c_19
  let main_v53 : IVec S_ 1 := andi main_v48 main_v52
  let main_v54 : FVec F S256x64 .f32 := Host.absf main_arg12
  let main_cst_20 : FVec F S_ .f32 := constant S_ .f32 0x7F800000#32
  let main_v55 : FVec F S256x64 .f32 := broadcastInDim S256x64 ![] bcast_S_S256x64 main_cst_20
  let main_v56 : IVec S256x64 1 := cmpf .olt main_v54 main_v55
  let main_c_21 : IVec S_ 1 := constantI S_ 1 1#1
  let main_v57 : IVec S_ 1 := (fun x v => Host.reduce IntOp.andi x v reducesTo_S256x64_S_d0_1 h_S_) main_v56 main_c_21
  let main_v58 : IVec S_ 1 := andi main_v53 main_v57
  let main_v59 : FVec F S64 .f32 := Host.absf main_arg13
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_c_24 : IVec S_ 32 := constantI S_ 32 0#32
  let main_v64 : IVec S2048x50 32 := broadcastInDim S2048x50 ![] bcast_S_S2048x50 main_c_24
  let main_v65 : IVec S2048x50 1 := cmpi .sge main_arg0 main_v64
  let main_c_25 : IVec S_ 1 := constantI S_ 1 1#1
  let main_v66 : IVec S_ 1 := (fun x v => Host.reduce IntOp.andi x v reducesTo_S2048x50_S_d0_1 h_S_) main_v65 main_c_25
  let main_v67 : IVec S_ 1 := andi main_v63 main_v66
  fn_part4 (F := F) main_arg0 main_v67

def fn_part2 {F : FTy → Type} [FloatOps F] (main_arg0 : IVec S2048x50 32) (main_arg8 : FVec F S512x256 .f32) (main_arg9 : FVec F S256 .f32) (main_arg10 : FVec F S256x5 .f32) (main_arg11 : FVec F S5 .f32) (main_arg12 : FVec F S256x64 .f32) (main_arg13 : FVec F S64 .f32) (main_v33 : IVec S_ 1) : IVec S_ 1 :=
  let main_v34 : FVec F S512x256 .f32 := Host.absf main_arg8
  let main_cst_12 : FVec F S_ .f32 := constant S_ .f32 0x7F800000#32
  let main_v35 : FVec F S512x256 .f32 := broadcastInDim S512x256 ![] bcast_S_S512x256 main_cst_12
  let main_v36 : IVec S512x256 1 := cmpf .olt main_v34 main_v35
  let main_c_13 : IVec S_ 1 := constantI S_ 1 1#1
  let main_v37 : IVec S_ 1 := (fun x v => Host.reduce IntOp.andi x v reducesTo_S512x256_S_d0_1 h_S_) main_v36 main_c_13
  let main_v38 : IVec S_ 1 := andi main_v33 main_v37
  let main_v39 : FVec F S256 .f32 := Host.absf main_arg9
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x5 .f32 := Host.absf main_arg10
  let main_cst_16 : FVec F S_ .f32 := constant S_ .f32 0x7F800000#32
  let main_v45 : FVec F S256x5 .f32 := broadcastInDim S256x5 ![] bcast_S_S256x5 main_cst_16
  let main_v46 : IVec S256x5 1 := cmpf .olt main_v44 main_v45
  let main_c_17 : IVec S_ 1 := constantI S_ 1 1#1
  let main_v47 : IVec S_ 1 := (fun x v => Host.reduce IntOp.andi x v reducesTo_S256x5_S_d0_1 h_S_) main_v46 main_c_17
  let main_v48 : IVec S_ 1 := andi main_v43 main_v47
  let main_v49 : FVec F S5 .f32 := Host.absf main_arg11
  let main_cst_18 : FVec F S_ .f32 := constant S_ .f32 0x7F800000#32
  let main_v50 : FVec F S5 .f32 := broadcastInDim S5 ![] bcast_S_S5 main_cst_18
  fn_part3 (F := F) main_arg0 main_arg12 main_arg13 main_v48 main_v49 main_v50

def fn_part1 {F : FTy → Type} [FloatOps F] (main_arg0 : IVec S2048x50 32) (main_arg5 : FVec F S5 .f32) (main_arg6 : FVec F S256x64 .f32) (main_arg7 : FVec F S64 .f32) (main_arg8 : FVec F S512x256 .f32) (main_arg9 : FVec F S256 .f32) (main_arg10 : FVec F S256x5 .f32) (main_arg11 : FVec F S5 .f32) (main_arg12 : FVec F S256x64 .f32) (main_arg13 : FVec F S64 .f32) (main_v13 : IVec S_ 1) (main_v16 : IVec S256x5 1) : IVec S_ 1 :=
  let main_c_5 : IVec S_ 1 := constantI S_ 1 1#1
  let main_v17 : IVec S_ 1 := (fun x v => Host.reduce IntOp.andi x v reducesTo_S256x5_S_d0_1 h_S_) main_v16 main_c_5
  let main_v18 : IVec S_ 1 := andi main_v13 main_v17
  let main_v19 : FVec F S5 .f32 := Host.absf main_arg5
  let main_cst_6 : FVec F S_ .f32 := constant S_ .f32 0x7F800000#32
  let main_v20 : FVec F S5 .f32 := broadcastInDim S5 ![] bcast_S_S5 main_cst_6
  let main_v21 : IVec S5 1 := cmpf .olt main_v19 main_v20
  let main_c_7 : IVec S_ 1 := constantI S_ 1 1#1
  let main_v22 : IVec S_ 1 := (fun x v => Host.reduce IntOp.andi x v reducesTo_S5_S_d0 h_S_) main_v21 main_c_7
  let main_v23 : IVec S_ 1 := andi main_v18 main_v22
  let main_v24 : FVec F S256x64 .f32 := Host.absf main_arg6
  let main_cst_8 : FVec F S_ .f32 := constant S_ .f32 0x7F800000#32
  let main_v25 : FVec F S256x64 .f32 := broadcastInDim S256x64 ![] bcast_S_S256x64 main_cst_8
  let main_v26 : IVec S256x64 1 := cmpf .olt main_v24 main_v25
  let main_c_9 : IVec S_ 1 := constantI S_ 1 1#1
  let main_v27 : IVec S_ 1 := (fun x v => Host.reduce IntOp.andi x v reducesTo_S256x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg0 main_arg8 main_arg9 main_arg10 main_arg11 main_arg12 main_arg13 main_v33

def fn {F : FTy → Type} [FloatOps F] (main_arg0 : IVec S2048x50 32) (main_arg1 : FVec F S2048x512 .f32) (main_arg2 : FVec F S100000x256 .f32) (main_arg3 : FVec F S256 .f32) (main_arg4 : FVec F S256x5 .f32) (main_arg5 : FVec F S5 .f32) (main_arg6 : FVec F S256x64 .f32) (main_arg7 : FVec F S64 .f32) (main_arg8 : FVec F S512x256 .f32) (main_arg9 : FVec F S256 .f32) (main_arg10 : FVec F S256x5 .f32) (main_arg11 : FVec F S5 .f32) (main_arg12 : FVec F S256x64 .f32) (main_arg13 : FVec F S64 .f32) : IVec S_ 1 :=
  let main_v0 : FVec F S2048x512 .f32 := Host.absf main_arg1
  let main_cst : FVec F S_ .f32 := constant S_ .f32 0x7F800000#32
  let main_v1 : FVec F S2048x512 .f32 := broadcastInDim S2048x512 ![] bcast_S_S2048x512 main_cst
  let main_v2 : IVec S2048x512 1 := cmpf .olt main_v0 main_v1
  let main_c : IVec S_ 1 := constantI S_ 1 1#1
  let main_v3 : IVec S_ 1 := (fun x v => Host.reduce IntOp.andi x v reducesTo_S2048x512_S_d0_1 h_S_) main_v2 main_c
  let main_v4 : FVec F S100000x256 .f32 := Host.absf main_arg2
  let main_cst_0 : FVec F S_ .f32 := constant S_ .f32 0x7F800000#32
  let main_v5 : FVec F S100000x256 .f32 := broadcastInDim S100000x256 ![] bcast_S_S100000x256 main_cst_0
  let main_v6 : IVec S100000x256 1 := cmpf .olt main_v4 main_v5
  let main_c_1 : IVec S_ 1 := constantI S_ 1 1#1
  let main_v7 : IVec S_ 1 := (fun x v => Host.reduce IntOp.andi x v reducesTo_S100000x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x5 .f32 := Host.absf main_arg4
  let main_cst_4 : FVec F S_ .f32 := constant S_ .f32 0x7F800000#32
  let main_v15 : FVec F S256x5 .f32 := broadcastInDim S256x5 ![] bcast_S_S256x5 main_cst_4
  let main_v16 : IVec S256x5 1 := cmpf .olt main_v14 main_v15
  fn_part1 (F := F) main_arg0 main_arg5 main_arg6 main_arg7 main_arg8 main_arg9 main_arg10 main_arg11 main_arg12 main_arg13 main_v13 main_v16
-- ==== Kernel.lean ====
abbrev S2048x50 : Shape := ⟨2, ![2048, 50]⟩
abbrev S2048x512 : Shape := ⟨2, ![2048, 512]⟩
abbrev S100000x256 : Shape := ⟨2, ![100000, 256]⟩
abbrev S256 : Shape := ⟨1, ![256]⟩
abbrev S256x5 : Shape := ⟨2, ![256, 5]⟩
abbrev S5 : Shape := ⟨1, ![5]⟩
abbrev S256x64 : Shape := ⟨2, ![256, 64]⟩
abbrev S64 : Shape := ⟨1, ![64]⟩
abbrev S512x256 : Shape := ⟨2, ![512, 256]⟩
abbrev S2048 : Shape := ⟨1, ![2048]⟩
abbrev S2048x1 : Shape := ⟨2, ![2048, 1]⟩
abbrev S_ : Shape := ⟨0, ![]⟩
abbrev S2048x102400 : Shape := ⟨2, ![2048, 102400]⟩
abbrev S2048x50x1 : Shape := ⟨3, ![2048, 50, 1]⟩
abbrev S2048x50x2 : Shape := ⟨3, ![2048, 50, 2]⟩
abbrev S102400x256 : Shape := ⟨2, ![102400, 256]⟩
abbrev S1x256 : Shape := ⟨2, ![1, 256]⟩
abbrev S1x5 : Shape := ⟨2, ![1, 5]⟩
abbrev S1x64 : Shape := ⟨2, ![1, 64]⟩
abbrev S2048x5 : Shape := ⟨2, ![2048, 5]⟩
abbrev S2048x64 : Shape := ⟨2, ![2048, 64]⟩
abbrev S1024x4096 : Shape := ⟨2, ![1024, 4096]⟩
abbrev S4096x256 : Shape := ⟨2, ![4096, 256]⟩
abbrev S1024x5 : Shape := ⟨2, ![1024, 5]⟩
abbrev S1024x64 : Shape := ⟨2, ![1024, 64]⟩
abbrev S1024x256 : Shape := ⟨2, ![1024, 256]⟩
abbrev S1024x512 : Shape := ⟨2, ![1024, 512]⟩

abbrev nBuf : Space → Nat
  | .hbm => 64
  | .vmem => 26
  | .smem => 0
  | _ => 0

abbrev bufTy : (tb : Table) → Fin (tcTables nBuf tb) → BufTy
  | .hbm, ⟨0, _⟩ => ⟨S2048x50, .i32⟩
  | .hbm, ⟨1, _⟩ => ⟨S2048x512, .f32⟩
  | .hbm, ⟨2, _⟩ => ⟨S100000x256, .f32⟩
  | .hbm, ⟨3, _⟩ => ⟨S256, .f32⟩
  | .hbm, ⟨4, _⟩ => ⟨S256x5, .f32⟩
  | .hbm, ⟨5, _⟩ => ⟨S5, .f32⟩
  | .hbm, ⟨6, _⟩ => ⟨S256x64, .f32⟩
  | .hbm, ⟨7, _⟩ => ⟨S64, .f32⟩
  | .hbm, ⟨8, _⟩ => ⟨S512x256, .f32⟩
  | .hbm, ⟨9, _⟩ => ⟨S256, .f32⟩
  | .hbm, ⟨10, _⟩ => ⟨S256x5, .f32⟩
  | .hbm, ⟨11, _⟩ => ⟨S5, .f32⟩
  | .hbm, ⟨12, _⟩ => ⟨S256x64, .f32⟩
  | .hbm, ⟨13, _⟩ => ⟨S64, .f32⟩
  | .hbm, ⟨14, _⟩ => ⟨S2048, .i32⟩
  | .hbm, ⟨15, _⟩ => ⟨S2048x1, .i32⟩
  | .hbm, ⟨16, _⟩ => ⟨S_, .bf16⟩
  | .hbm, ⟨17, _⟩ => ⟨S2048x102400, .bf16⟩
  | .hbm, ⟨18, _⟩ => ⟨S_, .i32⟩
  | .hbm, ⟨19, _⟩ => ⟨S2048x1, .i32⟩
  | .hbm, ⟨20, _⟩ => ⟨S2048x1, .i1⟩
  | .hbm, ⟨21, _⟩ => ⟨S_, .i32⟩
  | .hbm, ⟨22, _⟩ => ⟨S2048x1, .i32⟩
  | .hbm, ⟨23, _⟩ => ⟨S2048x1, .i32⟩
  | .hbm, ⟨24, _⟩ => ⟨S2048x1, .i32⟩
  | .hbm, ⟨25, _⟩ => ⟨S_, .i32⟩
  | .hbm, ⟨26, _⟩ => ⟨S2048x50, .i32⟩
  | .hbm, ⟨27, _⟩ => ⟨S2048x50, .i1⟩
  | .hbm, ⟨28, _⟩ => ⟨S_, .i32⟩
  | .hbm, ⟨29, _⟩ => ⟨S2048x50, .i32⟩
  | .hbm, ⟨30, _⟩ => ⟨S2048x50, .i32⟩
  | .hbm, ⟨31, _⟩ => ⟨S2048x50, .i32⟩
  | .hbm, ⟨32, _⟩ => ⟨S2048x50, .i32⟩
  | .hbm, ⟨33, _⟩ => ⟨S2048x50x1, .i32⟩
  | .hbm, ⟨34, _⟩ => ⟨S2048x50x1, .i32⟩
  | .hbm, ⟨35, _⟩ => ⟨S2048x50x2, .i32⟩
  | .hbm, ⟨36, _⟩ => ⟨S_, .bf16⟩
  | .hbm, ⟨37, _⟩ => ⟨S2048x50, .bf16⟩
  | .hbm, ⟨38, _⟩ => ⟨S2048x102400, .bf16⟩
  | .hbm, ⟨39, _⟩ => ⟨S_, .i32⟩
  | .hbm, ⟨40, _⟩ => ⟨S_, .f32⟩
  | .hbm, ⟨41, _⟩ => ⟨S102400x256, .f32⟩
  | .hbm, ⟨42, _⟩ => ⟨S102400x256, .bf16⟩
  | .hbm, ⟨43, _⟩ => ⟨S1x256, .f32⟩
  | .hbm, ⟨44, _⟩ => ⟨S256x5, .bf16⟩
  | .hbm, ⟨45, _⟩ => ⟨S1x5, .f32⟩
  | .hbm, ⟨46, _⟩ => ⟨S256x64, .bf16⟩
  | .hbm, ⟨47, _⟩ => ⟨S1x64, .f32⟩
  | .hbm, ⟨48, _⟩ => ⟨S2048x5, .f32⟩
  | .hbm, ⟨49, _⟩ => ⟨S2048x64, .f32⟩
  | .hbm, ⟨50, _⟩ => ⟨S_, .f32⟩
  | .hbm, ⟨51, _⟩ => ⟨S2048x512, .f32⟩
  | .hbm, ⟨52, _⟩ => ⟨S2048x512, .f32⟩
  | .hbm, ⟨53, _⟩ => ⟨S_, .f32⟩
  | .hbm, ⟨54, _⟩ => ⟨S2048x512, .f32⟩
  | .hbm, ⟨55, _⟩ => ⟨S2048x512, .f32⟩
  | .hbm, ⟨56, _⟩ => ⟨S512x256, .bf16⟩
  | .hbm, ⟨57, _⟩ => ⟨S1x256, .f32⟩
  | .hbm, ⟨58, _⟩ => ⟨S256x5, .bf16⟩
  | .hbm, ⟨59, _⟩ => ⟨S1x5, .f32⟩
  | .hbm, ⟨60, _⟩ => ⟨S256x64, .bf16⟩
  | .hbm, ⟨61, _⟩ => ⟨S1x64, .f32⟩
  | .hbm, ⟨62, _⟩ => ⟨S2048x5, .f32⟩
  | .hbm, ⟨63, _⟩ => ⟨S2048x64, .f32⟩
  | .local _ .vmem, ⟨0, _⟩ => ⟨S1024x4096, .bf16⟩
  | .local _ .vmem, ⟨1, _⟩ => ⟨S1024x4096, .bf16⟩
  | .local _ .vmem, ⟨2, _⟩ => ⟨S4096x256, .bf16⟩
  | .local _ .vmem, ⟨3, _⟩ => ⟨S4096x256, .bf16⟩
  | .local _ .vmem, ⟨4, _⟩ => ⟨S1x256, .f32⟩
  | .local _ .vmem, ⟨5, _⟩ => ⟨S256x5, .bf16⟩
  | .local _ .vmem, ⟨6, _⟩ => ⟨S1x5, .f32⟩
  | .local _ .vmem, ⟨7, _⟩ => ⟨S256x64, .bf16⟩
  | .local _ .vmem, ⟨8, _⟩ => ⟨S1x64, .f32⟩
  | .local _ .vmem, ⟨9, _⟩ => ⟨S1024x5, .f32⟩
  | .local _ .vmem, ⟨10, _⟩ => ⟨S1024x5, .f32⟩
  | .local _ .vmem, ⟨11, _⟩ => ⟨S1024x64, .f32⟩
  | .local _ .vmem, ⟨12, _⟩ => ⟨S1024x64, .f32⟩
  | .local _ .vmem, ⟨13, _⟩ => ⟨S1024x256, .f32⟩
  | .local _ .vmem, ⟨14, _⟩ => ⟨S1024x512, .f32⟩
  | .local _ .vmem, ⟨15, _⟩ => ⟨S1024x512, .f32⟩
  | .local _ .vmem, ⟨16, _⟩ => ⟨S512x256, .bf16⟩
  | .local _ .vmem, ⟨17, _⟩ => ⟨S1x256, .f32⟩
  | .local _ .vmem, ⟨18, _⟩ => ⟨S256x5, .bf16⟩
  | .local _ .vmem, ⟨19, _⟩ => ⟨S1x5, .f32⟩
  | .local _ .vmem, ⟨20, _⟩ => ⟨S256x64, .bf16⟩
  | .local _ .vmem, ⟨21, _⟩ => ⟨S1x64, .f32⟩
  | .local _ .vmem, ⟨22, _⟩ => ⟨S1024x5, .f32⟩
  | .local _ .vmem, ⟨23, _⟩ => ⟨S1024x5, .f32⟩
  | .local _ .vmem, ⟨24, _⟩ => ⟨S1024x64, .f32⟩
  | .local _ .vmem, ⟨25, _⟩ => ⟨S1024x64, .f32⟩
  | _, _ => ⟨S2048x50, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_cst : Ref sig .tc := ⟨.hbm, 16, rfl⟩
abbrev main_v2 : Ref sig .tc := ⟨.hbm, 17, rfl⟩
abbrev main_c : Ref sig .tc := ⟨.hbm, 18, rfl⟩
abbrev main_v3 : Ref sig .tc := ⟨.hbm, 19, rfl⟩
abbrev main_v4 : Ref sig .tc := ⟨.hbm, 20, rfl⟩
abbrev main_c_0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_c_1 : Ref sig .tc := ⟨.hbm, 25, rfl⟩
abbrev main_v8 : Ref sig .tc := ⟨.hbm, 26, rfl⟩
abbrev main_v9 : Ref sig .tc := ⟨.hbm, 27, rfl⟩
abbrev main_c_2 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_cst_3 : Ref sig .tc := ⟨.hbm, 36, rfl⟩
abbrev main_v17 : Ref sig .tc := ⟨.hbm, 37, rfl⟩
abbrev main_v18 : Ref sig .tc := ⟨.hbm, 38, rfl⟩
abbrev main_c_4 : Ref sig .tc := ⟨.hbm, 39, rfl⟩
abbrev main_call0_v0 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26_0 : Ref sig .tc := ⟨.hbm, 48, rfl⟩
abbrev main_v26_1 : Ref sig .tc := ⟨.hbm, 49, rfl⟩
abbrev main_cst_5 : Ref sig .tc := ⟨.hbm, 50, rfl⟩
abbrev main_v27 : Ref sig .tc := ⟨.hbm, 51, rfl⟩
abbrev main_v28 : Ref sig .tc := ⟨.hbm, 52, rfl⟩
abbrev main_cst_6 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37_0 : Ref sig .tc := ⟨.hbm, 62, rfl⟩
abbrev main_v37_1 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg7_1 : Ref sig .tc := ⟨.vmem, 23, rfl⟩
abbrev cc1_stg8_0 : Ref sig .tc := ⟨.vmem, 24, rfl⟩
abbrev cc1_stg8_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc1_sem0_0 : DmaSem sig := 13
abbrev cc1_sem0_1 : DmaSem sig := 14
abbrev cc1_sem1_0 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem7_1 : DmaSem sig := 22
abbrev cc1_sem8_0 : DmaSem sig := 23
abbrev cc1_sem8_1 : DmaSem sig := 24

abbrev nD : Nat := 1
abbrev τ : Topo := Topo.v7x

variable {F : FTy → Type} [FloatOps F]

abbrev grid0 : Pipeline.Grid := ⟨2, ![2, 25], ![false, false]⟩

def k0_cond2 (i : grid0.Coords) : BitVec 1 :=
  let arg1 : BitVec 32 := BitVec.ofNat 32 (i 1).val
  let c24_i32 : BitVec 32 := 24#32
  let v13 : BitVec 1 := Scalar.cmpi .eq arg1 c24_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x5 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x5 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1024x5 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1024x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev grid1 : Pipeline.Grid := ⟨1, ![2], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x5 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x5 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x64 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S1024x5 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S1024x64 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  bcast_S2048_S2048x1_0 : S2048.BroadcastsInDim S2048x1 (![0] : Fin 1 → Fin S2048x1.rank)
  bcast_S_S2048x102400 : S_.BroadcastsInDim S2048x102400 (![] : Fin 0 → Fin S2048x102400.rank)
  bcast_S_S2048x1 : S_.BroadcastsInDim S2048x1 (![] : Fin 0 → Fin S2048x1.rank)
  bcast_S_S2048x50 : S_.BroadcastsInDim S2048x50 (![] : Fin 0 → Fin S2048x50.rank)
  bcast_S2048x1_S2048x50_0_1 : S2048x1.BroadcastsInDim S2048x50 (![0, 1] : Fin 2 → Fin S2048x50.rank)
  bcast_S2048x50_S2048x50x1_0_1 : S2048x50.BroadcastsInDim S2048x50x1 (![0, 1] : Fin 2 → Fin S2048x50x1.rank)
  concatenates_S2048x50x1_S2048x50x1_S2048x50x2_d2 : Shape.Concatenates [S2048x50x1, S2048x50x1] S2048x50x2 2
  pads_S100000x256_S102400x256_024000_000 : S100000x256.Pads (![0, 0] : Fin 2 → Nat) ![2400, 0] ![0, 0] S102400x256
  h_S_ : 0 < S_.numel
  bitsLt_bf16_f32 : FTy.bits .bf16 < FTy.bits .f32
  shapeCasts_S256_S1x256 : S256.ShapeCasts S1x256
  shapeCasts_S5_S1x5 : S5.ShapeCasts S1x5
  shapeCasts_S64_S1x64 : S64.ShapeCasts S1x64
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S256x5_S256x5_0_0 : ∀ a, (![0, 0] : Fin 2 → Nat) a + S256x5.size a ≤ S256x5.size a
  h_S256x5 : 0 < S256x5.numel
  shapeCasts_S256x5_S256x5 : S256x5.ShapeCasts S256x5
  inb_S1x5_S1x5_0_0 : ∀ a, (![0, 0] : Fin 2 → Nat) a + S1x5.size a ≤ S1x5.size a
  h_S1x5 : 0 < S1x5.numel
  shapeCasts_S1x5_S1x5 : S1x5.ShapeCasts S1x5
  broadcasts_S1x5_S1024x5 : S1x5.Broadcasts S1024x5
  inb_S1024x5_S1024x5_0_0 : ∀ a, (![0, 0] : Fin 2 → Nat) a + S1024x5.size a ≤ S1024x5.size a
  h_S1024x5 : 0 < S1024x5.numel
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1024x64 : S1x64.Broadcasts S1024x64
  inb_S1024x64_S1024x64_0_0 : ∀ a, (![0, 0] : Fin 2 → Nat) a + S1024x64.size a ≤ S1024x64.size a
  h_S1024x64 : 0 < S1024x64.numel
  bcast_S_S2048x512 : S_.BroadcastsInDim S2048x512 (![] : Fin 0 → Fin S2048x512.rank)
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  scatter_S2048x102400_S2048x50x2_S2048x50_n_01_01_2_wf : ScatterDims.WF S2048x102400 S2048x50x2 S2048x50 [] [0, 1] [0, 1] 2
  dot_S1024x4096_S4096x256_S1024x256_1_0_0_1_n_n_wf : DotDims.WF S1024x4096 S4096x256 S1024x256 [1] [0] [0] [1] [] []
  dot_S1024x256_S256x5_S1024x5_1_0_0_1_n_n_wf : DotDims.WF S1024x256 S256x5 S1024x5 [1] [0] [0] [1] [] []
  dot_S1024x256_S256x64_S1024x64_1_0_0_1_n_n_wf : DotDims.WF S1024x256 S256x64 S1024x64 [1] [0] [0] [1] [] []
  dot_S1024x512_S512x256_S1024x256_1_0_0_1_n_n_wf : DotDims.WF S1024x512 S512x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S2048x102400.size a
  hwx0_0 : ∀ i : grid0.Coords, EltTy.bits .bf16 = 32 ∨ (Rect.block (s := S2048x102400) S1024x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S102400x256.size a
  hwx0_1 : ∀ i : grid0.Coords, EltTy.bits .bf16 = 32 ∨ (Rect.block (s := S102400x256) S4096x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x5.size a ≤ S256x5.size a
  hwx0_3 : ∀ i : grid0.Coords, EltTy.bits .bf16 = 32 ∨ (Rect.block (s := S256x5) S256x5.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x5.size a ≤ S1x5.size a
  hwx0_4 : ∀ i : grid0.Coords, EltTy.bits .f32 = 32 ∨ (Rect.block (s := S1x5) S1x5.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x64.size a ≤ S256x64.size a
  hwx0_5 : ∀ i : grid0.Coords, EltTy.bits .bf16 = 32 ∨ (Rect.block (s := S256x64) S256x64.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x5.size a ≤ S2048x5.size a
  hwx0_7 : ∀ i : grid0.Coords, EltTy.bits .f32 = 32 ∨ (Rect.block (s := S2048x5) S1024x5.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1024x64.size a ≤ S2048x64.size a
  hwx0_8 : ∀ i : grid0.Coords, EltTy.bits .f32 = 32 ∨ (Rect.block (s := S2048x64) S1024x64.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S2048x512.size a
  hwx1_0 : ∀ i : grid1.Coords, EltTy.bits .f32 = 32 ∨ (Rect.block (s := S2048x512) S1024x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x256.size a ≤ S512x256.size a
  hwx1_1 : ∀ i : grid1.Coords, EltTy.bits .bf16 = 32 ∨ (Rect.block (s := S512x256) S512x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x5.size a ≤ S256x5.size a
  hwx1_3 : ∀ i : grid1.Coords, EltTy.bits .bf16 = 32 ∨ (Rect.block (s := S256x5) S256x5.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x5.size a ≤ S1x5.size a
  hwx1_4 : ∀ i : grid1.Coords, EltTy.bits .f32 = 32 ∨ (Rect.block (s := S1x5) S1x5.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x64.size a ≤ S256x64.size a
  hwx1_5 : ∀ i : grid1.Coords, EltTy.bits .bf16 = 32 ∨ (Rect.block (s := S256x64) S256x64.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1024x5.size a ≤ S2048x5.size a
  hwx1_7 : ∀ i : grid1.Coords, EltTy.bits .f32 = 32 ∨ (Rect.block (s := S2048x5) S1024x5.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S1024x64.size a ≤ S2048x64.size a
  hwx1_8 : ∀ i : grid1.Coords, EltTy.bits .f32 = 32 ∨ (Rect.block (s := S2048x64) S1024x64.size (cc1_transform_8 i) (hinb1_8 i)).WholeWords (EltTy.packing .f32)

variable [Facts₀]

def scatter_S2048x102400_S2048x50x2_S2048x50_n_01_01_2 : ScatterDims S2048x102400 S2048x50x2 S2048x50 where
  updateWindowDims := []
  insertedWindowDims := [0, 1]
  scatterDimsToOperandDims := [0, 1]
  indexVectorDim := 2
  wf := scatter_S2048x102400_S2048x50x2_S2048x50_n_01_01_2_wf
def dot_S1024x4096_S4096x256_S1024x256_1_0_0_1_n_n : DotDims S1024x4096 S4096x256 S1024x256 where
  lhsContracting := [1]
  rhsContracting := [0]
  lhsNonContracting := [0]
  rhsNonContracting := [1]
  lhsBatch := []
  rhsBatch := []
  wf := dot_S1024x4096_S4096x256_S1024x256_1_0_0_1_n_n_wf
def dot_S1024x256_S256x5_S1024x5_1_0_0_1_n_n : DotDims S1024x256 S256x5 S1024x5 where
  lhsContracting := [1]
  rhsContracting := [0]
  lhsNonContracting := [0]
  rhsNonContracting := [1]
  lhsBatch := []
  rhsBatch := []
  wf := dot_S1024x256_S256x5_S1024x5_1_0_0_1_n_n_wf
def dot_S1024x256_S256x64_S1024x64_1_0_0_1_n_n : DotDims S1024x256 S256x64 S1024x64 where
  lhsContracting := [1]
  rhsContracting := [0]
  lhsNonContracting := [0]
  rhsNonContracting := [1]
  lhsBatch := []
  rhsBatch := []
  wf := dot_S1024x256_S256x64_S1024x64_1_0_0_1_n_n_wf
def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf

abbrev win0_0 : Pipeline.Window sig grid0 :=
  Pipeline.Window.ofSpec (Memref.whole main_v18) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S4096x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v21) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v22) S256x5.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x5.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S256x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v25) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v26_0) S1024x5.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v26_1) S1024x64.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun _ => false | 7 => fun i => !(k0_cond2 i == 1#1) | 8 => fun i => !(k0_cond2 i == 1#1) | ⟨_ + 9, h⟩ => absurd h (Nat.not_lt.2 (Nat.le_add_left _ _))

abbrev win1_0 : Pipeline.Window sig grid1 :=
  Pipeline.Window.ofSpec (Memref.whole main_v30) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S512x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v32) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v33) S256x5.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v34) S1x5.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v35) S256x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v36) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v37_0) S1024x5.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v37_1) S1024x64.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S2048x50 : Shape := ⟨2, ![2048, 50]⟩
abbrev S2048x512 : Shape := ⟨2, ![2048, 512]⟩
abbrev S100000x256 : Shape := ⟨2, ![100000, 256]⟩
abbrev S256 : Shape := ⟨1, ![256]⟩
abbrev S256x5 : Shape := ⟨2, ![256, 5]⟩
abbrev S5 : Shape := ⟨1, ![5]⟩
abbrev S256x64 : Shape := ⟨2, ![256, 64]⟩
abbrev S64 : Shape := ⟨1, ![64]⟩
abbrev S512x256 : Shape := ⟨2, ![512, 256]⟩
abbrev S_ : Shape := ⟨0, ![]⟩
abbrev S2048 : Shape := ⟨1, ![2048]⟩
abbrev S2048x1 : Shape := ⟨2, ![2048, 1]⟩
abbrev S2048x100000 : Shape := ⟨2, ![2048, 100000]⟩
abbrev S2048x50x1 : Shape := ⟨3, ![2048, 50, 1]⟩
abbrev S2048x50x2 : Shape := ⟨3, ![2048, 50, 2]⟩
abbrev S2048x256 : Shape := ⟨2, ![2048, 256]⟩
abbrev S1x256 : Shape := ⟨2, ![1, 256]⟩
abbrev S2048x5 : Shape := ⟨2, ![2048, 5]⟩
abbrev S1x5 : Shape := ⟨2, ![1, 5]⟩
abbrev S2048x64 : Shape := ⟨2, ![2048, 64]⟩
abbrev S1x64 : Shape := ⟨2, ![1, 64]⟩

abbrev nBuf : Space → Nat
  | .hbm => 85
  | .vmem => 0
  | .smem => 0
  | _ => 0

abbrev bufTy : (tb : Table) → Fin (tcTables nBuf tb) → BufTy
  | .hbm, ⟨0, _⟩ => ⟨S2048x50, .i32⟩
  | .hbm, ⟨1, _⟩ => ⟨S2048x512, .f32⟩
  | .hbm, ⟨2, _⟩ => ⟨S100000x256, .f32⟩
  | .hbm, ⟨3, _⟩ => ⟨S256, .f32⟩
  | .hbm, ⟨4, _⟩ => ⟨S256x5, .f32⟩
  | .hbm, ⟨5, _⟩ => ⟨S5, .f32⟩
  | .hbm, ⟨6, _⟩ => ⟨S256x64, .f32⟩
  | .hbm, ⟨7, _⟩ => ⟨S64, .f32⟩
  | .hbm, ⟨8, _⟩ => ⟨S512x256, .f32⟩
  | .hbm, ⟨9, _⟩ => ⟨S256, .f32⟩
  | .hbm, ⟨10, _⟩ => ⟨S256x5, .f32⟩
  | .hbm, ⟨11, _⟩ => ⟨S5, .f32⟩
  | .hbm, ⟨12, _⟩ => ⟨S256x64, .f32⟩
  | .hbm, ⟨13, _⟩ => ⟨S64, .f32⟩
  | .hbm, ⟨14, _⟩ => ⟨S_, .f32⟩
  | .hbm, ⟨15, _⟩ => ⟨S2048x512, .f32⟩
  | .hbm, ⟨16, _⟩ => ⟨S2048x512, .f32⟩
  | .hbm, ⟨17, _⟩ => ⟨S_, .f32⟩
  | .hbm, ⟨18, _⟩ => ⟨S2048x512, .f32⟩
  | .hbm, ⟨19, _⟩ => ⟨S2048x512, .f32⟩
  | .hbm, ⟨20, _⟩ => ⟨S2048, .i32⟩
  | .hbm, ⟨21, _⟩ => ⟨S2048x1, .i32⟩
  | .hbm, ⟨22, _⟩ => ⟨S_, .f32⟩
  | .hbm, ⟨23, _⟩ => ⟨S2048x100000, .f32⟩
  | .hbm, ⟨24, _⟩ => ⟨S_, .i32⟩
  | .hbm, ⟨25, _⟩ => ⟨S2048x1, .i32⟩
  | .hbm, ⟨26, _⟩ => ⟨S2048x1, .i1⟩
  | .hbm, ⟨27, _⟩ => ⟨S_, .i32⟩
  | .hbm, ⟨28, _⟩ => ⟨S2048x1, .i32⟩
  | .hbm, ⟨29, _⟩ => ⟨S2048x1, .i32⟩
  | .hbm, ⟨30, _⟩ => ⟨S2048x1, .i32⟩
  | .hbm, ⟨31, _⟩ => ⟨S_, .i32⟩
  | .hbm, ⟨32, _⟩ => ⟨S2048x50, .i32⟩
  | .hbm, ⟨33, _⟩ => ⟨S2048x50, .i1⟩
  | .hbm, ⟨34, _⟩ => ⟨S_, .i32⟩
  | .hbm, ⟨35, _⟩ => ⟨S2048x50, .i32⟩
  | .hbm, ⟨36, _⟩ => ⟨S2048x50, .i32⟩
  | .hbm, ⟨37, _⟩ => ⟨S2048x50, .i32⟩
  | .hbm, ⟨38, _⟩ => ⟨S2048x50, .i32⟩
  | .hbm, ⟨39, _⟩ => ⟨S2048x50x1, .i32⟩
  | .hbm, ⟨40, _⟩ => ⟨S2048x50x1, .i32⟩
  | .hbm, ⟨41, _⟩ => ⟨S2048x50x2, .i32⟩
  | .hbm, ⟨42, _⟩ => ⟨S_, .f32⟩
  | .hbm, ⟨43, _⟩ => ⟨S2048x50, .f32⟩
  | .hbm, ⟨44, _⟩ => ⟨S2048x100000, .f32⟩
  | .hbm, ⟨45, _⟩ => ⟨S2048x256, .f32⟩
  | .hbm, ⟨46, _⟩ => ⟨S1x256, .f32⟩
  | .hbm, ⟨47, _⟩ => ⟨S2048x256, .f32⟩
  | .hbm, ⟨48, _⟩ => ⟨S2048x256, .f32⟩
  | .hbm, ⟨49, _⟩ => ⟨S_, .f32⟩
  | .hbm, ⟨50, _⟩ => ⟨S_, .f32⟩
  | .hbm, ⟨51, _⟩ => ⟨S2048x256, .f32⟩
  | .hbm, ⟨52, _⟩ => ⟨S2048x256, .i1⟩
  | .hbm, ⟨53, _⟩ => ⟨S_, .f32⟩
  | .hbm, ⟨54, _⟩ => ⟨S2048x256, .f32⟩
  | .hbm, ⟨55, _⟩ => ⟨S2048x256, .f32⟩
  | .hbm, ⟨56, _⟩ => ⟨S2048x256, .f32⟩
  | .hbm, ⟨57, _⟩ => ⟨S2048x256, .f32⟩
  | .hbm, ⟨58, _⟩ => ⟨S1x256, .f32⟩
  | .hbm, ⟨59, _⟩ => ⟨S2048x256, .f32⟩
  | .hbm, ⟨60, _⟩ => ⟨S2048x256, .f32⟩
  | .hbm, ⟨61, _⟩ => ⟨S_, .f32⟩
  | .hbm, ⟨62, _⟩ => ⟨S_, .f32⟩
  | .hbm, ⟨63, _⟩ => ⟨S2048x256, .f32⟩
  | .hbm, ⟨64, _⟩ => ⟨S2048x256, .i1⟩
  | .hbm, ⟨65, _⟩ => ⟨S_, .f32⟩
  | .hbm, ⟨66, _⟩ => ⟨S2048x256, .f32⟩
  | .hbm, ⟨67, _⟩ => ⟨S2048x256, .f32⟩
  | .hbm, ⟨68, _⟩ => ⟨S2048x256, .f32⟩
  | .hbm, ⟨69, _⟩ => ⟨S2048x5, .f32⟩
  | .hbm, ⟨70, _⟩ => ⟨S1x5, .f32⟩
  | .hbm, ⟨71, _⟩ => ⟨S2048x5, .f32⟩
  | .hbm, ⟨72, _⟩ => ⟨S2048x5, .f32⟩
  | .hbm, ⟨73, _⟩ => ⟨S2048x5, .f32⟩
  | .hbm, ⟨74, _⟩ => ⟨S1x5, .f32⟩
  | .hbm, ⟨75, _⟩ => ⟨S2048x5, .f32⟩
  | .hbm, ⟨76, _⟩ => ⟨S2048x5, .f32⟩
  | .hbm, ⟨77, _⟩ => ⟨S2048x64, .f32⟩
  | .hbm, ⟨78, _⟩ => ⟨S1x64, .f32⟩
  | .hbm, ⟨79, _⟩ => ⟨S2048x64, .f32⟩
  | .hbm, ⟨80, _⟩ => ⟨S2048x64, .f32⟩
  | .hbm, ⟨81, _⟩ => ⟨S2048x64, .f32⟩
  | .hbm, ⟨82, _⟩ => ⟨S1x64, .f32⟩
  | .hbm, ⟨83, _⟩ => ⟨S2048x64, .f32⟩
  | .hbm, ⟨84, _⟩ => ⟨S2048x64, .f32⟩
  | _, _ => ⟨S2048x50, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_v1 : Ref sig .tc := ⟨.hbm, 16, rfl⟩
abbrev main_cst_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_cst_1 : Ref sig .tc := ⟨.hbm, 22, rfl⟩
abbrev main_v6 : Ref sig .tc := ⟨.hbm, 23, rfl⟩
abbrev main_c : Ref sig .tc := ⟨.hbm, 24, rfl⟩
abbrev main_v7 : Ref sig .tc := ⟨.hbm, 25, rfl⟩
abbrev main_v8 : Ref sig .tc := ⟨.hbm, 26, rfl⟩
abbrev main_c_2 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_c_3 : Ref sig .tc := ⟨.hbm, 31, rfl⟩
abbrev main_v12 : Ref sig .tc := ⟨.hbm, 32, rfl⟩
abbrev main_v13 : Ref sig .tc := ⟨.hbm, 33, rfl⟩
abbrev main_c_4 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_cst_5 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_cst_6 : Ref sig .tc := ⟨.hbm, 49, rfl⟩
abbrev main_call0_cst : Ref sig .tc := ⟨.hbm, 50, rfl⟩
abbrev main_call0_v0 : Ref sig .tc := ⟨.hbm, 51, rfl⟩
abbrev main_call0_v1 : Ref sig .tc := ⟨.hbm, 52, rfl⟩
abbrev main_call0_v2 : Ref sig .tc := ⟨.hbm, 53, rfl⟩
abbrev main_call0_v3 : Ref sig .tc := ⟨.hbm, 54, rfl⟩
abbrev main_call0_v4 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_cst_7 : Ref sig .tc := ⟨.hbm, 61, rfl⟩
abbrev main_call1_cst : Ref sig .tc := ⟨.hbm, 62, rfl⟩
abbrev main_call1_v0 : Ref sig .tc := ⟨.hbm, 63, rfl⟩
abbrev main_call1_v1 : Ref sig .tc := ⟨.hbm, 64, rfl⟩
abbrev main_call1_v2 : Ref sig .tc := ⟨.hbm, 65, rfl⟩
abbrev main_call1_v3 : Ref sig .tc := ⟨.hbm, 66, rfl⟩
abbrev main_call1_v4 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩

abbrev nD : Nat := 1
abbrev τ : Topo := Topo.v7x

variable {F : FTy → Type} [FloatOps F]

class Facts₀ : Prop where
  bcast_S_S2048x512 : S_.BroadcastsInDim S2048x512 (![] : Fin 0 → Fin S2048x512.rank)
  bcast_S2048_S2048x1_0 : S2048.BroadcastsInDim S2048x1 (![0] : Fin 1 → Fin S2048x1.rank)
  bcast_S_S2048x100000 : S_.BroadcastsInDim S2048x100000 (![] : Fin 0 → Fin S2048x100000.rank)
  bcast_S_S2048x1 : S_.BroadcastsInDim S2048x1 (![] : Fin 0 → Fin S2048x1.rank)
  bcast_S_S2048x50 : S_.BroadcastsInDim S2048x50 (![] : Fin 0 → Fin S2048x50.rank)
  bcast_S2048x1_S2048x50_0_1 : S2048x1.BroadcastsInDim S2048x50 (![0, 1] : Fin 2 → Fin S2048x50.rank)
  bcast_S2048x50_S2048x50x1_0_1 : S2048x50.BroadcastsInDim S2048x50x1 (![0, 1] : Fin 2 → Fin S2048x50x1.rank)
  concatenates_S2048x50x1_S2048x50x1_S2048x50x2_d2 : Shape.Concatenates [S2048x50x1, S2048x50x1] S2048x50x2 2
  bcast_S256_S1x256_1 : S256.BroadcastsInDim S1x256 (![1] : Fin 1 → Fin S1x256.rank)
  bcast_S1x256_S2048x256_0_1 : S1x256.BroadcastsInDim S2048x256 (![0, 1] : Fin 2 → Fin S2048x256.rank)
  bcast_S_S2048x256 : S_.BroadcastsInDim S2048x256 (![] : Fin 0 → Fin S2048x256.rank)
  bcast_S5_S1x5_1 : S5.BroadcastsInDim S1x5 (![1] : Fin 1 → Fin S1x5.rank)
  bcast_S1x5_S2048x5_0_1 : S1x5.BroadcastsInDim S2048x5 (![0, 1] : Fin 2 → Fin S2048x5.rank)
  bcast_S64_S1x64_1 : S64.BroadcastsInDim S1x64 (![1] : Fin 1 → Fin S1x64.rank)
  bcast_S1x64_S2048x64_0_1 : S1x64.BroadcastsInDim S2048x64 (![0, 1] : Fin 2 → Fin S2048x64.rank)
  scatter_S2048x100000_S2048x50x2_S2048x50_n_01_01_2_wf : ScatterDims.WF S2048x100000 S2048x50x2 S2048x50 [] [0, 1] [0, 1] 2
  dot_S2048x100000_S100000x256_S2048x256_1_0_0_1_n_n_wf : DotDims.WF S2048x100000 S100000x256 S2048x256 [1] [0] [0] [1] [] []
  dot_S2048x512_S512x256_S2048x256_1_0_0_1_n_n_wf : DotDims.WF S2048x512 S512x256 S2048x256 [1] [0] [0] [1] [] []
  dot_S2048x256_S256x5_S2048x5_1_0_0_1_n_n_wf : DotDims.WF S2048x256 S256x5 S2048x5 [1] [0] [0] [1] [] []
  dot_S2048x256_S256x64_S2048x64_1_0_0_1_n_n_wf : DotDims.WF S2048x256 S256x64 S2048x64 [1] [0] [0] [1] [] []

variable [Facts₀]

def scatter_S2048x100000_S2048x50x2_S2048x50_n_01_01_2 : ScatterDims S2048x100000 S2048x50x2 S2048x50 where
  updateWindowDims := []
  insertedWindowDims := [0, 1]
  scatterDimsToOperandDims := [0, 1]
  indexVectorDim := 2
  wf := scatter_S2048x100000_S2048x50x2_S2048x50_n_01_01_2_wf
def dot_S2048x100000_S100000x256_S2048x256_1_0_0_1_n_n : DotDims S2048x100000 S100000x256 S2048x256 where
  lhsContracting := [1]
  rhsContracting := [0]
  lhsNonContracting := [0]
  rhsNonContracting := [1]
  lhsBatch := []
  rhsBatch := []
  wf := dot_S2048x100000_S100000x256_S2048x256_1_0_0_1_n_n_wf
def dot_S2048x512_S512x256_S2048x256_1_0_0_1_n_n : DotDims S2048x512 S512x256 S2048x256 where
  lhsContracting := [1]
  rhsContracting := [0]
  lhsNonContracting := [0]
  rhsNonContracting := [1]
  lhsBatch := []
  rhsBatch := []
  wf := dot_S2048x512_S512x256_S2048x256_1_0_0_1_n_n_wf
def dot_S2048x256_S256x5_S2048x5_1_0_0_1_n_n : DotDims S2048x256 S256x5 S2048x5 where
  lhsContracting := [1]
  rhsContracting := [0]
  lhsNonContracting := [0]
  rhsNonContracting := [1]
  lhsBatch := []
  rhsBatch := []
  wf := dot_S2048x256_S256x5_S2048x5_1_0_0_1_n_n_wf
def dot_S2048x256_S256x64_S2048x64_1_0_0_1_n_n : DotDims S2048x256 S256x64 S2048x64 where
  lhsContracting := [1]
  rhsContracting := [0]
  lhsNonContracting := [0]
  rhsNonContracting := [1]
  lhsBatch := []
  rhsBatch := []
  wf := dot_S2048x256_S256x64_S2048x64_1_0_0_1_n_n_wf

class Facts : Prop extends Facts₀ where

variable [Facts]
-- ==== Proof.BowRegionDefsK.lean ====
/-
  Region 0 of the program: the bag-of-words kernel on the grid (2, 25). This module states the data of the region's
  frame: each window's block at a grid point, the accumulator's contents after each point, and the proof data of the
  pipeline (what every staging buffer holds after the body, and the invariant that carries the accumulator from one
  point to the next).

  The accumulator (a 1024 × 256 f32 buffer the pipeline does not stage) is reset at the first of every 25 points: the
  body stores zero, then adds the product of the point's two tiles. At the other points it adds the product to what the
  point before left. At the last of every 25 points the two heads are computed from the accumulator and the five small
  operands and stored in the two result windows.
-/
import proofs.«165028_j4097398800503_1_alg».proof.Proof.Gen.Kernel.Launch
import proofs.«165028_j4097398800503_1_alg».proof.Proof.Gen.Kernel.Skeleton
import proofs.«165028_j4097398800503_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Bow

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the TensorCore's buffers when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The two offsets of a whole-buffer access are zero. -/
theorem hz : (![0, 0] : Fin 2 → Nat) = fun _ => 0 := funext fun a => by fin_cases a <;> rfl

/-! ## The accumulator after each point -/

/-- What the accumulator holds after the body at position `n`: at the first of every 25 points the zero block plus the
    product of the point's tiles, elsewhere what the point before left plus that product. -/
def accAt0 (c : Dev nD) : (n : ℕ) → n < cfg0.N → Vec F S1024x256 .f32
  | 0, hn => k0_pay2 (k0_pay1 (F := F)) (iblk0 V c 0 ⟨0, hn⟩) (iblk0 V c 1 ⟨0, hn⟩)
  | n + 1, hn =>
    if (n + 1) % 25 = 0 then k0_pay2 (k0_pay1 (F := F)) (iblk0 V c 0 ⟨n + 1, hn⟩) (iblk0 V c 1 ⟨n + 1, hn⟩)
    else k0_pay2 (accAt0 c n (Nat.lt_of_succ_lt hn)) (iblk0 V c 0 ⟨n + 1, hn⟩) (iblk0 V c 1 ⟨n + 1, hn⟩)

/-- At a reset point the accumulator is zero plus the product of the point's tiles. -/
theorem accAt0_reset (c : Dev nD) (t : Fin cfg0.N) (h : t.val % 25 = 0) :
    accAt0 V c t.val t.isLt = k0_pay2 (k0_pay1 (F := F)) (iblk0 V c 0 t) (iblk0 V c 1 t) := by
  obtain ⟨n, hn⟩ := t
  cases n with
  | zero => rfl
  | succ n => exact if_pos h

/-- At any other point it is what the point before left plus the product of the point's tiles. -/
theorem accAt0_step (c : Dev nD) (t : Fin cfg0.N) (h : ¬ t.val % 25 = 0) :
    accAt0 V c t.val t.isLt = k0_pay2 (accAt0 V c (t.val - 1) (Nat.lt_of_le_of_lt (Nat.sub_le _ _) t.isLt)) (iblk0 V c 0 t) (iblk0 V c 1 t) := by
  obtain ⟨n, hn⟩ := t
  cases n with
  | zero => exact absurd (Nat.zero_mod _) h
  | succ n => exact if_neg h

/-! ## Where the result windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
/-- Away from the last of every 25 points the body stores nothing into the result windows, and the pipeline does not
    write them back there. -/
theorem idleAt0_7 : ∀ t : Fin cfg0.N, ¬t.val % 25 = 24 → cfg0.idle 7 (grid0.coords t) = true := by decide +kernel
theorem noFlush0_7 : ∀ t : Fin cfg0.N, ¬t.val % 25 = 24 → (cfg0.win 7).flush t = false := by decide +kernel
theorem idleAt0_8 : ∀ t : Fin cfg0.N, ¬t.val % 25 = 24 → cfg0.idle 8 (grid0.coords t) = true := by decide +kernel
theorem noFlush0_8 : ∀ t : Fin cfg0.N, ¬t.val % 25 = 24 → (cfg0.win 8).flush t = false := by decide +kernel
/-- At the last of every 25 points it stores both. -/
theorem liveAt0_7 : ∀ t : Fin cfg0.N, t.val % 25 = 24 → cfg0.idle 7 (grid0.coords t) = false := by decide +kernel
theorem liveAt0_8 : ∀ t : Fin cfg0.N, t.val % 25 = 24 → cfg0.idle 8 (grid0.coords t) = false := by decide +kernel

/-! ## The accumulator's buffer and the rest of the scoped buffers -/

/-- The accumulator: a whole scoped buffer of the kernel's own, passed beside the windows. -/
abbrev scM0 : Memref sig .tc .vmem S1024x256 .f32 := Memref.whole cc0_scratch0

/-- The core's other scoped buffers that are no staging buffer of this kernel (the staging buffers of the other kernel),
    each whole at some contents. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg7_1), ((c : Thread nD τ).loc cc1_stg7_1) ↦{fullShare} f) ∗ (∃ f : Buf (Elt F) ((c : Thread nD τ).loc cc1_stg8_0), ((c : Thread nD τ).loc cc1_stg8_0) ↦{fullShare} f) ∗ (∃ f : Buf (Elt F) ((c : Thread nD τ).loc cc1_stg8_1), ((c : Thread nD τ).loc cc1_stg8_1) ↦{fullShare} f))

/-- The class's invariant spelt out: the accumulator at some contents, the other scoped buffers, the generator register
    at some state. -/
theorem PhiA0_eq (c : Dev nD) :
    (Pipeline.ΦA spec0 c : sProp 𝕄)
      = iprop(iprop((∃ d, owns (c : Thread nD τ) scM0 fullShare d) ∗ rest0 (F := F) c) ∗ (∃ r, prngReg c r)) := by
  unfold Pipeline.ΦA rest0; rw [scopedRest0_eq]; simp only [scM0, owns_whole]; try rfl

/-! ## The invariant -/

/-- The region invariant before position `n`: before the first point the class's (every scoped buffer at anything);
    afterwards the accumulator at what the point before left in it, the other scoped buffers at anything, the
    generator register at some state. -/
def PhiS0 (c : Dev nD) : (n : ℕ) → n ≤ cfg0.N → sProp 𝕄
  | 0, _ => Pipeline.ΦA spec0 c
  | n + 1, hn => iprop(iprop(owns (c : Thread nD τ) scM0 fullShare (accAt0 V c n hn) ∗ rest0 (F := F) c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0 fullShare (accAt0 V c n hn) ∗ rest0 (F := F) c) ∗ (∃ r, prngReg c r)) := rfl

theorem PhiS0_pos (c : Dev nD) (n : ℕ) (h : n ≤ cfg0.N) (hz : n ≠ 0) :
    PhiS0 V c n h = iprop(iprop(owns (c : Thread nD τ) scM0 fullShare (accAt0 V c (n - 1) (by omega)) ∗ rest0 (F := F) c) ∗ (∃ r, prngReg c r)) := by
  cases n with
  | zero => exact absurd rfl hz
  | succ n => rfl

/-! ## The pipeline's proof data -/

/-- The proof data of the pipeline on core `c`: the arrays as the region finds them; after the body at point `t` each
    input's buffer at its block, the two result windows' buffers at the heads computed from the accumulator after `t`
    and the small operands' blocks (consulted only at the last of every 25 points: elsewhere the windows are idle and
    not written back); the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => k0_pay4 (accAt0 V c t.val t.isLt) (iblk0 V c 2 t) (iblk0 V c 3 t) (iblk0 V c 4 t)
    | ⟨8, _⟩ => k0_pay5 (accAt0 V c t.val t.isLt) (iblk0 V c 2 t) (iblk0 V c 5 t) (iblk0 V c 6 t)
  Φ t := PhiS0 V c t.val (Nat.le_of_lt_succ t.isLt)
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) :
    (dat0 V c).after 7 t = k0_pay4 (accAt0 V c t.val t.isLt) (iblk0 V c 2 t) (iblk0 V c 3 t) (iblk0 V c 4 t) := by dsimp only [dat0]
theorem after0_8 (c : Dev nD) (t : Fin cfg0.N) :
    (dat0 V c).after 8 t = k0_pay5 (accAt0 V c t.val t.isLt) (iblk0 V c 2 t) (iblk0 V c 5 t) (iblk0 V c 6 t) := by dsimp only [dat0]

/-- The invariant at a point's start, restated at the point's position. -/
theorem PhiS0_castSucc (c : Dev nD) (t : Fin cfg0.N) :
    (dat0 V c).Φ t.castSucc = PhiS0 V c t.val (Nat.le_of_lt t.isLt) := by
  dsimp only [dat0]; simp only [Fin.coe_castSucc]

/-- Before the first point the invariant is the class's. -/
theorem Phi0_zero (c : Dev nD) : (dat0 V c).Φ 0 = Pipeline.ΦA spec0 c := rfl

/-- What the launch hands the region is the invariant before the first point. -/
theorem hin0 (c : Dev nD) : Pipeline.ΦA spec0 c ⊢ (dat0 V c).Φ 0 := by
  rw [Phi0_zero]

/-- After any point but the first the invariant gives the class's back: the accumulator's named contents are forgotten. -/
theorem Phi0_out (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, Hr⟩, Hg⟩
  isplitl [HS0 Hr]
  · isplitl [HS0]
    · iexists _; iexact HS0
    iexact Hr
  iexact Hg

/-- The same after the last point. -/
theorem hout0 (c : Dev nD) : (dat0 V c).Φ (Fin.last cfg0.N) ⊢ Pipeline.ΦA spec0 c :=
  Phi0_out V c _ (by rw [Fin.val_last]; have : cfg0.N = 50 := N_0; omega)

end Cert.Kernel.Bow

end
-- ==== Proof.BowTriplesK.lean ====
import proofs.«165028_j4097398800503_1_alg».proof.Proof.Gen.Kernel.Launch
import proofs.«165028_j4097398800503_1_alg».proof.Proof.Gen.Kernel.Skeleton
import proofs.«165028_j4097398800503_1_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

/-! # The bag-of-words kernel body: its three runs

The bag-of-words kernel runs on a grid of two row blocks by twenty-five vocabulary tiles. At each point its body
reads one block of 1024 rows by 4096 columns of the multi-hot matrix and the matching 4096 rows of the hidden
layer's weight matrix, and adds their product into a scratch accumulator of 1024 by 256 sums that is carried from
one vocabulary tile to the next. Two conditions on the tile coordinate decide the rest: at the first tile the
accumulator is first filled with zeros, and at the last tile the bias row is added to the finished sums, the leaky
rectifier applied, and the two heads' values stored into the two output blocks.

Only three of the four combinations of the two conditions occur on the grid (a tile is not both first and last).
This module states the body's triple in each of them, for ANY float model `F`, over whole staging memrefs at named
contents: every access of the body is through the whole-shape rectangle at zero offsets, so a load reads the
contents, and after a store the buffer holds the stored payload. -/

set_option maxRecDepth 16384

noncomputable section

namespace Cert.Kernel.Bow

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## The two conditions -/

/-- The point is at the first vocabulary tile: the accumulator is zeroed there. -/
abbrev cond0_0 (i : grid0.Coords) : Prop := (Scalar.cmpi .ne (Scalar.extui (Scalar.cmpi .eq (BitVec.ofNat 32 (i 1).val) 0#32)) 0#32) = 1#1
/-- The point is at the last vocabulary tile: the heads are computed and stored there. -/
abbrev cond0_1 (i : grid0.Coords) : Prop := k0_cond2 i = 1#1

/-! ## Whole-shape accesses -/

/-- The two zero offsets of a rank-two access, spelt as a vector literal, are the zero function. -/
theorem zeros2 : (![0, 0] : Fin 2 → ℕ) = fun _ => 0 := by
  funext a; fin_cases a <;> rfl

section whole
variable {Val : EltTy → Type} [∀ e, Nonempty (Val e)] {sg : RefSig} {κ : Kind} {sp : Space} {S : Shape} {e : EltTy}

/-- A load through the whole-shape rectangle at zero offsets reads what the view reads. -/
theorem readAt_unit (v : View sg κ sp S e) {off : Fin S.rank → ℕ} (h : off = fun _ => 0)
    (inb : ∀ a, off a + S.size a ≤ S.size a) (f : v.ty.Contents Val) :
    v.readAt Val (Rect.unit off S.size inb).toLoadRect f = v.read Val f :=
  (View.readAt_eq_ld v f _).trans (View.ld_unit_zero h inb _)

/-- After a store through the whole-shape rectangle at zero offsets, LAST, the view reads the stored payload,
    whatever was stored before and whatever the buffer held. -/
theorem read_store_unit (v : View sg κ sp S e) {off : Fin S.rank → ℕ} (h : off = fun _ => 0)
    (inb : ∀ a, off a + S.size a ≤ S.size a) (f : v.ty.Contents Val) (w : S.Idx → Val e)
    (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero h inb y⟩),
    View.canon_cons_unit_zero h inb w L]

end whole

/-! ## The three runs -/

set_option maxHeartbeats 1000000 in
/-- At the first tile, not the last: the accumulator, at anything before, is zeroed, read back (the zeros), and
    left at the zeros plus the block product; the inputs and the two output blocks are as they were. -/
theorem sound_kernel0_A (c : Dev nD) (E : Set ℕ) (i : grid0.Coords) (a2 : Memref sig .tc .vmem S1024x4096 .bf16) (h2 : a2.IsWhole) (a3 : Memref sig .tc .vmem S4096x256 .bf16) (h3 : a3.IsWhole) (a4 : Memref sig .tc .vmem S1x256 .f32) (h4 : a4.IsWhole) (a5 : Memref sig .tc .vmem S256x5 .bf16) (h5 : a5.IsWhole) (a6 : Memref sig .tc .vmem S1x5 .f32) (h6 : a6.IsWhole) (a7 : Memref sig .tc .vmem S256x64 .bf16) (h7 : a7.IsWhole) (a8 : Memref sig .tc .vmem S1x64 .f32) (h8 : a8.IsWhole) (a9 : Memref sig .tc .vmem S1024x5 .f32) (h9 : a9.IsWhole) (a10 : Memref sig .tc .vmem S1024x64 .f32) (h10 : a10.IsWhole) (a11 : Memref sig .tc .vmem S1024x256 .f32) (h11 : a11.IsWhole) (x0 : Vec F S1024x4096 .bf16) (x1 : Vec F S4096x256 .bf16) (x2 : Vec F S1x256 .f32) (x3 : Vec F S256x5 .bf16) (x4 : Vec F S1x5 .f32) (x5 : Vec F S256x64 .bf16) (x6 : Vec F S1x64 .f32) (K : PUnit → sProp 𝕄) (hc0 : cond0_0 i) (hc1 : ¬cond0_1 i) (d9 : Vec F S1024x5 .f32) (d10 : Vec F S1024x64 .f32) :
    iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6 ∗ owns (c : Thread nD τ) a9 fullShare d9 ∗ owns (c : Thread nD τ) a10 fullShare d10 ∗ (∃ d, owns (c : Thread nD τ) a11 fullShare d)
        ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6 ∗ owns (c : Thread nD τ) a9 fullShare d9 ∗ owns (c : Thread nD τ) a10 fullShare d10 ∗ owns (c : Thread nD τ) a11 fullShare (k0_pay2 (k0_pay1 (F := F)) x0 x1)) -∗ K ⟨⟩))
      ⊢ wp frame (wpE (defs₀ (F := F)) Variants.none c none) E (cc0__bow_kernel i a2 h2 a3 h3 a4 h4 a5 h5 a6 h6 a7 h7 a8 h8 a9 h9 a10 h10 a11 h11) K := by
  simp only [cc0__bow_kernel_eq_skeleton]; unfold cc0__bow_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f9, %hf9, H9⟩, ⟨%f10, %hf10, H10⟩, ⟨%ds, %fs, -, HS⟩, Hk⟩
  subst hf0 hf1 hf2 hf3 hf4 hf5 hf6 hf9 hf10
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H9]
  · iexists f9; isplitr; · ipureintro; rfl
    iexact H9
  isplitl [H10]
  · iexists f10; isplitr; · ipureintro; rfl
    iexact H10
  iexists _; isplitr
  swap; · iexact HS
  ipureintro
  sl_unfold_run_names
  -- the last store leaves its payload; the accumulator read back after the zeroing store is the zeros
  rw [read_store_unit a11.view zeros2, View.readCov_unit_zero a11.view zeros2, readAt_unit a2.view zeros2,
    readAt_unit a3.view zeros2]

set_option maxHeartbeats 1000000 in
/-- At a tile neither first nor last: the accumulator, at the sums `xs` of the tiles before, is left at `xs` plus
    the block product; the inputs and the two output blocks are as they were. -/
theorem sound_kernel0_B (c : Dev nD) (E : Set ℕ) (i : grid0.Coords) (a2 : Memref sig .tc .vmem S1024x4096 .bf16) (h2 : a2.IsWhole) (a3 : Memref sig .tc .vmem S4096x256 .bf16) (h3 : a3.IsWhole) (a4 : Memref sig .tc .vmem S1x256 .f32) (h4 : a4.IsWhole) (a5 : Memref sig .tc .vmem S256x5 .bf16) (h5 : a5.IsWhole) (a6 : Memref sig .tc .vmem S1x5 .f32) (h6 : a6.IsWhole) (a7 : Memref sig .tc .vmem S256x64 .bf16) (h7 : a7.IsWhole) (a8 : Memref sig .tc .vmem S1x64 .f32) (h8 : a8.IsWhole) (a9 : Memref sig .tc .vmem S1024x5 .f32) (h9 : a9.IsWhole) (a10 : Memref sig .tc .vmem S1024x64 .f32) (h10 : a10.IsWhole) (a11 : Memref sig .tc .vmem S1024x256 .f32) (h11 : a11.IsWhole) (x0 : Vec F S1024x4096 .bf16) (x1 : Vec F S4096x256 .bf16) (x2 : Vec F S1x256 .f32) (x3 : Vec F S256x5 .bf16) (x4 : Vec F S1x5 .f32) (x5 : Vec F S256x64 .bf16) (x6 : Vec F S1x64 .f32) (K : PUnit → sProp 𝕄) (hc0 : ¬cond0_0 i) (hc1 : ¬cond0_1 i) (d9 : Vec F S1024x5 .f32) (d10 : Vec F S1024x64 .f32) (xs : Vec F S1024x256 .f32) :
    iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6 ∗ owns (c : Thread nD τ) a9 fullShare d9 ∗ owns (c : Thread nD τ) a10 fullShare d10 ∗ owns (c : Thread nD τ) a11 fullShare xs
        ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6 ∗ owns (c : Thread nD τ) a9 fullShare d9 ∗ owns (c : Thread nD τ) a10 fullShare d10 ∗ owns (c : Thread nD τ) a11 fullShare (k0_pay2 xs x0 x1)) -∗ K ⟨⟩))
      ⊢ wp frame (wpE (defs₀ (F := F)) Variants.none c none) E (cc0__bow_kernel i a2 h2 a3 h3 a4 h4 a5 h5 a6 h6 a7 h7 a8 h8 a9 h9 a10 h10 a11 h11) K := by
  simp only [cc0__bow_kernel_eq_skeleton]; unfold cc0__bow_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f9, %hf9, H9⟩, ⟨%f10, %hf10, H10⟩, ⟨%fs, %hfs, HS⟩, Hk⟩
  subst hf0 hf1 hf2 hf3 hf4 hf5 hf6 hf9 hf10 hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H9]
  · iexists f9; isplitr; · ipureintro; rfl
    iexact H9
  isplitl [H10]
  · iexists f10; isplitr; · ipureintro; rfl
    iexact H10
  iexists _; isplitr
  swap; · iexact HS
  ipureintro
  rw [read_store_unit a11.view zeros2, readAt_unit a11.view zeros2, readAt_unit a2.view zeros2,
    readAt_unit a3.view zeros2]

set_option maxHeartbeats 1000000 in
/-- At the last tile, not the first: the accumulator, at the sums `xs` of the tiles before, is left at `xs` plus
    the block product, and that finished value, read back, gives each head's block, stored over whatever the
    output block held; the inputs are as they were. -/
theorem sound_kernel0_C (c : Dev nD) (E : Set ℕ) (i : grid0.Coords) (a2 : Memref sig .tc .vmem S1024x4096 .bf16) (h2 : a2.IsWhole) (a3 : Memref sig .tc .vmem S4096x256 .bf16) (h3 : a3.IsWhole) (a4 : Memref sig .tc .vmem S1x256 .f32) (h4 : a4.IsWhole) (a5 : Memref sig .tc .vmem S256x5 .bf16) (h5 : a5.IsWhole) (a6 : Memref sig .tc .vmem S1x5 .f32) (h6 : a6.IsWhole) (a7 : Memref sig .tc .vmem S256x64 .bf16) (h7 : a7.IsWhole) (a8 : Memref sig .tc .vmem S1x64 .f32) (h8 : a8.IsWhole) (a9 : Memref sig .tc .vmem S1024x5 .f32) (h9 : a9.IsWhole) (a10 : Memref sig .tc .vmem S1024x64 .f32) (h10 : a10.IsWhole) (a11 : Memref sig .tc .vmem S1024x256 .f32) (h11 : a11.IsWhole) (x0 : Vec F S1024x4096 .bf16) (x1 : Vec F S4096x256 .bf16) (x2 : Vec F S1x256 .f32) (x3 : Vec F S256x5 .bf16) (x4 : Vec F S1x5 .f32) (x5 : Vec F S256x64 .bf16) (x6 : Vec F S1x64 .f32) (K : PUnit → sProp 𝕄) (hc0 : ¬cond0_0 i) (hc1 : cond0_1 i) (xs : Vec F S1024x256 .f32) :
    iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6 ∗ (∃ d, owns (c : Thread nD τ) a9 fullShare d) ∗ (∃ d, owns (c : Thread nD τ) a10 fullShare d) ∗ owns (c : Thread nD τ) a11 fullShare xs
        ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6 ∗ owns (c : Thread nD τ) a9 fullShare (k0_pay4 (k0_pay2 xs x0 x1) x2 x3 x4) ∗ owns (c : Thread nD τ) a10 fullShare (k0_pay5 (k0_pay2 xs x0 x1) x2 x5 x6) ∗ owns (c : Thread nD τ) a11 fullShare (k0_pay2 xs x0 x1)) -∗ K ⟨⟩))
      ⊢ wp frame (wpE (defs₀ (F := F)) Variants.none c none) E (cc0__bow_kernel i a2 h2 a3 h3 a4 h4 a5 h5 a6 h6 a7 h7 a8 h8 a9 h9 a10 h10 a11 h11) K := by
  simp only [cc0__bow_kernel_eq_skeleton]; unfold cc0__bow_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d9, %f9, -, H9⟩, ⟨%d10, %f10, -, H10⟩, ⟨%fs, %hfs, HS⟩, Hk⟩
  subst hf0 hf1 hf2 hf3 hf4 hf5 hf6 hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H9]
  · iexists _; isplitr
    swap; · iexact H9
    ipureintro
    sl_unfold_run_names
    -- the accumulator read back after its store is the stored sums
    rw [read_store_unit a9.view zeros2, View.readCov_unit_zero a11.view zeros2, readAt_unit a11.view zeros2,
      readAt_unit a2.view zeros2, readAt_unit a3.view zeros2, readAt_unit a4.view zeros2, readAt_unit a5.view zeros2,
      readAt_unit a6.view zeros2]
  isplitl [H10]
  · iexists _; isplitr
    swap; · iexact H10
    ipureintro
    sl_unfold_run_names
    rw [read_store_unit a10.view zeros2, View.readCov_unit_zero a11.view zeros2, readAt_unit a11.view zeros2,
      readAt_unit a2.view zeros2, readAt_unit a3.view zeros2, readAt_unit a4.view zeros2, readAt_unit a7.view zeros2,
      readAt_unit a8.view zeros2]
  iexists _; isplitr
  swap; · iexact HS
  ipureintro
  sl_unfold_run_names
  rw [read_store_unit a11.view zeros2, readAt_unit a11.view zeros2, readAt_unit a2.view zeros2,
    readAt_unit a3.view zeros2]

end Cert.Kernel.Bow

end
-- ==== Proof.BowRegionK.lean ====
/-
  Region 0 of the program: the body obligation of the bag-of-words kernel's pipeline. At every grid point the body,
  handed the invariant and every window's current staging buffer, runs to the invariant at the next point and every
  buffer at what the proof data name. The point's position decides which of the body's three control cases runs: the
  first of every 25 points resets the accumulator before adding the tiles' product, the last of every 25 also computes
  the two heads, the points between only accumulate.
-/
import proofs.«165028_j4097398800503_1_alg».proof.Proof.BowRegionDefsK
import proofs.«165028_j4097398800503_1_alg».proof.Proof.BowTriplesK

set_option maxRecDepth 16384

noncomputable section

namespace Cert.Kernel.Bow

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body's two conditions, over the grid -/

/-- The first condition (the second grid coordinate is zero) holds at the first of every 25 points. -/
theorem hcond0_0 : ∀ t : Fin cfg0.N, cond0_0 (grid0.coords t) ↔ t.val % 25 = 0 :=
  (by decide +kernel : ∀ t : Fin grid0.N, cond0_0 (grid0.coords t) ↔ t.val % 25 = 0)

/-- The second condition (the second grid coordinate is 24) holds at the last of every 25 points. -/
theorem hcond0_1 : ∀ t : Fin cfg0.N, cond0_1 (grid0.coords t) ↔ t.val % 25 = 24 :=
  (by decide +kernel : ∀ t : Fin grid0.N, cond0_1 (grid0.coords t) ↔ t.val % 25 = 24)

/-! ## Each input's current staging buffer holds its block at every point, fetched there or not -/

theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl) (fun t => by rw [after0_4]; unfold Dat.blockOf iblk0; rw [A_eq0]; try rfl) t d).trans
    (by unfold Dat.fetched Dat.blockOf iblk0; rw [A_eq0]; try rfl)
theorem before0_5 (c : Dev nD) (t : Fin cfg0.N) (d) : (dat0 V c).before 5 t d = iblk0 V c 5 t :=
  ((dat0 V c).before_in_eq_fetched 5 rfl (fun _ => rfl) (fun _ _ _ => rfl) (fun t => by rw [after0_5]; unfold Dat.blockOf iblk0; rw [A_eq0]; try rfl) t d).trans
    (by unfold Dat.fetched Dat.blockOf iblk0; rw [A_eq0]; try rfl)
theorem before0_6 (c : Dev nD) (t : Fin cfg0.N) (d) : (dat0 V c).before 6 t d = iblk0 V c 6 t :=
  ((dat0 V c).before_in_eq_fetched 6 rfl (fun _ => rfl) (fun _ _ _ => rfl) (fun t => by rw [after0_6]; unfold Dat.blockOf iblk0; rw [A_eq0]; try rfl) t d).trans
    (by unfold Dat.fetched Dat.blockOf iblk0; rw [A_eq0]; try rfl)

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t)

set_option maxHeartbeats 4800000 in
/-- The body at any point: the inputs' buffers hold their blocks; the point's position says which case runs; the
    invariant hands the body the accumulator at what the point before left (at anything at a reset point) and takes it
    back at this point's contents; away from the last of every 25 points the result windows' buffers come back as
    found, there they come back at the two heads; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).owesAt () t.succ = (dat0 V c).owesAt () t.castSucc from rfl]
  rw [show (dat0 V c).Φ t.succ = PhiS0 V c (t.val + 1) t.isLt from rfl, PhiS0_succ]
  have hN : t.val < 50 := lt_of_lt_of_eq t.isLt (show cfg0.N = 50 from N_0)
  rw [show (dat0 V c).leavesExact 0 t = owns (c : Thread nD τ) (st0_0 t) fullShare ((dat0 V c).after 0 t) from by
    unfold Dat.leavesExact; rw [liveAt0_0 t], after0_0]
  rw [show (dat0 V c).leavesExact 1 t = owns (c : Thread nD τ) (st0_1 t) fullShare ((dat0 V c).after 1 t) from by
    unfold Dat.leavesExact; rw [liveAt0_1 t], after0_1]
  rw [show (dat0 V c).leavesExact 2 t = owns (c : Thread nD τ) (st0_2 t) fullShare ((dat0 V c).after 2 t) from by
    unfold Dat.leavesExact; rw [liveAt0_2 t], after0_2]
  rw [show (dat0 V c).leavesExact 3 t = owns (c : Thread nD τ) (st0_3 t) fullShare ((dat0 V c).after 3 t) from by
    unfold Dat.leavesExact; rw [liveAt0_3 t], after0_3]
  rw [show (dat0 V c).leavesExact 4 t = owns (c : Thread nD τ) (st0_4 t) fullShare ((dat0 V c).after 4 t) from by
    unfold Dat.leavesExact; rw [liveAt0_4 t], after0_4]
  rw [show (dat0 V c).leavesExact 5 t = owns (c : Thread nD τ) (st0_5 t) fullShare ((dat0 V c).after 5 t) from by
    unfold Dat.leavesExact; rw [liveAt0_5 t], after0_5]
  rw [show (dat0 V c).leavesExact 6 t = owns (c : Thread nD τ) (st0_6 t) fullShare ((dat0 V c).after 6 t) from by
    unfold Dat.leavesExact; rw [liveAt0_6 t], after0_6]
  by_cases h0 : t.val % 25 = 0
  · have h1 : ¬t.val % 25 = 24 := by omega
    rw [Dat.leavesExact_idle (dat0 V c) 7 t (idleAt0_7 t h1) (noFlush0_7 t h1)]
    rw [Dat.leavesExact_idle (dat0 V c) 8 t (idleAt0_8 t h1) (noFlush0_8 t h1)]
    rw [accAt0_reset V c t h0]
    by_cases hz : t.val = 0
    · rw [PhiS0_castSucc V c t, PhiS0_zero V c _ _ hz, PhiA0_eq]
      iintro ⟨⟨⟨HS, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (sound_kernel0_A (F := F) (c := c) (E := Set.univ) (i := grid0.coords t) (a2 := _) (h2 := _) (a3 := _) (h3 := _) (a4 := _) (h4 := _) (a5 := _) (h5 := _) (a6 := _) (h6 := _) (a7 := _) (h7 := _) (a8 := _) (h8 := _) (a9 := _) (h9 := _) (a10 := _) (h10 := _) (a11 := _) (h11 := _) (x0 := iblk0 V c 0 t) (x1 := iblk0 V c 1 t) (x2 := iblk0 V c 2 t) (x3 := iblk0 V c 3 t) (x4 := iblk0 V c 4 t) (x5 := iblk0 V c 5 t) (x6 := iblk0 V c 6 t) (K := _)
        (hc0 := (hcond0_0 t).mpr h0) (hc1 := fun h => h1 ((hcond0_1 t).mp h)) (d9 := (dat0 V c).before 7 t d7) (d10 := (dat0 V c).before 8 t d8))
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS]; · iexact HS
      iintro ⟨H0, H1, H2, H3, H4, H5, H6, H7, H8, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      iexists _; iexact H8
    · rw [PhiS0_castSucc V c t, PhiS0_pos V c _ _ hz]
      iintro ⟨⟨⟨HS, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (sound_kernel0_A (F := F) (c := c) (E := Set.univ) (i := grid0.coords t) (a2 := _) (h2 := _) (a3 := _) (h3 := _) (a4 := _) (h4 := _) (a5 := _) (h5 := _) (a6 := _) (h6 := _) (a7 := _) (h7 := _) (a8 := _) (h8 := _) (a9 := _) (h9 := _) (a10 := _) (h10 := _) (a11 := _) (h11 := _) (x0 := iblk0 V c 0 t) (x1 := iblk0 V c 1 t) (x2 := iblk0 V c 2 t) (x3 := iblk0 V c 3 t) (x4 := iblk0 V c 4 t) (x5 := iblk0 V c 5 t) (x6 := iblk0 V c 6 t) (K := _)
        (hc0 := (hcond0_0 t).mpr h0) (hc1 := fun h => h1 ((hcond0_1 t).mp h)) (d9 := (dat0 V c).before 7 t d7) (d10 := (dat0 V c).before 8 t d8))
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS]; · iexists _; iexact HS
      iintro ⟨H0, H1, H2, H3, H4, H5, H6, H7, H8, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      iexists _; iexact H8
  · have hz : t.val ≠ 0 := fun e => h0 (by rw [e])
    by_cases h1 : t.val % 25 = 24
    · rw [show (dat0 V c).leavesExact 7 t = owns (c : Thread nD τ) (st0_7 t) fullShare ((dat0 V c).after 7 t) from by
        unfold Dat.leavesExact; rw [liveAt0_7 t h1], after0_7]
      rw [show (dat0 V c).leavesExact 8 t = owns (c : Thread nD τ) (st0_8 t) fullShare ((dat0 V c).after 8 t) from by
        unfold Dat.leavesExact; rw [liveAt0_8 t h1], after0_8]
      rw [accAt0_step V c t h0]
      rw [PhiS0_castSucc V c t, PhiS0_pos V c _ _ hz]
      iintro ⟨⟨⟨HS, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (sound_kernel0_C (F := F) (c := c) (E := Set.univ) (i := grid0.coords t) (a2 := _) (h2 := _) (a3 := _) (h3 := _) (a4 := _) (h4 := _) (a5 := _) (h5 := _) (a6 := _) (h6 := _) (a7 := _) (h7 := _) (a8 := _) (h8 := _) (a9 := _) (h9 := _) (a10 := _) (h10 := _) (a11 := _) (h11 := _) (x0 := iblk0 V c 0 t) (x1 := iblk0 V c 1 t) (x2 := iblk0 V c 2 t) (x3 := iblk0 V c 3 t) (x4 := iblk0 V c 4 t) (x5 := iblk0 V c 5 t) (x6 := iblk0 V c 6 t) (K := _)
        (hc0 := fun h => h0 ((hcond0_0 t).mp h)) (hc1 := (hcond0_1 t).mpr h1) (xs := accAt0 V c (t.val - 1) (Nat.lt_of_le_of_lt (Nat.sub_le _ _) t.isLt)))
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [HS]; · iexact HS
      iintro ⟨H0, H1, H2, H3, H4, H5, H6, H7, H8, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · rw [Dat.leavesExact_idle (dat0 V c) 7 t (idleAt0_7 t h1) (noFlush0_7 t h1)]
      rw [Dat.leavesExact_idle (dat0 V c) 8 t (idleAt0_8 t h1) (noFlush0_8 t h1)]
      rw [accAt0_step V c t h0]
      rw [PhiS0_castSucc V c t, PhiS0_pos V c _ _ hz]
      iintro ⟨⟨⟨HS, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (sound_kernel0_B (F := F) (c := c) (E := Set.univ) (i := grid0.coords t) (a2 := _) (h2 := _) (a3 := _) (h3 := _) (a4 := _) (h4 := _) (a5 := _) (h5 := _) (a6 := _) (h6 := _) (a7 := _) (h7 := _) (a8 := _) (h8 := _) (a9 := _) (h9 := _) (a10 := _) (h10 := _) (a11 := _) (h11 := _) (x0 := iblk0 V c 0 t) (x1 := iblk0 V c 1 t) (x2 := iblk0 V c 2 t) (x3 := iblk0 V c 3 t) (x4 := iblk0 V c 4 t) (x5 := iblk0 V c 5 t) (x6 := iblk0 V c 6 t) (K := _)
        (hc0 := fun h => h0 ((hcond0_0 t).mp h)) (hc1 := fun h => h1 ((hcond0_1 t).mp h)) (d9 := (dat0 V c).before 7 t d7) (d10 := (dat0 V c).before 8 t d8)
        (xs := accAt0 V c (t.val - 1) (Nat.lt_of_le_of_lt (Nat.sub_le _ _) t.isLt)))
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS]; · iexact HS
      iintro ⟨H0, H1, H2, H3, H4, H5, H6, H7, H8, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      iexists _; iexact H8

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Bow

end
-- ==== Proof.BeoRegionK.lean ====
import proofs.«165028_j4097398800503_1_alg».proof.Proof.Gen.Kernel.Launch
import proofs.«165028_j4097398800503_1_alg».proof.Proof.Gen.Kernel.Skeleton
import proofs.«165028_j4097398800503_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The dense branch's region: what its body leaves, and the body obligation

The second TensorCore region of the program runs one kernel on a grid of two points. At each point it reads one
block of 1024 rows of the dense input and the whole of six parameter arrays (a weight matrix and a bias row for
the hidden layer, and a weight matrix and a bias row for each of the two heads), and writes one block of 1024
rows of each of the two outputs. Nothing is carried from one point to the next.

This module states, for ANY float model `F` and at a parameter `V` (the buffer contents when the region is
entered): each window's block at a point, the contents the body leaves in each output buffer as a function of
the input blocks, the body's triple, the region's proof data, and the library's body obligation for it. -/

-- membership in a rectangle of 1024 rows: the structural check recurses once per coordinate of the long axis
set_option maxRecDepth 16384

noncomputable section

namespace Cert.Kernel.Beo

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s (`hA`) and whose body leaves the block in place (`hafter`): where the window is not
    fetched its block index has not moved, and the window is neither cut nor ever idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s (`hA`) and whose body leaves the block in place (`hafter`): where the window is not
    fetched its block index has not moved, and the window is neither cut nor ever idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s (`hA`) and whose body leaves the block in place (`hafter`): where the window is not
    fetched its block index has not moved, and the window is neither cut nor ever idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is `V`'s (`hA`) and whose body leaves the block in place (`hafter`): where the window is not
    fetched its block index has not moved, and the window is neither cut nor ever idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof
    data whose array is `V`'s (`hA`) and whose body leaves the block in place (`hafter`): where the window is not
    fetched its block index has not moved, and the window is neither cut nor ever idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not, for any proof
    data whose array is `V`'s (`hA`) and whose body leaves the block in place (`hafter`): where the window is not
    fetched its block index has not moved, and the window is neither cut nor ever idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, fetched there or not, for any proof
    data whose array is `V`'s (`hA`) and whose body leaves the block in place (`hafter`): where the window is not
    fetched its block index has not moved, and the window is neither cut nor ever idle. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every buffer is read or written whole -/

abbrev r1_0 : Rect S1024x512 := Rect.unit (s := S1024x512) ![0, 0] S1024x512.size inb_S1024x512_S1024x512_0_0
abbrev r1_1 : Rect S512x256 := Rect.unit (s := S512x256) ![0, 0] S512x256.size inb_S512x256_S512x256_0_0
abbrev r1_2 : Rect S1x256 := Rect.unit (s := S1x256) ![0, 0] S1x256.size inb_S1x256_S1x256_0_0
abbrev r1_3 : Rect S256x5 := Rect.unit (s := S256x5) ![0, 0] S256x5.size inb_S256x5_S256x5_0_0
abbrev r1_4 : Rect S1x5 := Rect.unit (s := S1x5) ![0, 0] S1x5.size inb_S1x5_S1x5_0_0
abbrev r1_5 : Rect S256x64 := Rect.unit (s := S256x64) ![0, 0] S256x64.size inb_S256x64_S256x64_0_0
abbrev r1_6 : Rect S1x64 := Rect.unit (s := S1x64) ![0, 0] S1x64.size inb_S1x64_S1x64_0_0
abbrev r1_7 : Rect S1024x5 := Rect.unit (s := S1024x5) ![0, 0] S1024x5.size inb_S1024x5_S1024x5_0_0
abbrev r1_8 : Rect S1024x64 := Rect.unit (s := S1024x64) ![0, 0] S1024x64.size inb_S1024x64_S1024x64_0_0

/-! ## What the body leaves in each output window's buffer -/

/-- Window 7's staging buffer after the body, from the blocks of the input, of the hidden layer's parameters and of
    the first head's parameters: its one store, of the first head's value, over the whole buffer. -/
def out1_7 (x0 : Vec F S1024x512 .f32) (x1 : Vec F S512x256 .bf16) (x2 : Vec F S1x256 .f32) (x3 : Vec F S256x5 .bf16) (x4 : Vec F S1x5 .f32) : Vec F S1024x5 .f32 :=
  View.canon [⟨r1_7, k1_pay2 (View.ld x0 r1_0) (View.ld x1 r1_1) (View.ld x2 r1_2) (View.ld x3 r1_3) (View.ld x4 r1_4)⟩]

/-- Its one store covers the buffer. -/
theorem cover1_7 (p0 : Vec F S1024x5 .f32) (y : S1024x5.Idx) :
    ∃ pc ∈ ([⟨r1_7, p0⟩] : List (View.Piece (Elt F) S1024x5 .f32)), y ∈ pc.1.set :=
  View.cover_of_tiled [⟨r1_7, p0⟩] S1024x5.size (by rfl) y

/-- Window 8's staging buffer after the body, from the blocks of the input, of the hidden layer's parameters and of
    the second head's parameters: its one store, of the second head's value, over the whole buffer. -/
def out1_8 (x0 : Vec F S1024x512 .f32) (x1 : Vec F S512x256 .bf16) (x2 : Vec F S1x256 .f32) (x5 : Vec F S256x64 .bf16) (x6 : Vec F S1x64 .f32) : Vec F S1024x64 .f32 :=
  View.canon [⟨r1_8, k1_pay3 (View.ld x0 r1_0) (View.ld x1 r1_1) (View.ld x2 r1_2) (View.ld x5 r1_5) (View.ld x6 r1_6)⟩]

/-- Its one store covers the buffer. -/
theorem cover1_8 (p0 : Vec F S1024x64 .f32) (y : S1024x64.Idx) :
    ∃ pc ∈ ([⟨r1_8, p0⟩] : List (View.Piece (Elt F) S1024x64 .f32)), y ∈ pc.1.set :=
  View.cover_of_tiled [⟨r1_8, p0⟩] S1024x64.size (by rfl) y

/-! ## The body's triple -/

set_option maxHeartbeats 1000000 in
/-- The kernel body on whole staging memrefs, the inputs' at read contents `xW` and the outputs' at anything, runs to
    the continuation holding the inputs' as they were and each output's at `out1_W` of the inputs'. Each output buffer
    is loaded once before its store; the loaded value is not used. -/
theorem sound_kernel1 (c : Dev nD) (E : Set ℕ) (i : grid1.Coords) (arg1 : Memref sig .tc .vmem S1024x512 .f32) (harg1 : arg1.IsWhole) (arg2 : Memref sig .tc .vmem S512x256 .bf16) (harg2 : arg2.IsWhole) (arg3 : Memref sig .tc .vmem S1x256 .f32) (harg3 : arg3.IsWhole) (arg4 : Memref sig .tc .vmem S256x5 .bf16) (harg4 : arg4.IsWhole) (arg5 : Memref sig .tc .vmem S1x5 .f32) (harg5 : arg5.IsWhole) (arg6 : Memref sig .tc .vmem S256x64 .bf16) (harg6 : arg6.IsWhole) (arg7 : Memref sig .tc .vmem S1x64 .f32) (harg7 : arg7.IsWhole) (arg8 : Memref sig .tc .vmem S1024x5 .f32) (harg8 : arg8.IsWhole) (arg9 : Memref sig .tc .vmem S1024x64 .f32) (harg9 : arg9.IsWhole)
    (x0 : Vec F S1024x512 .f32) (x1 : Vec F S512x256 .bf16) (x2 : Vec F S1x256 .f32) (x3 : Vec F S256x5 .bf16) (x4 : Vec F S1x5 .f32) (x5 : Vec F S256x64 .bf16) (x6 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out1_7 x0 x1 x2 x3 x4) ∗ owns (c : Thread nD τ) arg9 fullShare (out1_8 x0 x1 x2 x5 x6)) -∗ K ⟨⟩))
      ⊢ wp frame (wpE (defs₀ (F := F)) Variants.none c none) E (cc1__beo_kernel i arg1 harg1 arg2 harg2 arg3 harg3 arg4 harg4 arg5 harg5 arg6 harg6 arg7 harg7 arg8 harg8 arg9 harg9) K := by
  simp only [cc1__beo_kernel_eq_skeleton]; unfold cc1__beo_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover1_7 _)
  iexists _; isplitr
  swap; · iexact H8
  ipureintro
  exact View.read_writes_eq_canon _ _ _ (cover1_8 _)

/-! ## The region's proof data -/

/-- The proof data of the region's pipeline on core `c`: the arrays as the region finds them (`V`); after the body at
    point `t` each input's buffer at its block and each output's at `out1_W` of the input blocks; the invariant the
    one of a body that touches nothing but its windows; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t)
    | ⟨8, _⟩ => out1_8 (iblk1 V c 0 t) (iblk1 V c 1 t) (iblk1 V c 2 t) (iblk1 V c 5 t) (iblk1 V c 6 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) := by dsimp only [dat1]
theorem after1_8 (c : Dev nD) (t : Fin cfg1.N) : (dat1 V c).after 8 t = out1_8 (iblk1 V c 0 t) (iblk1 V c 1 t) (iblk1 V c 2 t) (iblk1 V c 5 t) (iblk1 V c 6 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t))

/-- The body at any point: the inputs' memrefs hold their blocks (`before1_W`), so `sound_kernel1` applies; the
    invariant and the core's debt pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel1 c Set.univ (grid1.coords t) _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Beo

end
-- ==== Proof.KernelRunK.lean ====
/-
  The two kernel regions chained into one run of the whole program.

  Between two items of the program a core's buffers are a fold from the launch memory: a stretch of host operations
  applies them, a kernel region replaces each of its windows' arrays by what the pipeline's write-backs leave and keeps every
  other buffer. Each region is entered with every unscoped buffer held at the boundary's contents and left the same
  way, so the regions and the host stretches compose; at the end every unscoped buffer is read against the last
  fold. No host operation and no region writes an argument array, so the fold at an argument walks back to the launch
  memory; the four results are the output windows' arrays of the two regions.
-/
import proofs.«165028_j4097398800503_1_alg».proof.Proof.BowRegionK
import proofs.«165028_j4097398800503_1_alg».proof.Proof.BeoRegionK
import proofs.«165028_j4097398800503_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Bow Cert.Kernel.Beo

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core c's buffers at launch. -/
abbrev W0 : Dev nD → Valuation τ sig (Elt F) := fun c b => (s₀ m ρ).mem ((c : Dev nD), b)
/-- After the first stretch of host operations (the multi-hot matrix). -/
abbrev W1 : Dev nD → Valuation τ sig (Elt F) := fun c => StableHlo.after hostOps0 (W0 m ρ c)
/-- After the padding of the big weight matrix. -/
abbrev W2 : Dev nD → Valuation τ sig (Elt F) := fun c => StableHlo.after hostOps0_1 (W1 m ρ c)
/-- After the format changes and reshapes: the first region's entry. -/
abbrev W3 : Dev nD → Valuation τ sig (Elt F) := fun c => StableHlo.after hostOps0_2 (W2 m ρ c)
abbrev V3 : (c : Dev nD) → (b : Ref sig .tc) → Buf (Elt F) ((c : Thread nD τ).loc b) := fun c b => W3 m ρ c b
/-- At the first region's exit: its arrays at what the pipeline leaves, every other buffer as entered. -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
abbrev V4 : (c : Dev nD) → (b : Ref sig .tc) → Buf (Elt F) ((c : Thread nD τ).loc b) := fun c b => W4 m ρ c b
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)

/-- After the second branch's host operations: the second region's entry. -/
abbrev W5 : Dev nD → Valuation τ sig (Elt F) := fun c => StableHlo.after hostOps1 (W4 m ρ c)
abbrev V5 : (c : Dev nD) → (b : Ref sig .tc) → Buf (Elt F) ((c : Thread nD τ).loc b) := fun c b => W5 m ρ c b
/-- At the second region's exit. -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
abbrev V6 : (c : Dev nD) → (b : Ref sig .tc) → Buf (Elt F) ((c : Thread nD τ).loc b) := fun c b => W6 m ρ c b
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)

/-! ## What reaches the end unchanged, and where the results sit -/

/-- A buffer that no host stretch writes and that is no window's array of either region ends as launched. -/
theorem W6_untouched (c : Dev nD) (r : Ref sig .tc) (h1 : ∀ w, Pipeline.arrRef spec1 w ≠ r) (h2 : r ∉ hostOps1_W)
    (h3 : ∀ w, Pipeline.arrRef spec0 w ≠ r) (h4 : r ∉ hostOps0_2_W) (h5 : r ∉ hostOps0_1_W) (h6 : r ∉ hostOps0_W) :
    W6 m ρ c (Proc.devRef .tc r) = m ((c : Thread nD τ).loc r) :=
  calc W6 m ρ c (Proc.devRef .tc r)
    _ = W5 m ρ c (Proc.devRef .tc r) := W6_of_ne m ρ c r h1
    _ = W4 m ρ c (Proc.devRef .tc r) := StableHlo.after_of_writes_sub hostOps1 _ hostOps1_writes h2
    _ = W3 m ρ c (Proc.devRef .tc r) := W4_of_ne m ρ c r h3
    _ = W2 m ρ c (Proc.devRef .tc r) := StableHlo.after_of_writes_sub hostOps0_2 _ hostOps0_2_writes h4
    _ = W1 m ρ c (Proc.devRef .tc r) := StableHlo.after_of_writes_sub hostOps0_1 _ hostOps0_1_writes h5
    _ = W0 m ρ c (Proc.devRef .tc r) := StableHlo.after_of_writes_sub hostOps0 _ hostOps0_writes h6
    _ = m ((c : Thread nD τ).loc r) := rfl

/-- A buffer the second branch leaves alone holds at the end what the first region's exit gave it. -/
theorem W6_of_first (c : Dev nD) (r : Ref sig .tc) (h1 : ∀ w, Pipeline.arrRef spec1 w ≠ r) (h2 : r ∉ hostOps1_W) :
    W6 m ρ c (Proc.devRef .tc r) = W4 m ρ c (Proc.devRef .tc r) :=
  (W6_of_ne m ρ c r h1).trans (StableHlo.after_of_writes_sub hostOps1 _ hostOps1_writes h2)

/-- An argument array is untouched when the second region is entered. -/
theorem W4_untouched (c : Dev nD) (r : Ref sig .tc)
    (h3 : ∀ w, Pipeline.arrRef spec0 w ≠ r) (h4 : r ∉ hostOps0_2_W) (h5 : r ∉ hostOps0_1_W) (h6 : r ∉ hostOps0_W) :
    W4 m ρ c (Proc.devRef .tc r) = m ((c : Thread nD τ).loc r) :=
  calc W4 m ρ c (Proc.devRef .tc r)
    _ = W3 m ρ c (Proc.devRef .tc r) := W4_of_ne m ρ c r h3
    _ = W2 m ρ c (Proc.devRef .tc r) := StableHlo.after_of_writes_sub hostOps0_2 _ hostOps0_2_writes h4
    _ = W1 m ρ c (Proc.devRef .tc r) := StableHlo.after_of_writes_sub hostOps0_1 _ hostOps0_1_writes h5
    _ = W0 m ρ c (Proc.devRef .tc r) := StableHlo.after_of_writes_sub hostOps0 _ hostOps0_writes h6
    _ = m ((c : Thread nD τ).loc r) := rfl

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V5 m ρ) c
abbrev 𝒱₀ : Variants := Variants.none
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W6 m ρ c) ∗ ∃ r, prngReg c r)

/-! ## The regions as segments -/

set_option backward.isDefEq.respectTransparency.types false in
/-- Region 0 over the thread state: entered with every unscoped buffer at its entry contents, left with the region's
    arrays at what its write-backs leave and every other buffer as entered. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from Phi0_zero (V3 m ρ) c]; unfold Pipeline.ΦA
    iintro ⟨Hp, -, Hr⟩
    isplitl [Hr]; · iexact Hr
    iexact Hp
  hout c := by
    rw [Pipeline.ownSems0_none]
    refine (show (pdats m ρ 0 c).Φ (Fin.last _) ⊢ Pipeline.ΦA spec0 c from hout0 (V3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at its entry contents, left with the region's
    arrays at what its write-backs leave and every other buffer as entered. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ) ]
theorem main_run (c : Dev nD) : main (F := F) c = Pipeline.Seg.run (segs m ρ) := (main_chain c).trans (by chain_rfl)

set_option backward.isDefEq.respectTransparency.types false in
/-- Every weakly fair execution of the program from the launch memory terminates, nothing faulting, with every unscoped
    buffer of every core at the last fold's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

/-- A buffer no item writes is read at the end at its launch contents. -/
theorem arg_end (s : MemSt nD τ sig (Elt F)) (h : ∀ c : Dev nD, ∀ b ∈ Pipeline.ucRefs τ sig, s.mem (((c : Thread nD τ)).1, b) = W6 m ρ c b)
    (c : Dev nD) (a : Ref sig .tc) (hu : ¬ (Proc.devRef .tc a : DevRef τ sig).isScoped)
    (h1 : ∀ w, Pipeline.arrRef spec1 w ≠ a) (h2 : a ∉ hostOps1_W)
    (h3 : ∀ w, Pipeline.arrRef spec0 w ≠ a) (h4 : a ∉ hostOps0_2_W) (h5 : a ∉ hostOps0_1_W) (h6 : a ∉ hostOps0_W) :
    s.mem ((c.tc : Thread nD τ).loc a) = m ((c.tc : Thread nD τ).loc a) :=
  (h c _ (mem_uc a hu)).trans (W6_untouched m ρ c a h1 h2 h3 h4 h5 h6)

/-- The frame: every weakly fair execution terminates, nothing faulting, and the fourteen argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c =>
    ⟨arg_end m ρ r.2 h c main_arg0 (by decide) (by decide) (by decide) (by decide) (by decide) (by decide) (by decide),
      arg_end m ρ r.2 h c main_arg1 (by decide) (by decide) (by decide) (by decide) (by decide) (by decide) (by decide),
      arg_end m ρ r.2 h c main_arg2 (by decide) (by decide) (by decide) (by decide) (by decide) (by decide) (by decide),
      arg_end m ρ r.2 h c main_arg3 (by decide) (by decide) (by decide) (by decide) (by decide) (by decide) (by decide),
      arg_end m ρ r.2 h c main_arg4 (by decide) (by decide) (by decide) (by decide) (by decide) (by decide) (by decide),
      arg_end m ρ r.2 h c main_arg5 (by decide) (by decide) (by decide) (by decide) (by decide) (by decide) (by decide),
      arg_end m ρ r.2 h c main_arg6 (by decide) (by decide) (by decide) (by decide) (by decide) (by decide) (by decide),
      arg_end m ρ r.2 h c main_arg7 (by decide) (by decide) (by decide) (by decide) (by decide) (by decide) (by decide),
      arg_end m ρ r.2 h c main_arg8 (by decide) (by decide) (by decide) (by decide) (by decide) (by decide) (by decide),
      arg_end m ρ r.2 h c main_arg9 (by decide) (by decide) (by decide) (by decide) (by decide) (by decide) (by decide),
      arg_end m ρ r.2 h c main_arg10 (by decide) (by decide) (by decide) (by decide) (by decide) (by decide) (by decide),
      arg_end m ρ r.2 h c main_arg11 (by decide) (by decide) (by decide) (by decide) (by decide) (by decide) (by decide),
      arg_end m ρ r.2 h c main_arg12 (by decide) (by decide) (by decide) (by decide) (by decide) (by decide) (by decide),
      arg_end m ρ r.2 h c main_arg13 (by decide) (by decide) (by decide) (by decide) (by decide) (by decide) (by decide)⟩) (run_all m ρ)

end Cert.Kernel.Run

end
-- ==== Proof.BowRegionDefs.lean ====
/-
  Region 0 of the program: the bag-of-words kernel on the grid (2, 25). This module states the data of the region's
  frame: each window's block at a grid point, the accumulator's contents after each point, and the proof data of the
  pipeline (what every staging buffer holds after the body, and the invariant that carries the accumulator from one
  point to the next).

  The accumulator (a 1024 × 256 f32 buffer the pipeline does not stage) is reset at the first of every 25 points: the
  body stores zero, then adds the product of the point's two tiles. At the other points it adds the product to what the
  point before left. At the last of every 25 points the two heads are computed from the accumulator and the five small
  operands and stored in the two result windows.
-/
import proofs.«165028_j4097398800503_1_alg».proof.Proof.Gen.KernelIdeal.Launch
import proofs.«165028_j4097398800503_1_alg».proof.Proof.Gen.KernelIdeal.Skeleton
import proofs.«165028_j4097398800503_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Bow

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the TensorCore's buffers when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The two offsets of a whole-buffer access are zero. -/
theorem hz : (![0, 0] : Fin 2 → Nat) = fun _ => 0 := funext fun a => by fin_cases a <;> rfl

/-! ## The accumulator after each point -/

/-- What the accumulator holds after the body at position `n`: at the first of every 25 points the zero block plus the
    product of the point's tiles, elsewhere what the point before left plus that product. -/
def accAt0 (c : Dev nD) : (n : ℕ) → n < cfg0.N → Vec F S1024x256 .f32
  | 0, hn => k0_pay2 (k0_pay1 (F := F)) (iblk0 V c 0 ⟨0, hn⟩) (iblk0 V c 1 ⟨0, hn⟩)
  | n + 1, hn =>
    if (n + 1) % 25 = 0 then k0_pay2 (k0_pay1 (F := F)) (iblk0 V c 0 ⟨n + 1, hn⟩) (iblk0 V c 1 ⟨n + 1, hn⟩)
    else k0_pay2 (accAt0 c n (Nat.lt_of_succ_lt hn)) (iblk0 V c 0 ⟨n + 1, hn⟩) (iblk0 V c 1 ⟨n + 1, hn⟩)

/-- At a reset point the accumulator is zero plus the product of the point's tiles. -/
theorem accAt0_reset (c : Dev nD) (t : Fin cfg0.N) (h : t.val % 25 = 0) :
    accAt0 V c t.val t.isLt = k0_pay2 (k0_pay1 (F := F)) (iblk0 V c 0 t) (iblk0 V c 1 t) := by
  obtain ⟨n, hn⟩ := t
  cases n with
  | zero => rfl
  | succ n => exact if_pos h

/-- At any other point it is what the point before left plus the product of the point's tiles. -/
theorem accAt0_step (c : Dev nD) (t : Fin cfg0.N) (h : ¬ t.val % 25 = 0) :
    accAt0 V c t.val t.isLt = k0_pay2 (accAt0 V c (t.val - 1) (Nat.lt_of_le_of_lt (Nat.sub_le _ _) t.isLt)) (iblk0 V c 0 t) (iblk0 V c 1 t) := by
  obtain ⟨n, hn⟩ := t
  cases n with
  | zero => exact absurd (Nat.zero_mod _) h
  | succ n => exact if_neg h

/-! ## Where the result windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
/-- Away from the last of every 25 points the body stores nothing into the result windows, and the pipeline does not
    write them back there. -/
theorem idleAt0_7 : ∀ t : Fin cfg0.N, ¬t.val % 25 = 24 → cfg0.idle 7 (grid0.coords t) = true := by decide +kernel
theorem noFlush0_7 : ∀ t : Fin cfg0.N, ¬t.val % 25 = 24 → (cfg0.win 7).flush t = false := by decide +kernel
theorem idleAt0_8 : ∀ t : Fin cfg0.N, ¬t.val % 25 = 24 → cfg0.idle 8 (grid0.coords t) = true := by decide +kernel
theorem noFlush0_8 : ∀ t : Fin cfg0.N, ¬t.val % 25 = 24 → (cfg0.win 8).flush t = false := by decide +kernel
/-- At the last of every 25 points it stores both. -/
theorem liveAt0_7 : ∀ t : Fin cfg0.N, t.val % 25 = 24 → cfg0.idle 7 (grid0.coords t) = false := by decide +kernel
theorem liveAt0_8 : ∀ t : Fin cfg0.N, t.val % 25 = 24 → cfg0.idle 8 (grid0.coords t) = false := by decide +kernel

/-! ## The accumulator's buffer and the rest of the scoped buffers -/

/-- The accumulator: a whole scoped buffer of the kernel's own, passed beside the windows. -/
abbrev scM0 : Memref sig .tc .vmem S1024x256 .f32 := Memref.whole cc0_scratch0

/-- The core's other scoped buffers that are no staging buffer of this kernel (the staging buffers of the other kernel),
    each whole at some contents. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg7_1), ((c : Thread nD τ).loc cc1_stg7_1) ↦{fullShare} f) ∗ (∃ f : Buf (Elt F) ((c : Thread nD τ).loc cc1_stg8_0), ((c : Thread nD τ).loc cc1_stg8_0) ↦{fullShare} f) ∗ (∃ f : Buf (Elt F) ((c : Thread nD τ).loc cc1_stg8_1), ((c : Thread nD τ).loc cc1_stg8_1) ↦{fullShare} f))

/-- The class's invariant spelt out: the accumulator at some contents, the other scoped buffers, the generator register
    at some state. -/
theorem PhiA0_eq (c : Dev nD) :
    (Pipeline.ΦA spec0 c : sProp 𝕄)
      = iprop(iprop((∃ d, owns (c : Thread nD τ) scM0 fullShare d) ∗ rest0 (F := F) c) ∗ (∃ r, prngReg c r)) := by
  unfold Pipeline.ΦA rest0; rw [scopedRest0_eq]; simp only [scM0, owns_whole]; try rfl

/-! ## The invariant -/

/-- The region invariant before position `n`: before the first point the class's (every scoped buffer at anything);
    afterwards the accumulator at what the point before left in it, the other scoped buffers at anything, the
    generator register at some state. -/
def PhiS0 (c : Dev nD) : (n : ℕ) → n ≤ cfg0.N → sProp 𝕄
  | 0, _ => Pipeline.ΦA spec0 c
  | n + 1, hn => iprop(iprop(owns (c : Thread nD τ) scM0 fullShare (accAt0 V c n hn) ∗ rest0 (F := F) c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0 fullShare (accAt0 V c n hn) ∗ rest0 (F := F) c) ∗ (∃ r, prngReg c r)) := rfl

theorem PhiS0_pos (c : Dev nD) (n : ℕ) (h : n ≤ cfg0.N) (hz : n ≠ 0) :
    PhiS0 V c n h = iprop(iprop(owns (c : Thread nD τ) scM0 fullShare (accAt0 V c (n - 1) (by omega)) ∗ rest0 (F := F) c) ∗ (∃ r, prngReg c r)) := by
  cases n with
  | zero => exact absurd rfl hz
  | succ n => rfl

/-! ## The pipeline's proof data -/

/-- The proof data of the pipeline on core `c`: the arrays as the region finds them; after the body at point `t` each
    input's buffer at its block, the two result windows' buffers at the heads computed from the accumulator after `t`
    and the small operands' blocks (consulted only at the last of every 25 points: elsewhere the windows are idle and
    not written back); the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => k0_pay4 (accAt0 V c t.val t.isLt) (iblk0 V c 2 t) (iblk0 V c 3 t) (iblk0 V c 4 t)
    | ⟨8, _⟩ => k0_pay5 (accAt0 V c t.val t.isLt) (iblk0 V c 2 t) (iblk0 V c 5 t) (iblk0 V c 6 t)
  Φ t := PhiS0 V c t.val (Nat.le_of_lt_succ t.isLt)
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) :
    (dat0 V c).after 7 t = k0_pay4 (accAt0 V c t.val t.isLt) (iblk0 V c 2 t) (iblk0 V c 3 t) (iblk0 V c 4 t) := by dsimp only [dat0]
theorem after0_8 (c : Dev nD) (t : Fin cfg0.N) :
    (dat0 V c).after 8 t = k0_pay5 (accAt0 V c t.val t.isLt) (iblk0 V c 2 t) (iblk0 V c 5 t) (iblk0 V c 6 t) := by dsimp only [dat0]

/-- The invariant at a point's start, restated at the point's position. -/
theorem PhiS0_castSucc (c : Dev nD) (t : Fin cfg0.N) :
    (dat0 V c).Φ t.castSucc = PhiS0 V c t.val (Nat.le_of_lt t.isLt) := by
  dsimp only [dat0]; simp only [Fin.coe_castSucc]

/-- Before the first point the invariant is the class's. -/
theorem Phi0_zero (c : Dev nD) : (dat0 V c).Φ 0 = Pipeline.ΦA spec0 c := rfl

/-- What the launch hands the region is the invariant before the first point. -/
theorem hin0 (c : Dev nD) : Pipeline.ΦA spec0 c ⊢ (dat0 V c).Φ 0 := by
  rw [Phi0_zero]

/-- After any point but the first the invariant gives the class's back: the accumulator's named contents are forgotten. -/
theorem Phi0_out (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, Hr⟩, Hg⟩
  isplitl [HS0 Hr]
  · isplitl [HS0]
    · iexists _; iexact HS0
    iexact Hr
  iexact Hg

/-- The same after the last point. -/
theorem hout0 (c : Dev nD) : (dat0 V c).Φ (Fin.last cfg0.N) ⊢ Pipeline.ΦA spec0 c :=
  Phi0_out V c _ (by rw [Fin.val_last]; have : cfg0.N = 50 := N_0; omega)

end Cert.KernelIdeal.Bow

end
-- ==== Proof.BowTriples.lean ====
import proofs.«165028_j4097398800503_1_alg».proof.Proof.Gen.KernelIdeal.Launch
import proofs.«165028_j4097398800503_1_alg».proof.Proof.Gen.KernelIdeal.Skeleton
import proofs.«165028_j4097398800503_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

/-! # The bag-of-words kernel body: its three runs

The bag-of-words kernel runs on a grid of two row blocks by twenty-five vocabulary tiles. At each point its body
reads one block of 1024 rows by 4096 columns of the multi-hot matrix and the matching 4096 rows of the hidden
layer's weight matrix, and adds their product into a scratch accumulator of 1024 by 256 sums that is carried from
one vocabulary tile to the next. Two conditions on the tile coordinate decide the rest: at the first tile the
accumulator is first filled with zeros, and at the last tile the bias row is added to the finished sums, the leaky
rectifier applied, and the two heads' values stored into the two output blocks.

Only three of the four combinations of the two conditions occur on the grid (a tile is not both first and last).
This module states the body's triple in each of them, for ANY float model `F`, over whole staging memrefs at named
contents: every access of the body is through the whole-shape rectangle at zero offsets, so a load reads the
contents, and after a store the buffer holds the stored payload. -/

set_option maxRecDepth 16384

noncomputable section

namespace Cert.KernelIdeal.Bow

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## The two conditions -/

/-- The point is at the first vocabulary tile: the accumulator is zeroed there. -/
abbrev cond0_0 (i : grid0.Coords) : Prop := (Scalar.cmpi .ne (Scalar.extui (Scalar.cmpi .eq (BitVec.ofNat 32 (i 1).val) 0#32)) 0#32) = 1#1
/-- The point is at the last vocabulary tile: the heads are computed and stored there. -/
abbrev cond0_1 (i : grid0.Coords) : Prop := k0_cond2 i = 1#1

/-! ## Whole-shape accesses -/

/-- The two zero offsets of a rank-two access, spelt as a vector literal, are the zero function. -/
theorem zeros2 : (![0, 0] : Fin 2 → ℕ) = fun _ => 0 := by
  funext a; fin_cases a <;> rfl

section whole
variable {Val : EltTy → Type} [∀ e, Nonempty (Val e)] {sg : RefSig} {κ : Kind} {sp : Space} {S : Shape} {e : EltTy}

/-- A load through the whole-shape rectangle at zero offsets reads what the view reads. -/
theorem readAt_unit (v : View sg κ sp S e) {off : Fin S.rank → ℕ} (h : off = fun _ => 0)
    (inb : ∀ a, off a + S.size a ≤ S.size a) (f : v.ty.Contents Val) :
    v.readAt Val (Rect.unit off S.size inb).toLoadRect f = v.read Val f :=
  (View.readAt_eq_ld v f _).trans (View.ld_unit_zero h inb _)

/-- After a store through the whole-shape rectangle at zero offsets, LAST, the view reads the stored payload,
    whatever was stored before and whatever the buffer held. -/
theorem read_store_unit (v : View sg κ sp S e) {off : Fin S.rank → ℕ} (h : off = fun _ => 0)
    (inb : ∀ a, off a + S.size a ≤ S.size a) (f : v.ty.Contents Val) (w : S.Idx → Val e)
    (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero h inb y⟩),
    View.canon_cons_unit_zero h inb w L]

end whole

/-! ## The three runs -/

set_option maxHeartbeats 1000000 in
/-- At the first tile, not the last: the accumulator, at anything before, is zeroed, read back (the zeros), and
    left at the zeros plus the block product; the inputs and the two output blocks are as they were. -/
theorem sound_kernel0_A (c : Dev nD) (E : Set ℕ) (i : grid0.Coords) (a2 : Memref sig .tc .vmem S1024x4096 .bf16) (h2 : a2.IsWhole) (a3 : Memref sig .tc .vmem S4096x256 .bf16) (h3 : a3.IsWhole) (a4 : Memref sig .tc .vmem S1x256 .f32) (h4 : a4.IsWhole) (a5 : Memref sig .tc .vmem S256x5 .bf16) (h5 : a5.IsWhole) (a6 : Memref sig .tc .vmem S1x5 .f32) (h6 : a6.IsWhole) (a7 : Memref sig .tc .vmem S256x64 .bf16) (h7 : a7.IsWhole) (a8 : Memref sig .tc .vmem S1x64 .f32) (h8 : a8.IsWhole) (a9 : Memref sig .tc .vmem S1024x5 .f32) (h9 : a9.IsWhole) (a10 : Memref sig .tc .vmem S1024x64 .f32) (h10 : a10.IsWhole) (a11 : Memref sig .tc .vmem S1024x256 .f32) (h11 : a11.IsWhole) (x0 : Vec F S1024x4096 .bf16) (x1 : Vec F S4096x256 .bf16) (x2 : Vec F S1x256 .f32) (x3 : Vec F S256x5 .bf16) (x4 : Vec F S1x5 .f32) (x5 : Vec F S256x64 .bf16) (x6 : Vec F S1x64 .f32) (K : PUnit → sProp 𝕄) (hc0 : cond0_0 i) (hc1 : ¬cond0_1 i) (d9 : Vec F S1024x5 .f32) (d10 : Vec F S1024x64 .f32) :
    iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6 ∗ owns (c : Thread nD τ) a9 fullShare d9 ∗ owns (c : Thread nD τ) a10 fullShare d10 ∗ (∃ d, owns (c : Thread nD τ) a11 fullShare d)
        ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6 ∗ owns (c : Thread nD τ) a9 fullShare d9 ∗ owns (c : Thread nD τ) a10 fullShare d10 ∗ owns (c : Thread nD τ) a11 fullShare (k0_pay2 (k0_pay1 (F := F)) x0 x1)) -∗ K ⟨⟩))
      ⊢ wp frame (wpE (defs₀ (F := F)) Variants.none c none) E (cc0__bow_kernel i a2 h2 a3 h3 a4 h4 a5 h5 a6 h6 a7 h7 a8 h8 a9 h9 a10 h10 a11 h11) K := by
  simp only [cc0__bow_kernel_eq_skeleton]; unfold cc0__bow_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f9, %hf9, H9⟩, ⟨%f10, %hf10, H10⟩, ⟨%ds, %fs, -, HS⟩, Hk⟩
  subst hf0 hf1 hf2 hf3 hf4 hf5 hf6 hf9 hf10
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H9]
  · iexists f9; isplitr; · ipureintro; rfl
    iexact H9
  isplitl [H10]
  · iexists f10; isplitr; · ipureintro; rfl
    iexact H10
  iexists _; isplitr
  swap; · iexact HS
  ipureintro
  sl_unfold_run_names
  -- the last store leaves its payload; the accumulator read back after the zeroing store is the zeros
  rw [read_store_unit a11.view zeros2, View.readCov_unit_zero a11.view zeros2, readAt_unit a2.view zeros2,
    readAt_unit a3.view zeros2]

set_option maxHeartbeats 1000000 in
/-- At a tile neither first nor last: the accumulator, at the sums `xs` of the tiles before, is left at `xs` plus
    the block product; the inputs and the two output blocks are as they were. -/
theorem sound_kernel0_B (c : Dev nD) (E : Set ℕ) (i : grid0.Coords) (a2 : Memref sig .tc .vmem S1024x4096 .bf16) (h2 : a2.IsWhole) (a3 : Memref sig .tc .vmem S4096x256 .bf16) (h3 : a3.IsWhole) (a4 : Memref sig .tc .vmem S1x256 .f32) (h4 : a4.IsWhole) (a5 : Memref sig .tc .vmem S256x5 .bf16) (h5 : a5.IsWhole) (a6 : Memref sig .tc .vmem S1x5 .f32) (h6 : a6.IsWhole) (a7 : Memref sig .tc .vmem S256x64 .bf16) (h7 : a7.IsWhole) (a8 : Memref sig .tc .vmem S1x64 .f32) (h8 : a8.IsWhole) (a9 : Memref sig .tc .vmem S1024x5 .f32) (h9 : a9.IsWhole) (a10 : Memref sig .tc .vmem S1024x64 .f32) (h10 : a10.IsWhole) (a11 : Memref sig .tc .vmem S1024x256 .f32) (h11 : a11.IsWhole) (x0 : Vec F S1024x4096 .bf16) (x1 : Vec F S4096x256 .bf16) (x2 : Vec F S1x256 .f32) (x3 : Vec F S256x5 .bf16) (x4 : Vec F S1x5 .f32) (x5 : Vec F S256x64 .bf16) (x6 : Vec F S1x64 .f32) (K : PUnit → sProp 𝕄) (hc0 : ¬cond0_0 i) (hc1 : ¬cond0_1 i) (d9 : Vec F S1024x5 .f32) (d10 : Vec F S1024x64 .f32) (xs : Vec F S1024x256 .f32) :
    iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6 ∗ owns (c : Thread nD τ) a9 fullShare d9 ∗ owns (c : Thread nD τ) a10 fullShare d10 ∗ owns (c : Thread nD τ) a11 fullShare xs
        ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6 ∗ owns (c : Thread nD τ) a9 fullShare d9 ∗ owns (c : Thread nD τ) a10 fullShare d10 ∗ owns (c : Thread nD τ) a11 fullShare (k0_pay2 xs x0 x1)) -∗ K ⟨⟩))
      ⊢ wp frame (wpE (defs₀ (F := F)) Variants.none c none) E (cc0__bow_kernel i a2 h2 a3 h3 a4 h4 a5 h5 a6 h6 a7 h7 a8 h8 a9 h9 a10 h10 a11 h11) K := by
  simp only [cc0__bow_kernel_eq_skeleton]; unfold cc0__bow_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f9, %hf9, H9⟩, ⟨%f10, %hf10, H10⟩, ⟨%fs, %hfs, HS⟩, Hk⟩
  subst hf0 hf1 hf2 hf3 hf4 hf5 hf6 hf9 hf10 hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H9]
  · iexists f9; isplitr; · ipureintro; rfl
    iexact H9
  isplitl [H10]
  · iexists f10; isplitr; · ipureintro; rfl
    iexact H10
  iexists _; isplitr
  swap; · iexact HS
  ipureintro
  rw [read_store_unit a11.view zeros2, readAt_unit a11.view zeros2, readAt_unit a2.view zeros2,
    readAt_unit a3.view zeros2]

set_option maxHeartbeats 1000000 in
/-- At the last tile, not the first: the accumulator, at the sums `xs` of the tiles before, is left at `xs` plus
    the block product, and that finished value, read back, gives each head's block, stored over whatever the
    output block held; the inputs are as they were. -/
theorem sound_kernel0_C (c : Dev nD) (E : Set ℕ) (i : grid0.Coords) (a2 : Memref sig .tc .vmem S1024x4096 .bf16) (h2 : a2.IsWhole) (a3 : Memref sig .tc .vmem S4096x256 .bf16) (h3 : a3.IsWhole) (a4 : Memref sig .tc .vmem S1x256 .f32) (h4 : a4.IsWhole) (a5 : Memref sig .tc .vmem S256x5 .bf16) (h5 : a5.IsWhole) (a6 : Memref sig .tc .vmem S1x5 .f32) (h6 : a6.IsWhole) (a7 : Memref sig .tc .vmem S256x64 .bf16) (h7 : a7.IsWhole) (a8 : Memref sig .tc .vmem S1x64 .f32) (h8 : a8.IsWhole) (a9 : Memref sig .tc .vmem S1024x5 .f32) (h9 : a9.IsWhole) (a10 : Memref sig .tc .vmem S1024x64 .f32) (h10 : a10.IsWhole) (a11 : Memref sig .tc .vmem S1024x256 .f32) (h11 : a11.IsWhole) (x0 : Vec F S1024x4096 .bf16) (x1 : Vec F S4096x256 .bf16) (x2 : Vec F S1x256 .f32) (x3 : Vec F S256x5 .bf16) (x4 : Vec F S1x5 .f32) (x5 : Vec F S256x64 .bf16) (x6 : Vec F S1x64 .f32) (K : PUnit → sProp 𝕄) (hc0 : ¬cond0_0 i) (hc1 : cond0_1 i) (xs : Vec F S1024x256 .f32) :
    iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6 ∗ (∃ d, owns (c : Thread nD τ) a9 fullShare d) ∗ (∃ d, owns (c : Thread nD τ) a10 fullShare d) ∗ owns (c : Thread nD τ) a11 fullShare xs
        ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6 ∗ owns (c : Thread nD τ) a9 fullShare (k0_pay4 (k0_pay2 xs x0 x1) x2 x3 x4) ∗ owns (c : Thread nD τ) a10 fullShare (k0_pay5 (k0_pay2 xs x0 x1) x2 x5 x6) ∗ owns (c : Thread nD τ) a11 fullShare (k0_pay2 xs x0 x1)) -∗ K ⟨⟩))
      ⊢ wp frame (wpE (defs₀ (F := F)) Variants.none c none) E (cc0__bow_kernel i a2 h2 a3 h3 a4 h4 a5 h5 a6 h6 a7 h7 a8 h8 a9 h9 a10 h10 a11 h11) K := by
  simp only [cc0__bow_kernel_eq_skeleton]; unfold cc0__bow_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d9, %f9, -, H9⟩, ⟨%d10, %f10, -, H10⟩, ⟨%fs, %hfs, HS⟩, Hk⟩
  subst hf0 hf1 hf2 hf3 hf4 hf5 hf6 hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H9]
  · iexists _; isplitr
    swap; · iexact H9
    ipureintro
    sl_unfold_run_names
    -- the accumulator read back after its store is the stored sums
    rw [read_store_unit a9.view zeros2, View.readCov_unit_zero a11.view zeros2, readAt_unit a11.view zeros2,
      readAt_unit a2.view zeros2, readAt_unit a3.view zeros2, readAt_unit a4.view zeros2, readAt_unit a5.view zeros2,
      readAt_unit a6.view zeros2]
  isplitl [H10]
  · iexists _; isplitr
    swap; · iexact H10
    ipureintro
    sl_unfold_run_names
    rw [read_store_unit a10.view zeros2, View.readCov_unit_zero a11.view zeros2, readAt_unit a11.view zeros2,
      readAt_unit a2.view zeros2, readAt_unit a3.view zeros2, readAt_unit a4.view zeros2, readAt_unit a7.view zeros2,
      readAt_unit a8.view zeros2]
  iexists _; isplitr
  swap; · iexact HS
  ipureintro
  sl_unfold_run_names
  rw [read_store_unit a11.view zeros2, readAt_unit a11.view zeros2, readAt_unit a2.view zeros2,
    readAt_unit a3.view zeros2]

end Cert.KernelIdeal.Bow

end
-- ==== Proof.BowRegion.lean ====
/-
  Region 0 of the program: the body obligation of the bag-of-words kernel's pipeline. At every grid point the body,
  handed the invariant and every window's current staging buffer, runs to the invariant at the next point and every
  buffer at what the proof data name. The point's position decides which of the body's three control cases runs: the
  first of every 25 points resets the accumulator before adding the tiles' product, the last of every 25 also computes
  the two heads, the points between only accumulate.
-/
import proofs.«165028_j4097398800503_1_alg».proof.Proof.BowRegionDefs
import proofs.«165028_j4097398800503_1_alg».proof.Proof.BowTriples

set_option maxRecDepth 16384

noncomputable section

namespace Cert.KernelIdeal.Bow

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body's two conditions, over the grid -/

/-- The first condition (the second grid coordinate is zero) holds at the first of every 25 points. -/
theorem hcond0_0 : ∀ t : Fin cfg0.N, cond0_0 (grid0.coords t) ↔ t.val % 25 = 0 :=
  (by decide +kernel : ∀ t : Fin grid0.N, cond0_0 (grid0.coords t) ↔ t.val % 25 = 0)

/-- The second condition (the second grid coordinate is 24) holds at the last of every 25 points. -/
theorem hcond0_1 : ∀ t : Fin cfg0.N, cond0_1 (grid0.coords t) ↔ t.val % 25 = 24 :=
  (by decide +kernel : ∀ t : Fin grid0.N, cond0_1 (grid0.coords t) ↔ t.val % 25 = 24)

/-! ## Each input's current staging buffer holds its block at every point, fetched there or not -/

theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl) (fun t => by rw [after0_4]; unfold Dat.blockOf iblk0; rw [A_eq0]; try rfl) t d).trans
    (by unfold Dat.fetched Dat.blockOf iblk0; rw [A_eq0]; try rfl)
theorem before0_5 (c : Dev nD) (t : Fin cfg0.N) (d) : (dat0 V c).before 5 t d = iblk0 V c 5 t :=
  ((dat0 V c).before_in_eq_fetched 5 rfl (fun _ => rfl) (fun _ _ _ => rfl) (fun t => by rw [after0_5]; unfold Dat.blockOf iblk0; rw [A_eq0]; try rfl) t d).trans
    (by unfold Dat.fetched Dat.blockOf iblk0; rw [A_eq0]; try rfl)
theorem before0_6 (c : Dev nD) (t : Fin cfg0.N) (d) : (dat0 V c).before 6 t d = iblk0 V c 6 t :=
  ((dat0 V c).before_in_eq_fetched 6 rfl (fun _ => rfl) (fun _ _ _ => rfl) (fun t => by rw [after0_6]; unfold Dat.blockOf iblk0; rw [A_eq0]; try rfl) t d).trans
    (by unfold Dat.fetched Dat.blockOf iblk0; rw [A_eq0]; try rfl)

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t)

set_option maxHeartbeats 4800000 in
/-- The body at any point: the inputs' buffers hold their blocks; the point's position says which case runs; the
    invariant hands the body the accumulator at what the point before left (at anything at a reset point) and takes it
    back at this point's contents; away from the last of every 25 points the result windows' buffers come back as
    found, there they come back at the two heads; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).owesAt () t.succ = (dat0 V c).owesAt () t.castSucc from rfl]
  rw [show (dat0 V c).Φ t.succ = PhiS0 V c (t.val + 1) t.isLt from rfl, PhiS0_succ]
  have hN : t.val < 50 := lt_of_lt_of_eq t.isLt (show cfg0.N = 50 from N_0)
  rw [show (dat0 V c).leavesExact 0 t = owns (c : Thread nD τ) (st0_0 t) fullShare ((dat0 V c).after 0 t) from by
    unfold Dat.leavesExact; rw [liveAt0_0 t], after0_0]
  rw [show (dat0 V c).leavesExact 1 t = owns (c : Thread nD τ) (st0_1 t) fullShare ((dat0 V c).after 1 t) from by
    unfold Dat.leavesExact; rw [liveAt0_1 t], after0_1]
  rw [show (dat0 V c).leavesExact 2 t = owns (c : Thread nD τ) (st0_2 t) fullShare ((dat0 V c).after 2 t) from by
    unfold Dat.leavesExact; rw [liveAt0_2 t], after0_2]
  rw [show (dat0 V c).leavesExact 3 t = owns (c : Thread nD τ) (st0_3 t) fullShare ((dat0 V c).after 3 t) from by
    unfold Dat.leavesExact; rw [liveAt0_3 t], after0_3]
  rw [show (dat0 V c).leavesExact 4 t = owns (c : Thread nD τ) (st0_4 t) fullShare ((dat0 V c).after 4 t) from by
    unfold Dat.leavesExact; rw [liveAt0_4 t], after0_4]
  rw [show (dat0 V c).leavesExact 5 t = owns (c : Thread nD τ) (st0_5 t) fullShare ((dat0 V c).after 5 t) from by
    unfold Dat.leavesExact; rw [liveAt0_5 t], after0_5]
  rw [show (dat0 V c).leavesExact 6 t = owns (c : Thread nD τ) (st0_6 t) fullShare ((dat0 V c).after 6 t) from by
    unfold Dat.leavesExact; rw [liveAt0_6 t], after0_6]
  by_cases h0 : t.val % 25 = 0
  · have h1 : ¬t.val % 25 = 24 := by omega
    rw [Dat.leavesExact_idle (dat0 V c) 7 t (idleAt0_7 t h1) (noFlush0_7 t h1)]
    rw [Dat.leavesExact_idle (dat0 V c) 8 t (idleAt0_8 t h1) (noFlush0_8 t h1)]
    rw [accAt0_reset V c t h0]
    by_cases hz : t.val = 0
    · rw [PhiS0_castSucc V c t, PhiS0_zero V c _ _ hz, PhiA0_eq]
      iintro ⟨⟨⟨HS, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (sound_kernel0_A (F := F) (c := c) (E := Set.univ) (i := grid0.coords t) (a2 := _) (h2 := _) (a3 := _) (h3 := _) (a4 := _) (h4 := _) (a5 := _) (h5 := _) (a6 := _) (h6 := _) (a7 := _) (h7 := _) (a8 := _) (h8 := _) (a9 := _) (h9 := _) (a10 := _) (h10 := _) (a11 := _) (h11 := _) (x0 := iblk0 V c 0 t) (x1 := iblk0 V c 1 t) (x2 := iblk0 V c 2 t) (x3 := iblk0 V c 3 t) (x4 := iblk0 V c 4 t) (x5 := iblk0 V c 5 t) (x6 := iblk0 V c 6 t) (K := _)
        (hc0 := (hcond0_0 t).mpr h0) (hc1 := fun h => h1 ((hcond0_1 t).mp h)) (d9 := (dat0 V c).before 7 t d7) (d10 := (dat0 V c).before 8 t d8))
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS]; · iexact HS
      iintro ⟨H0, H1, H2, H3, H4, H5, H6, H7, H8, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      iexists _; iexact H8
    · rw [PhiS0_castSucc V c t, PhiS0_pos V c _ _ hz]
      iintro ⟨⟨⟨HS, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (sound_kernel0_A (F := F) (c := c) (E := Set.univ) (i := grid0.coords t) (a2 := _) (h2 := _) (a3 := _) (h3 := _) (a4 := _) (h4 := _) (a5 := _) (h5 := _) (a6 := _) (h6 := _) (a7 := _) (h7 := _) (a8 := _) (h8 := _) (a9 := _) (h9 := _) (a10 := _) (h10 := _) (a11 := _) (h11 := _) (x0 := iblk0 V c 0 t) (x1 := iblk0 V c 1 t) (x2 := iblk0 V c 2 t) (x3 := iblk0 V c 3 t) (x4 := iblk0 V c 4 t) (x5 := iblk0 V c 5 t) (x6 := iblk0 V c 6 t) (K := _)
        (hc0 := (hcond0_0 t).mpr h0) (hc1 := fun h => h1 ((hcond0_1 t).mp h)) (d9 := (dat0 V c).before 7 t d7) (d10 := (dat0 V c).before 8 t d8))
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS]; · iexists _; iexact HS
      iintro ⟨H0, H1, H2, H3, H4, H5, H6, H7, H8, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      iexists _; iexact H8
  · have hz : t.val ≠ 0 := fun e => h0 (by rw [e])
    by_cases h1 : t.val % 25 = 24
    · rw [show (dat0 V c).leavesExact 7 t = owns (c : Thread nD τ) (st0_7 t) fullShare ((dat0 V c).after 7 t) from by
        unfold Dat.leavesExact; rw [liveAt0_7 t h1], after0_7]
      rw [show (dat0 V c).leavesExact 8 t = owns (c : Thread nD τ) (st0_8 t) fullShare ((dat0 V c).after 8 t) from by
        unfold Dat.leavesExact; rw [liveAt0_8 t h1], after0_8]
      rw [accAt0_step V c t h0]
      rw [PhiS0_castSucc V c t, PhiS0_pos V c _ _ hz]
      iintro ⟨⟨⟨HS, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (sound_kernel0_C (F := F) (c := c) (E := Set.univ) (i := grid0.coords t) (a2 := _) (h2 := _) (a3 := _) (h3 := _) (a4 := _) (h4 := _) (a5 := _) (h5 := _) (a6 := _) (h6 := _) (a7 := _) (h7 := _) (a8 := _) (h8 := _) (a9 := _) (h9 := _) (a10 := _) (h10 := _) (a11 := _) (h11 := _) (x0 := iblk0 V c 0 t) (x1 := iblk0 V c 1 t) (x2 := iblk0 V c 2 t) (x3 := iblk0 V c 3 t) (x4 := iblk0 V c 4 t) (x5 := iblk0 V c 5 t) (x6 := iblk0 V c 6 t) (K := _)
        (hc0 := fun h => h0 ((hcond0_0 t).mp h)) (hc1 := (hcond0_1 t).mpr h1) (xs := accAt0 V c (t.val - 1) (Nat.lt_of_le_of_lt (Nat.sub_le _ _) t.isLt)))
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [HS]; · iexact HS
      iintro ⟨H0, H1, H2, H3, H4, H5, H6, H7, H8, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · rw [Dat.leavesExact_idle (dat0 V c) 7 t (idleAt0_7 t h1) (noFlush0_7 t h1)]
      rw [Dat.leavesExact_idle (dat0 V c) 8 t (idleAt0_8 t h1) (noFlush0_8 t h1)]
      rw [accAt0_step V c t h0]
      rw [PhiS0_castSucc V c t, PhiS0_pos V c _ _ hz]
      iintro ⟨⟨⟨HS, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (sound_kernel0_B (F := F) (c := c) (E := Set.univ) (i := grid0.coords t) (a2 := _) (h2 := _) (a3 := _) (h3 := _) (a4 := _) (h4 := _) (a5 := _) (h5 := _) (a6 := _) (h6 := _) (a7 := _) (h7 := _) (a8 := _) (h8 := _) (a9 := _) (h9 := _) (a10 := _) (h10 := _) (a11 := _) (h11 := _) (x0 := iblk0 V c 0 t) (x1 := iblk0 V c 1 t) (x2 := iblk0 V c 2 t) (x3 := iblk0 V c 3 t) (x4 := iblk0 V c 4 t) (x5 := iblk0 V c 5 t) (x6 := iblk0 V c 6 t) (K := _)
        (hc0 := fun h => h0 ((hcond0_0 t).mp h)) (hc1 := fun h => h1 ((hcond0_1 t).mp h)) (d9 := (dat0 V c).before 7 t d7) (d10 := (dat0 V c).before 8 t d8)
        (xs := accAt0 V c (t.val - 1) (Nat.lt_of_le_of_lt (Nat.sub_le _ _) t.isLt)))
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS]; · iexact HS
      iintro ⟨H0, H1, H2, H3, H4, H5, H6, H7, H8, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      iexists _; iexact H8

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Bow

end
-- ==== Proof.BeoRegion.lean ====
import proofs.«165028_j4097398800503_1_alg».proof.Proof.Gen.KernelIdeal.Launch
import proofs.«165028_j4097398800503_1_alg».proof.Proof.Gen.KernelIdeal.Skeleton
import proofs.«165028_j4097398800503_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The dense branch's region: what its body leaves, and the body obligation

The second TensorCore region of the program runs one kernel on a grid of two points. At each point it reads one
block of 1024 rows of the dense input and the whole of six parameter arrays (a weight matrix and a bias row for
the hidden layer, and a weight matrix and a bias row for each of the two heads), and writes one block of 1024
rows of each of the two outputs. Nothing is carried from one point to the next.

This module states, for ANY float model `F` and at a parameter `V` (the buffer contents when the region is
entered): each window's block at a point, the contents the body leaves in each output buffer as a function of
the input blocks, the body's triple, the region's proof data, and the library's body obligation for it. -/

-- membership in a rectangle of 1024 rows: the structural check recurses once per coordinate of the long axis
set_option maxRecDepth 16384

noncomputable section

namespace Cert.KernelIdeal.Beo

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s (`hA`) and whose body leaves the block in place (`hafter`): where the window is not
    fetched its block index has not moved, and the window is neither cut nor ever idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s (`hA`) and whose body leaves the block in place (`hafter`): where the window is not
    fetched its block index has not moved, and the window is neither cut nor ever idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s (`hA`) and whose body leaves the block in place (`hafter`): where the window is not
    fetched its block index has not moved, and the window is neither cut nor ever idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is `V`'s (`hA`) and whose body leaves the block in place (`hafter`): where the window is not
    fetched its block index has not moved, and the window is neither cut nor ever idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof
    data whose array is `V`'s (`hA`) and whose body leaves the block in place (`hafter`): where the window is not
    fetched its block index has not moved, and the window is neither cut nor ever idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not, for any proof
    data whose array is `V`'s (`hA`) and whose body leaves the block in place (`hafter`): where the window is not
    fetched its block index has not moved, and the window is neither cut nor ever idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, fetched there or not, for any proof
    data whose array is `V`'s (`hA`) and whose body leaves the block in place (`hafter`): where the window is not
    fetched its block index has not moved, and the window is neither cut nor ever idle. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every buffer is read or written whole -/

abbrev r1_0 : Rect S1024x512 := Rect.unit (s := S1024x512) ![0, 0] S1024x512.size inb_S1024x512_S1024x512_0_0
abbrev r1_1 : Rect S512x256 := Rect.unit (s := S512x256) ![0, 0] S512x256.size inb_S512x256_S512x256_0_0
abbrev r1_2 : Rect S1x256 := Rect.unit (s := S1x256) ![0, 0] S1x256.size inb_S1x256_S1x256_0_0
abbrev r1_3 : Rect S256x5 := Rect.unit (s := S256x5) ![0, 0] S256x5.size inb_S256x5_S256x5_0_0
abbrev r1_4 : Rect S1x5 := Rect.unit (s := S1x5) ![0, 0] S1x5.size inb_S1x5_S1x5_0_0
abbrev r1_5 : Rect S256x64 := Rect.unit (s := S256x64) ![0, 0] S256x64.size inb_S256x64_S256x64_0_0
abbrev r1_6 : Rect S1x64 := Rect.unit (s := S1x64) ![0, 0] S1x64.size inb_S1x64_S1x64_0_0
abbrev r1_7 : Rect S1024x5 := Rect.unit (s := S1024x5) ![0, 0] S1024x5.size inb_S1024x5_S1024x5_0_0
abbrev r1_8 : Rect S1024x64 := Rect.unit (s := S1024x64) ![0, 0] S1024x64.size inb_S1024x64_S1024x64_0_0

/-! ## What the body leaves in each output window's buffer -/

/-- Window 7's staging buffer after the body, from the blocks of the input, of the hidden layer's parameters and of
    the first head's parameters: its one store, of the first head's value, over the whole buffer. -/
def out1_7 (x0 : Vec F S1024x512 .f32) (x1 : Vec F S512x256 .bf16) (x2 : Vec F S1x256 .f32) (x3 : Vec F S256x5 .bf16) (x4 : Vec F S1x5 .f32) : Vec F S1024x5 .f32 :=
  View.canon [⟨r1_7, k1_pay2 (View.ld x0 r1_0) (View.ld x1 r1_1) (View.ld x2 r1_2) (View.ld x3 r1_3) (View.ld x4 r1_4)⟩]

/-- Its one store covers the buffer. -/
theorem cover1_7 (p0 : Vec F S1024x5 .f32) (y : S1024x5.Idx) :
    ∃ pc ∈ ([⟨r1_7, p0⟩] : List (View.Piece (Elt F) S1024x5 .f32)), y ∈ pc.1.set :=
  View.cover_of_tiled [⟨r1_7, p0⟩] S1024x5.size (by rfl) y

/-- Window 8's staging buffer after the body, from the blocks of the input, of the hidden layer's parameters and of
    the second head's parameters: its one store, of the second head's value, over the whole buffer. -/
def out1_8 (x0 : Vec F S1024x512 .f32) (x1 : Vec F S512x256 .bf16) (x2 : Vec F S1x256 .f32) (x5 : Vec F S256x64 .bf16) (x6 : Vec F S1x64 .f32) : Vec F S1024x64 .f32 :=
  View.canon [⟨r1_8, k1_pay3 (View.ld x0 r1_0) (View.ld x1 r1_1) (View.ld x2 r1_2) (View.ld x5 r1_5) (View.ld x6 r1_6)⟩]

/-- Its one store covers the buffer. -/
theorem cover1_8 (p0 : Vec F S1024x64 .f32) (y : S1024x64.Idx) :
    ∃ pc ∈ ([⟨r1_8, p0⟩] : List (View.Piece (Elt F) S1024x64 .f32)), y ∈ pc.1.set :=
  View.cover_of_tiled [⟨r1_8, p0⟩] S1024x64.size (by rfl) y

/-! ## The body's triple -/

set_option maxHeartbeats 1000000 in
/-- The kernel body on whole staging memrefs, the inputs' at read contents `xW` and the outputs' at anything, runs to
    the continuation holding the inputs' as they were and each output's at `out1_W` of the inputs'. Each output buffer
    is loaded once before its store; the loaded value is not used. -/
theorem sound_kernel1 (c : Dev nD) (E : Set ℕ) (i : grid1.Coords) (arg1 : Memref sig .tc .vmem S1024x512 .f32) (harg1 : arg1.IsWhole) (arg2 : Memref sig .tc .vmem S512x256 .bf16) (harg2 : arg2.IsWhole) (arg3 : Memref sig .tc .vmem S1x256 .f32) (harg3 : arg3.IsWhole) (arg4 : Memref sig .tc .vmem S256x5 .bf16) (harg4 : arg4.IsWhole) (arg5 : Memref sig .tc .vmem S1x5 .f32) (harg5 : arg5.IsWhole) (arg6 : Memref sig .tc .vmem S256x64 .bf16) (harg6 : arg6.IsWhole) (arg7 : Memref sig .tc .vmem S1x64 .f32) (harg7 : arg7.IsWhole) (arg8 : Memref sig .tc .vmem S1024x5 .f32) (harg8 : arg8.IsWhole) (arg9 : Memref sig .tc .vmem S1024x64 .f32) (harg9 : arg9.IsWhole)
    (x0 : Vec F S1024x512 .f32) (x1 : Vec F S512x256 .bf16) (x2 : Vec F S1x256 .f32) (x3 : Vec F S256x5 .bf16) (x4 : Vec F S1x5 .f32) (x5 : Vec F S256x64 .bf16) (x6 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out1_7 x0 x1 x2 x3 x4) ∗ owns (c : Thread nD τ) arg9 fullShare (out1_8 x0 x1 x2 x5 x6)) -∗ K ⟨⟩))
      ⊢ wp frame (wpE (defs₀ (F := F)) Variants.none c none) E (cc1__beo_kernel i arg1 harg1 arg2 harg2 arg3 harg3 arg4 harg4 arg5 harg5 arg6 harg6 arg7 harg7 arg8 harg8 arg9 harg9) K := by
  simp only [cc1__beo_kernel_eq_skeleton]; unfold cc1__beo_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover1_7 _)
  iexists _; isplitr
  swap; · iexact H8
  ipureintro
  exact View.read_writes_eq_canon _ _ _ (cover1_8 _)

/-! ## The region's proof data -/

/-- The proof data of the region's pipeline on core `c`: the arrays as the region finds them (`V`); after the body at
    point `t` each input's buffer at its block and each output's at `out1_W` of the input blocks; the invariant the
    one of a body that touches nothing but its windows; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t)
    | ⟨8, _⟩ => out1_8 (iblk1 V c 0 t) (iblk1 V c 1 t) (iblk1 V c 2 t) (iblk1 V c 5 t) (iblk1 V c 6 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) := by dsimp only [dat1]
theorem after1_8 (c : Dev nD) (t : Fin cfg1.N) : (dat1 V c).after 8 t = out1_8 (iblk1 V c 0 t) (iblk1 V c 1 t) (iblk1 V c 2 t) (iblk1 V c 5 t) (iblk1 V c 6 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t))

/-- The body at any point: the inputs' memrefs hold their blocks (`before1_W`), so `sound_kernel1` applies; the
    invariant and the core's debt pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel1 c Set.univ (grid1.coords t) _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Beo

end
-- ==== Proof.KernelRun.lean ====
/-
  The two kernel regions chained into one run of the whole program.

  Between two items of the program a core's buffers are a fold from the launch memory: a stretch of host operations
  applies them, a kernel region replaces each of its windows' arrays by what the pipeline's write-backs leave and keeps every
  other buffer. Each region is entered with every unscoped buffer held at the boundary's contents and left the same
  way, so the regions and the host stretches compose; at the end every unscoped buffer is read against the last
  fold. No host operation and no region writes an argument array, so the fold at an argument walks back to the launch
  memory; the four results are the output windows' arrays of the two regions.
-/
import proofs.«165028_j4097398800503_1_alg».proof.Proof.BowRegion
import proofs.«165028_j4097398800503_1_alg».proof.Proof.BeoRegion
import proofs.«165028_j4097398800503_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Bow Cert.KernelIdeal.Beo

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core c's buffers at launch. -/
abbrev W0 : Dev nD → Valuation τ sig (Elt F) := fun c b => (s₀ m ρ).mem ((c : Dev nD), b)
/-- After the first stretch of host operations (the multi-hot matrix). -/
abbrev W1 : Dev nD → Valuation τ sig (Elt F) := fun c => StableHlo.after hostOps0 (W0 m ρ c)
/-- After the padding of the big weight matrix. -/
abbrev W2 : Dev nD → Valuation τ sig (Elt F) := fun c => StableHlo.after hostOps0_1 (W1 m ρ c)
/-- After the format changes and reshapes: the first region's entry. -/
abbrev W3 : Dev nD → Valuation τ sig (Elt F) := fun c => StableHlo.after hostOps0_2 (W2 m ρ c)
abbrev V3 : (c : Dev nD) → (b : Ref sig .tc) → Buf (Elt F) ((c : Thread nD τ).loc b) := fun c b => W3 m ρ c b
/-- At the first region's exit: its arrays at what the pipeline leaves, every other buffer as entered. -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
abbrev V4 : (c : Dev nD) → (b : Ref sig .tc) → Buf (Elt F) ((c : Thread nD τ).loc b) := fun c b => W4 m ρ c b
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)

/-- After the second branch's host operations: the second region's entry. -/
abbrev W5 : Dev nD → Valuation τ sig (Elt F) := fun c => StableHlo.after hostOps1 (W4 m ρ c)
abbrev V5 : (c : Dev nD) → (b : Ref sig .tc) → Buf (Elt F) ((c : Thread nD τ).loc b) := fun c b => W5 m ρ c b
/-- At the second region's exit. -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
abbrev V6 : (c : Dev nD) → (b : Ref sig .tc) → Buf (Elt F) ((c : Thread nD τ).loc b) := fun c b => W6 m ρ c b
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)

/-! ## What reaches the end unchanged, and where the results sit -/

/-- A buffer that no host stretch writes and that is no window's array of either region ends as launched. -/
theorem W6_untouched (c : Dev nD) (r : Ref sig .tc) (h1 : ∀ w, Pipeline.arrRef spec1 w ≠ r) (h2 : r ∉ hostOps1_W)
    (h3 : ∀ w, Pipeline.arrRef spec0 w ≠ r) (h4 : r ∉ hostOps0_2_W) (h5 : r ∉ hostOps0_1_W) (h6 : r ∉ hostOps0_W) :
    W6 m ρ c (Proc.devRef .tc r) = m ((c : Thread nD τ).loc r) :=
  calc W6 m ρ c (Proc.devRef .tc r)
    _ = W5 m ρ c (Proc.devRef .tc r) := W6_of_ne m ρ c r h1
    _ = W4 m ρ c (Proc.devRef .tc r) := StableHlo.after_of_writes_sub hostOps1 _ hostOps1_writes h2
    _ = W3 m ρ c (Proc.devRef .tc r) := W4_of_ne m ρ c r h3
    _ = W2 m ρ c (Proc.devRef .tc r) := StableHlo.after_of_writes_sub hostOps0_2 _ hostOps0_2_writes h4
    _ = W1 m ρ c (Proc.devRef .tc r) := StableHlo.after_of_writes_sub hostOps0_1 _ hostOps0_1_writes h5
    _ = W0 m ρ c (Proc.devRef .tc r) := StableHlo.after_of_writes_sub hostOps0 _ hostOps0_writes h6
    _ = m ((c : Thread nD τ).loc r) := rfl

/-- A buffer the second branch leaves alone holds at the end what the first region's exit gave it. -/
theorem W6_of_first (c : Dev nD) (r : Ref sig .tc) (h1 : ∀ w, Pipeline.arrRef spec1 w ≠ r) (h2 : r ∉ hostOps1_W) :
    W6 m ρ c (Proc.devRef .tc r) = W4 m ρ c (Proc.devRef .tc r) :=
  (W6_of_ne m ρ c r h1).trans (StableHlo.after_of_writes_sub hostOps1 _ hostOps1_writes h2)

/-- An argument array is untouched when the second region is entered. -/
theorem W4_untouched (c : Dev nD) (r : Ref sig .tc)
    (h3 : ∀ w, Pipeline.arrRef spec0 w ≠ r) (h4 : r ∉ hostOps0_2_W) (h5 : r ∉ hostOps0_1_W) (h6 : r ∉ hostOps0_W) :
    W4 m ρ c (Proc.devRef .tc r) = m ((c : Thread nD τ).loc r) :=
  calc W4 m ρ c (Proc.devRef .tc r)
    _ = W3 m ρ c (Proc.devRef .tc r) := W4_of_ne m ρ c r h3
    _ = W2 m ρ c (Proc.devRef .tc r) := StableHlo.after_of_writes_sub hostOps0_2 _ hostOps0_2_writes h4
    _ = W1 m ρ c (Proc.devRef .tc r) := StableHlo.after_of_writes_sub hostOps0_1 _ hostOps0_1_writes h5
    _ = W0 m ρ c (Proc.devRef .tc r) := StableHlo.after_of_writes_sub hostOps0 _ hostOps0_writes h6
    _ = m ((c : Thread nD τ).loc r) := rfl

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V5 m ρ) c
abbrev 𝒱₀ : Variants := Variants.none
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W6 m ρ c) ∗ ∃ r, prngReg c r)

/-! ## The regions as segments -/

set_option backward.isDefEq.respectTransparency.types false in
/-- Region 0 over the thread state: entered with every unscoped buffer at its entry contents, left with the region's
    arrays at what its write-backs leave and every other buffer as entered. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from Phi0_zero (V3 m ρ) c]; unfold Pipeline.ΦA
    iintro ⟨Hp, -, Hr⟩
    isplitl [Hr]; · iexact Hr
    iexact Hp
  hout c := by
    rw [Pipeline.ownSems0_none]
    refine (show (pdats m ρ 0 c).Φ (Fin.last _) ⊢ Pipeline.ΦA spec0 c from hout0 (V3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at its entry contents, left with the region's
    arrays at what its write-backs leave and every other buffer as entered. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ) ]
theorem main_run (c : Dev nD) : main (F := F) c = Pipeline.Seg.run (segs m ρ) := (main_chain c).trans (by chain_rfl)

set_option backward.isDefEq.respectTransparency.types false in
/-- Every weakly fair execution of the program from the launch memory terminates, nothing faulting, with every unscoped
    buffer of every core at the last fold's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

/-- A buffer no item writes is read at the end at its launch contents. -/
theorem arg_end (s : MemSt nD τ sig (Elt F)) (h : ∀ c : Dev nD, ∀ b ∈ Pipeline.ucRefs τ sig, s.mem (((c : Thread nD τ)).1, b) = W6 m ρ c b)
    (c : Dev nD) (a : Ref sig .tc) (hu : ¬ (Proc.devRef .tc a : DevRef τ sig).isScoped)
    (h1 : ∀ w, Pipeline.arrRef spec1 w ≠ a) (h2 : a ∉ hostOps1_W)
    (h3 : ∀ w, Pipeline.arrRef spec0 w ≠ a) (h4 : a ∉ hostOps0_2_W) (h5 : a ∉ hostOps0_1_W) (h6 : a ∉ hostOps0_W) :
    s.mem ((c.tc : Thread nD τ).loc a) = m ((c.tc : Thread nD τ).loc a) :=
  (h c _ (mem_uc a hu)).trans (W6_untouched m ρ c a h1 h2 h3 h4 h5 h6)

/-- The frame: every weakly fair execution terminates, nothing faulting, and the fourteen argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c =>
    ⟨arg_end m ρ r.2 h c main_arg0 (by decide) (by decide) (by decide) (by decide) (by decide) (by decide) (by decide),
      arg_end m ρ r.2 h c main_arg1 (by decide) (by decide) (by decide) (by decide) (by decide) (by decide) (by decide),
      arg_end m ρ r.2 h c main_arg2 (by decide) (by decide) (by decide) (by decide) (by decide) (by decide) (by decide),
      arg_end m ρ r.2 h c main_arg3 (by decide) (by decide) (by decide) (by decide) (by decide) (by decide) (by decide),
      arg_end m ρ r.2 h c main_arg4 (by decide) (by decide) (by decide) (by decide) (by decide) (by decide) (by decide),
      arg_end m ρ r.2 h c main_arg5 (by decide) (by decide) (by decide) (by decide) (by decide) (by decide) (by decide),
      arg_end m ρ r.2 h c main_arg6 (by decide) (by decide) (by decide) (by decide) (by decide) (by decide) (by decide),
      arg_end m ρ r.2 h c main_arg7 (by decide) (by decide) (by decide) (by decide) (by decide) (by decide) (by decide),
      arg_end m ρ r.2 h c main_arg8 (by decide) (by decide) (by decide) (by decide) (by decide) (by decide) (by decide),
      arg_end m ρ r.2 h c main_arg9 (by decide) (by decide) (by decide) (by decide) (by decide) (by decide) (by decide),
      arg_end m ρ r.2 h c main_arg10 (by decide) (by decide) (by decide) (by decide) (by decide) (by decide) (by decide),
      arg_end m ρ r.2 h c main_arg11 (by decide) (by decide) (by decide) (by decide) (by decide) (by decide) (by decide),
      arg_end m ρ r.2 h c main_arg12 (by decide) (by decide) (by decide) (by decide) (by decide) (by decide) (by decide),
      arg_end m ρ r.2 h c main_arg13 (by decide) (by decide) (by decide) (by decide) (by decide) (by decide) (by decide)⟩) (run_all m ρ)

end Cert.KernelIdeal.Run

end
-- ==== Proof.Spec.lean ====
/-
  What the model computes, as plain functions on the extended reals.

  A row of token ids becomes a multi-hot row: entry k is 1 when some position of the row holds the id k, else 0
  (a repeated id still gives 1). A hidden layer is a matrix product plus a bias row followed by the leaky rectifier
  z ↦ z for z ≥ 0 and slope · z otherwise, the slope being the f32 word nearest to 0.2 that both programs carry. A head is a
  matrix product of the hidden layer plus a bias row. The four results are the two heads of the bag-of-words branch (whose
  input is the multi-hot matrix) and the two heads of the dense branch (whose input is x). All sums are finite sums in the
  commutative monoid of the extended reals, so neither the order nor the grouping of the summands matters.
-/
import Idealize.ShloMosaic.PureOps.Ideal
import Idealize.ShloMosaic.Lib.ValueIdx

noncomputable section

namespace Cert.Spec

open Idealize.ShloMosaic Idealize.ShloMosaic.ValueIdx
open scoped BigOperators

/-- The shape of an a × b matrix. -/
abbrev Mat (a b : Nat) : Shape := ⟨2, ![a, b]⟩

/-- The rectifier's slope for negative arguments: the f32 word 0x3E4CCCCD read exactly. -/
def slope : EReal := Ideal.ofBits .f32 0x3E4CCCCD#32

/-- The leaky rectifier. -/
def lrelu (z : EReal) : EReal := if 0 ≤ z then z else slope * z

/-- Entry (r, k) of the multi-hot matrix of the ids `s`: 1 when some position j of row r holds the id k. -/
def hot (s : Fin 2048 → Fin 50 → BitVec 32) (r : Fin 2048) (k : Fin 100000) : EReal :=
  if ∃ j : Fin 50, (s r j).toNat = k.val then 1 else 0

/-- A hidden layer: the rectifier of X·W + b. -/
def hid {K : Nat} (X : Fin 2048 → Fin K → EReal) (W : Fin K → Fin 256 → EReal) (b : Fin 256 → EReal)
    (r : Fin 2048) (c : Fin 256) : EReal :=
  lrelu ((∑ k : Fin K, X r k * W k c) + b c)

/-- A head: h·W + b. -/
def head {n : Nat} (h : Fin 2048 → Fin 256 → EReal) (W : Fin 256 → Fin n → EReal) (b : Fin n → EReal)
    (r : Fin 2048) (c : Fin n) : EReal :=
  (∑ k : Fin 256, h r k * W k c) + b c

/-- A function of a row and a column as an array over the matrix's indices. -/
def arr {a b : Nat} (f : Fin a → Fin b → EReal) : (Mat a b).Idx → EReal := fun i => f (i 0) (i 1)

theorem arr_ix2 {a b : Nat} (f : Fin a → Fin b → EReal) (r : Fin a) (c : Fin b) : arr f (ix2 r c) = f r c := rfl

/-- An array over a matrix's indices as a function of a row and a column. -/
def fn2 {a b : Nat} {α : Type} (A : (Mat a b).Idx → α) : Fin a → Fin b → α := fun r c => A (ix2 r c)

/-- A vector as a function of its one coordinate. -/
def fn1 {a : Nat} {α : Type} (A : (⟨1, ![a]⟩ : Shape).Idx → α) : Fin a → α := fun c => A (ix1 c)

/-- A one-row matrix as a function of the column. -/
def row1 {a : Nat} {α : Type} (A : (Mat 1 a).Idx → α) : Fin a → α := fun c => A (ix2 (0 : Fin 1) c)

/-- The four results from the fourteen argument arrays (s the ids; x the dense input; then per branch the hidden
    layer's weights and bias and the two heads' weights and biases). -/
def bowHid (s : (Mat 2048 50).Idx → BitVec 32) (W2 : (Mat 100000 256).Idx → EReal) (b3 : (⟨1, ![256]⟩ : Shape).Idx → EReal) :
    Fin 2048 → Fin 256 → EReal :=
  hid (hot (fn2 s)) (fn2 W2) (fn1 b3)

def beoHid (x : (Mat 2048 512).Idx → EReal) (W8 : (Mat 512 256).Idx → EReal) (b9 : (⟨1, ![256]⟩ : Shape).Idx → EReal) :
    Fin 2048 → Fin 256 → EReal :=
  hid (fn2 x) (fn2 W8) (fn1 b9)

def out {n : Nat} (h : Fin 2048 → Fin 256 → EReal) (W : (Mat 256 n).Idx → EReal) (b : (⟨1, ![n]⟩ : Shape).Idx → EReal) :
    (Mat 2048 n).Idx → EReal :=
  arr (head h (fn2 W) (fn1 b))

end Cert.Spec

end
-- ==== Proof.LibPlainMatmul.lean ====
/-
  A kernel's plain matrix product read at an entry, at the extended reals.
-/
import Idealize.ShloMosaic.Lib.StackMember
import Idealize.ShloMosaic.Lib.KernelVsHost

noncomputable section

namespace Cert.LibPlainMatmul

open Idealize.ShloMosaic Idealize.ShloMosaic.ValueIdx

/-- The product of an m×k block by a k×n block (rows by columns, no batch axis) accumulated into the zero block: its
    entry (a, b) is the sum over the contracted coordinate of the products of the entries — the accumulator adds nothing
    and, on the extended reals, nothing is rounded and no order of the summands is left. Generic in the three extents,
    the two operand formats and the precision key. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) := by
  rw [matmul_zero_eq_dotGeneral]
  exact StackMember.dotGeneral_plain_apply prec A B a b

end Cert.LibPlainMatmul

end
-- ==== Proof.Payloads.lean ====
/-
  The arithmetic of the two kernel bodies, read at one entry, on the extended reals.

  Each kernel body computes a few blocks from the blocks it has loaded. Read at the entry (a, b) of the result, on the
  extended reals, every one of them is a closed expression in the entries of the loaded blocks: a shape cast to the same
  shape and a narrowing format change are the identity; a matrix product into the zero accumulator is the plain sum over
  the contracted coordinate; a one-row block broadcast over the rows reads the row; and the comparison with zero, the
  product with the slope and the selection between the two are, entry by entry, the leaky rectifier. The bag-of-words
  kernel starts its accumulator at zero, adds one tile's product per step, and at the last step forms the hidden layer
  (the rectifier of accumulator plus bias) and the two heads; the dense kernel forms the hidden layer from one product and
  then the two heads.
-/
import proofs.«165028_j4097398800503_1_alg».proof.Proof.Gen.KernelIdeal.Skeleton
import proofs.«165028_j4097398800503_1_alg».proof.Proof.Spec
import proofs.«165028_j4097398800503_1_alg».proof.Proof.LibPlainMatmul
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Pay

open Idealize.ShloMosaic Idealize.ShloMosaic.ValueIdx Cert.KernelIdeal Cert.KernelIdeal.Gen
open scoped BigOperators

/-- The rectifier at one element: the comparison with the zero word decides 0 ≤ z, the selection keeps z there and the
    slope's multiple elsewhere. -/
theorem lrelu_elem (z : EReal) :
    Scalar.select (Ideal.cmp .oge z (Ideal.ofBits .f32 0x00000000#32)) z (Ideal.ofBits .f32 0x3E4CCCCD#32 * z)
      = Spec.lrelu z := by
  rw [Ideal.ofBits_zero_f32]
  unfold Spec.lrelu Spec.slope Scalar.select Ideal.cmp
  by_cases h : (0 : EReal) ≤ z
  · rw [if_pos h, if_pos (by simp [h])]
  · rw [if_neg h, if_neg (by simp [h])]

/-- The rectifier over a whole block, followed by the narrowing format change (the identity on extended reals), read at
    an index: the rectifier of the element. -/
theorem lrelu_vec {s : Shape} (z : FVec Ideal s .f32) (h : FTy.bits .bf16 < FTy.bits .f32) (i : s.Idx) :
    (truncf .bf16 (select (cmpf .oge z (broadcast s (Scalar.ofBits .f32 0x00000000#32))) z
        (mulf (broadcast s (Scalar.ofBits .f32 0x3E4CCCCD#32)) z)) h : FVec Ideal s .bf16) i
      = Spec.lrelu (z i) :=
  lrelu_elem (z i)

/-! ## The bag-of-words kernel -/

/-- The accumulator's initial block is zero everywhere. -/
theorem k0_pay1_apply (a : Fin 1024) (b : Fin 256) : k0_pay1 (F := Ideal) (ix2 a b) = 0 := by
  unfold k0_pay1
  rw [shapeCast_self]
  exact Ideal.ofBits_zero_f32

/-- One accumulation step: the old accumulator plus the product of the multi-hot tile by the weight tile. -/
theorem k0_pay2_apply (v3 : Vec Ideal S1024x256 .f32) (v4 : Vec Ideal S1024x4096 .bf16) (v6 : Vec Ideal S4096x256 .bf16)
    (a : Fin 1024) (b : Fin 256) :
    k0_pay2 v3 v4 v6 (ix2 a b) = v3 (ix2 a b) + ∑ j : Fin 4096, v4 (ix2 a j) * v6 (ix2 j b) := by
  unfold k0_pay2
  rw [shapeCast_self, shapeCast_self, shapeCast_self, addf_apply]
  congr 1
  exact Cert.LibPlainMatmul.matmul_plain_zero_apply none v4 v6 a b

/-- The hidden layer: the rectifier of the accumulator plus the bias row. -/
theorem k0_pay3_apply (v16 : Vec Ideal S1024x256 .f32) (v17 : Vec Ideal S1x256 .f32) (a : Fin 1024) (k : Fin 256) :
    k0_pay3 v16 v17 (ix2 a k) = Spec.lrelu (v16 (ix2 a k) + v17 (ix2 (0 : Fin 1) k)) := by
  unfold k0_pay3
  refine (lrelu_vec _ _ (ix2 a k)).trans ?_
  rw [addf_apply, shapeCast_self, broadcastTo_1b_ab_apply]

/-- The first head: the hidden layer times the head's weights plus its bias row. -/
theorem k0_pay4_apply (v16 : Vec Ideal S1024x256 .f32) (v17 : Vec Ideal S1x256 .f32) (v27 : Vec Ideal S256x5 .bf16)
    (v30 : Vec Ideal S1x5 .f32) (a : Fin 1024) (b : Fin 5) :
    k0_pay4 v16 v17 v27 v30 (ix2 a b)
      = (∑ k : Fin 256, Spec.lrelu (v16 (ix2 a k) + v17 (ix2 (0 : Fin 1) k)) * v27 (ix2 k b)) + v30 (ix2 (0 : Fin 1) b) := by
  unfold k0_pay4
  rw [addf_apply, shapeCast_self, shapeCast_self, broadcastTo_1b_ab_apply]
  congr 1
  refine (Cert.LibPlainMatmul.matmul_plain_zero_apply none (k0_pay3 v16 v17) v27 a b).trans ?_
  exact Finset.sum_congr rfl fun k _ => by rw [k0_pay3_apply]

/-- The second head, likewise. -/
theorem k0_pay5_apply (v16 : Vec Ideal S1024x256 .f32) (v17 : Vec Ideal S1x256 .f32) (v35 : Vec Ideal S256x64 .bf16)
    (v38 : Vec Ideal S1x64 .f32) (a : Fin 1024) (b : Fin 64) :
    k0_pay5 v16 v17 v35 v38 (ix2 a b)
      = (∑ k : Fin 256, Spec.lrelu (v16 (ix2 a k) + v17 (ix2 (0 : Fin 1) k)) * v35 (ix2 k b)) + v38 (ix2 (0 : Fin 1) b) := by
  unfold k0_pay5
  rw [addf_apply, shapeCast_self, shapeCast_self, broadcastTo_1b_ab_apply]
  congr 1
  refine (Cert.LibPlainMatmul.matmul_plain_zero_apply none (k0_pay3 v16 v17) v35 a b).trans ?_
  exact Finset.sum_congr rfl fun k _ => by rw [k0_pay3_apply]

/-! ## The dense kernel -/

/-- The hidden layer: the rectifier of the input block times the weights plus the bias row (the input's narrowing format
    change is the identity on extended reals). -/
theorem k1_pay1_apply (v0 : Vec Ideal S1024x512 .f32) (v3 : Vec Ideal S512x256 .bf16) (v6 : Vec Ideal S1x256 .f32)
    (a : Fin 1024) (k : Fin 256) :
    k1_pay1 v0 v3 v6 (ix2 a k) = Spec.lrelu ((∑ j : Fin 512, v0 (ix2 a j) * v3 (ix2 j k)) + v6 (ix2 (0 : Fin 1) k)) := by
  unfold k1_pay1
  refine (lrelu_vec _ _ (ix2 a k)).trans ?_
  rw [addf_apply, shapeCast_self, shapeCast_self, shapeCast_self, broadcastTo_1b_ab_apply]
  congr 2
  exact Cert.LibPlainMatmul.matmul_plain_zero_apply none
    (truncf .bf16 (v0 : FVec Ideal S1024x512 .f32) bitsLt_bf16_f32 : FVec Ideal S1024x512 .bf16) v3 a k

/-- The first head: the hidden layer times the head's weights plus its bias row. -/
theorem k1_pay2_apply (v0 : Vec Ideal S1024x512 .f32) (v3 : Vec Ideal S512x256 .bf16) (v6 : Vec Ideal S1x256 .f32)
    (v16 : Vec Ideal S256x5 .bf16) (v19 : Vec Ideal S1x5 .f32) (a : Fin 1024) (b : Fin 5) :
    k1_pay2 v0 v3 v6 v16 v19 (ix2 a b)
      = (∑ k : Fin 256, Spec.lrelu ((∑ j : Fin 512, v0 (ix2 a j) * v3 (ix2 j k)) + v6 (ix2 (0 : Fin 1) k)) * v16 (ix2 k b))
        + v19 (ix2 (0 : Fin 1) b) := by
  unfold k1_pay2
  rw [addf_apply, shapeCast_self, shapeCast_self, broadcastTo_1b_ab_apply]
  congr 1
  refine (Cert.LibPlainMatmul.matmul_plain_zero_apply none (k1_pay1 v0 v3 v6) v16 a b).trans ?_
  exact Finset.sum_congr rfl fun k _ => by rw [k1_pay1_apply]

/-- The second head, likewise. -/
theorem k1_pay3_apply (v0 : Vec Ideal S1024x512 .f32) (v3 : Vec Ideal S512x256 .bf16) (v6 : Vec Ideal S1x256 .f32)
    (v24 : Vec Ideal S256x64 .bf16) (v27 : Vec Ideal S1x64 .f32) (a : Fin 1024) (b : Fin 64) :
    k1_pay3 v0 v3 v6 v24 v27 (ix2 a b)
      = (∑ k : Fin 256, Spec.lrelu ((∑ j : Fin 512, v0 (ix2 a j) * v3 (ix2 j k)) + v6 (ix2 (0 : Fin 1) k)) * v24 (ix2 k b))
        + v27 (ix2 (0 : Fin 1) b) := by
  unfold k1_pay3
  rw [addf_apply, shapeCast_self, shapeCast_self, broadcastTo_1b_ab_apply]
  congr 1
  refine (Cert.LibPlainMatmul.matmul_plain_zero_apply none (k1_pay1 v0 v3 v6) v24 a b).trans ?_
  exact Finset.sum_congr rfl fun k _ => by rw [k1_pay1_apply]

end Cert.KernelIdeal.Pay

end
-- ==== Proof.LibBlockSum.lean ====
/-
  A sum over the rows of an array cut into equal blocks.

  When T·B rows are cut into T consecutive blocks of B rows, row t·B + q is row q of block t, and a sum over all rows is
  the sum over the blocks of each block's own sum. A running total that starts at zero and adds one block's sum at a time
  therefore holds, after the first n blocks, the sum over the rows below n·B, and after all T blocks the sum over every row.
  Stated for any commutative additive monoid.
-/
import Mathlib.Data.Fintype.BigOperators
import Mathlib.Logic.Equiv.Fin.Basic

open scoped BigOperators

namespace Cert.LibBlockSum

variable {M : Type*} [AddCommMonoid M]

/-- Row q of block t lies among the T·B rows. -/
theorem row_lt {T B : Nat} (t : Fin T) (q : Fin B) : t.val * B + q.val < T * B :=
  calc t.val * B + q.val < t.val * B + B := Nat.add_lt_add_left q.isLt _
    _ = (t.val + 1) * B := (Nat.succ_mul _ _).symm
    _ ≤ T * B := Nat.mul_le_mul_right B t.isLt

/-- Row q of block t lies among the N rows when N = T·B. -/
theorem row_lt_of_eq {T B N : Nat} (h : T * B = N) (t : Fin T) (q : Fin B) : t.val * B + q.val < N :=
  h ▸ row_lt t q

/-- A sum over T·B rows is the sum over the T blocks of the sum over each block's B rows. -/
theorem sum_blocks {T B : Nat} (f : Fin (T * B) → M) :
    ∑ r : Fin (T * B), f r = ∑ t : Fin T, ∑ q : Fin B, f ⟨t.val * B + q.val, row_lt t q⟩ := by
  rw [← (finProdFinEquiv (m := T) (n := B)).sum_comp, Fintype.sum_prod_type]
  refine Finset.sum_congr rfl fun t _ => Finset.sum_congr rfl fun q _ => congrArg f (Fin.ext ?_)
  show q.val + B * t.val = t.val * B + q.val
  rw [Nat.mul_comm, Nat.add_comm]

/-- The same with the number of rows given as a literal N = T·B. -/
theorem sum_blocks_of_eq {T B N : Nat} (h : T * B = N) (f : Fin N → M) :
    ∑ r : Fin N, f r = ∑ t : Fin T, ∑ q : Fin B, f ⟨t.val * B + q.val, row_lt_of_eq h t q⟩ := by
  subst h
  exact sum_blocks f

/-- The total of the first n of T block values (a block past the last counts as zero). -/
def upTo {T : Nat} (g : Fin T → M) (n : Nat) : M :=
  ∑ k ∈ Finset.range n, if h : k < T then g ⟨k, h⟩ else 0

/-- Before any block the total is zero. -/
theorem upTo_zero {T : Nat} (g : Fin T → M) : upTo g 0 = 0 := Finset.sum_range_zero _

/-- Adding block n to the total of the first n blocks gives the total of the first n + 1. -/
theorem upTo_succ {T : Nat} (g : Fin T → M) (n : Nat) (hn : n < T) : upTo g (n + 1) = upTo g n + g ⟨n, hn⟩ := by
  unfold upTo
  rw [Finset.sum_range_succ, dif_pos hn]

/-- The first block alone. -/
theorem upTo_one {T : Nat} (g : Fin T → M) (h0 : 0 < T) : upTo g 1 = g ⟨0, h0⟩ := by
  rw [upTo_succ g 0 h0, upTo_zero, zero_add]

/-- After all T blocks the total is the sum over the blocks. -/
theorem upTo_all {T : Nat} (g : Fin T → M) : upTo g T = ∑ t : Fin T, g t := by
  unfold upTo
  rw [Finset.sum_fin_eq_sum_range]

/-- After all T blocks of B rows the running total of the blocks' sums is the sum over all N = T·B rows. -/
theorem upTo_blocks {T B N : Nat} (h : T * B = N) (f : Fin N → M) :
    upTo (fun t : Fin T => ∑ q : Fin B, f ⟨t.val * B + q.val, row_lt_of_eq h t q⟩) T = ∑ r : Fin N, f r := by
  rw [upTo_all, sum_blocks_of_eq h f]

end Cert.LibBlockSum
-- ==== Proof.BowCover.lean ====
import proofs.«165028_j4097398800503_1_alg».proof.Proof.Gen.KernelIdeal.Launch
import proofs.«165028_j4097398800503_1_alg».proof.Proof.Gen.KernelIdeal.Points
import Idealize.ShloMosaic.Lib.Pipeline.Value
import Idealize.ShloMosaic.Lib.ValueIdx
import Idealize.ShloMosaic.Lib.Tactic

/-! # The bag-of-words region's output blocks: where they sit, and that they cover the arrays

The first TensorCore region runs on a grid of 2 × 25 points: point `t` works on row block `t / 25` (1024 rows) and
vocabulary tile `t % 25`. Each of its two output windows has one block per row block, written back at the last tile
of the row block (the points `t` with `t % 25 = 24`). This module states where an element of an output block sits in
its array (row `1024 · (t / 25) + a`, the same column) and that the written-back blocks cover every index of the
array (row `r` is covered by the point `25 · (r / 1024) + 24`). -/

noncomputable section

namespace Cert.KernelIdeal.BowCover

open Cert.KernelIdeal Cert.KernelIdeal.Gen
open Idealize.ShloMosaic Idealize.ShloMosaic.TcCoe Idealize.SL.Sem Idealize.ShloMosaic.ValueIdx

/-- The two output windows' printed index maps, decided over the fifty grid points: row block `t / 25`, the one
    column block. -/
theorem idx_facts : ∀ t : Fin cfg0.N,
    win0_7.index t (0 : Fin 2) = t.val / 25 ∧ win0_7.index t (1 : Fin 2) = 0
    ∧ win0_8.index t (0 : Fin 2) = t.val / 25 ∧ win0_8.index t (1 : Fin 2) = 0 :=
  (by decide +kernel : ∀ t : Fin grid0.N, _)

/-! ## Output window 7 -/

/-- Element `(a, q)` of point `t`'s block of output window 7 sits at row `1024 · (t / 25) + a`, column `q` of its array. -/
theorem emb0_7 (t : Fin cfg0.N) (a : Fin 1024) (q : Fin 5) (h : 1024 * (t.val / 25) + a.val < 2048) :
    ((cfg0.win 7).blk t).view.emb (ix2 a q) = (ix2 (⟨1024 * (t.val / 25) + a.val, h⟩ : Fin 2048) q : S2048x5.Idx) := by
  obtain ⟨e0, e1, -, -⟩ := idx_facts t
  funext d
  apply Fin.ext
  match d with
  | ⟨0, _⟩ => show win0_7.index t (0 : Fin 2) * 1024 + 1 * a.val = 1024 * (t.val / 25) + a.val; rw [e0]; omega
  | ⟨1, _⟩ => show win0_7.index t (1 : Fin 2) * 5 + 1 * q.val = q.val; rw [e1]; omega

/-- An index of the array is in point `t`'s block iff each coordinate is in the block's range on its axis. -/
theorem mem_blk0_7 (t : Fin cfg0.N) (i : S2048x5.Idx) :
    i ∈ ((cfg0.win 7).blk t).view.set ↔ ∀ a : Fin 2, win0_7.index t a * S1024x5.size a ≤ (i a).val ∧ (i a).val < win0_7.index t a * S1024x5.size a + S1024x5.size a := by
  show i ∈ ((View.whole main_v26_0).slice (win0_7.rect t)).set ↔ _
  rw [View.set_slice_whole, Rect.mem_set_unit]
  exact Iff.rfl

/-- Every index of the array is in a written-back block: row `r` is in the block of the last tile's point of row block
    `r / 1024`, the point `25 · (r / 1024) + 24`, which writes back. -/
theorem cover0_7 (i : S2048x5.Idx) : ∃ t : Fin cfg0.N, (cfg0.win 7).flush t = true ∧ i ∈ ((cfg0.win 7).blk t).view.set := by
  have hi0 : (i 0).val < 2048 := (i 0).isLt
  have hi1 : (i 1).val < 5 := (i 1).isLt
  have hN : cfg0.N = 50 := N_0
  have ht : 25 * ((i 0).val / 1024) + 24 < cfg0.N := by omega
  refine ⟨⟨25 * ((i 0).val / 1024) + 24, ht⟩, (flush0_7 _).mpr (by show (25 * ((i 0).val / 1024) + 24) % 25 = 24; omega), ?_⟩
  obtain ⟨e0, e1, -, -⟩ := idx_facts ⟨25 * ((i 0).val / 1024) + 24, ht⟩
  rw [mem_blk0_7]
  intro a
  match a with
  | ⟨0, _⟩ =>
    show win0_7.index _ (0 : Fin 2) * 1024 ≤ (i 0).val ∧ (i 0).val < win0_7.index _ (0 : Fin 2) * 1024 + 1024
    rw [e0]
    show (25 * ((i 0).val / 1024) + 24) / 25 * 1024 ≤ (i 0).val ∧ (i 0).val < (25 * ((i 0).val / 1024) + 24) / 25 * 1024 + 1024
    omega
  | ⟨1, _⟩ =>
    show win0_7.index _ (1 : Fin 2) * 5 ≤ (i 1).val ∧ (i 1).val < win0_7.index _ (1 : Fin 2) * 5 + 5
    rw [e1]; omega

/-! ## Output window 8 -/

/-- Element `(a, q)` of point `t`'s block of output window 8 sits at row `1024 · (t / 25) + a`, column `q` of its array. -/
theorem emb0_8 (t : Fin cfg0.N) (a : Fin 1024) (q : Fin 64) (h : 1024 * (t.val / 25) + a.val < 2048) :
    ((cfg0.win 8).blk t).view.emb (ix2 a q) = (ix2 (⟨1024 * (t.val / 25) + a.val, h⟩ : Fin 2048) q : S2048x64.Idx) := by
  obtain ⟨-, -, e0, e1⟩ := idx_facts t
  funext d
  apply Fin.ext
  match d with
  | ⟨0, _⟩ => show win0_8.index t (0 : Fin 2) * 1024 + 1 * a.val = 1024 * (t.val / 25) + a.val; rw [e0]; omega
  | ⟨1, _⟩ => show win0_8.index t (1 : Fin 2) * 64 + 1 * q.val = q.val; rw [e1]; omega

/-- An index of the array is in point `t`'s block iff each coordinate is in the block's range on its axis. -/
theorem mem_blk0_8 (t : Fin cfg0.N) (i : S2048x64.Idx) :
    i ∈ ((cfg0.win 8).blk t).view.set ↔ ∀ a : Fin 2, win0_8.index t a * S1024x64.size a ≤ (i a).val ∧ (i a).val < win0_8.index t a * S1024x64.size a + S1024x64.size a := by
  show i ∈ ((View.whole main_v26_1).slice (win0_8.rect t)).set ↔ _
  rw [View.set_slice_whole, Rect.mem_set_unit]
  exact Iff.rfl

/-- Every index of the array is in a written-back block: row `r` is in the block of the last tile's point of row block
    `r / 1024`, the point `25 · (r / 1024) + 24`, which writes back. -/
theorem cover0_8 (i : S2048x64.Idx) : ∃ t : Fin cfg0.N, (cfg0.win 8).flush t = true ∧ i ∈ ((cfg0.win 8).blk t).view.set := by
  have hi0 : (i 0).val < 2048 := (i 0).isLt
  have hi1 : (i 1).val < 64 := (i 1).isLt
  have hN : cfg0.N = 50 := N_0
  have ht : 25 * ((i 0).val / 1024) + 24 < cfg0.N := by omega
  refine ⟨⟨25 * ((i 0).val / 1024) + 24, ht⟩, (flush0_8 _).mpr (by show (25 * ((i 0).val / 1024) + 24) % 25 = 24; omega), ?_⟩
  obtain ⟨-, -, e0, e1⟩ := idx_facts ⟨25 * ((i 0).val / 1024) + 24, ht⟩
  rw [mem_blk0_8]
  intro a
  match a with
  | ⟨0, _⟩ =>
    show win0_8.index _ (0 : Fin 2) * 1024 ≤ (i 0).val ∧ (i 0).val < win0_8.index _ (0 : Fin 2) * 1024 + 1024
    rw [e0]
    show (25 * ((i 0).val / 1024) + 24) / 25 * 1024 ≤ (i 0).val ∧ (i 0).val < (25 * ((i 0).val / 1024) + 24) / 25 * 1024 + 1024
    omega
  | ⟨1, _⟩ =>
    show win0_8.index _ (1 : Fin 2) * 64 ≤ (i 1).val ∧ (i 1).val < win0_8.index _ (1 : Fin 2) * 64 + 64
    rw [e1]; omega

end Cert.KernelIdeal.BowCover

end
-- ==== Proof.BowValue.lean ====
/-
  The two result arrays of the bag-of-words region, as the specification's functions of the region's entry contents, on
  the extended reals.

  The region runs over the grid (2, 25): point t = 25·b + v handles row block b (1024 rows) and vocabulary tile v (4096
  of the 102400 padded rows). The multi-hot window's block at t is rows 1024·b … of columns 4096·v …; the weight window's
  is rows 4096·v …; the five small operands are read whole. The accumulator is zero plus the first tile's product at
  v = 0 and gains one tile's product at each later point, so after point t its entry (a, k) is the running total of the
  first v + 1 tile sums ∑_j X(1024·b + a, 4096·v' + j) · W(4096·v' + j, k); at v = 24 this is the whole sum over the
  102400 rows (a sum over T·B rows is the sum over the T blocks of each block's sum). There the body forms the hidden layer
  (the rectifier of accumulator plus bias) and the two heads and the pipeline writes both result blocks back: entry (a, q)
  of the block is the specification's head at row 1024·b + a. The blocks of the flushing points 25·b + 24 cover the result
  arrays, so each array ends holding the specification's head of the hidden layer everywhere.
-/
import proofs.«165028_j4097398800503_1_alg».proof.Proof.BowRegionDefs
import proofs.«165028_j4097398800503_1_alg».proof.Proof.Spec
import proofs.«165028_j4097398800503_1_alg».proof.Proof.Payloads
import proofs.«165028_j4097398800503_1_alg».proof.Proof.LibBlockSum
import proofs.«165028_j4097398800503_1_alg».proof.Proof.BowCover
import Idealize.ShloMosaic.Lib.ValueIdx
import Idealize.ShloMosaic.Lib.Pipeline.Value
import Idealize.ShloMosaic.Lib.ValueLayout

noncomputable section

namespace Cert.KernelIdeal.BowValue

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Bow
open scoped BigOperators

/-! ## Where each window's block lies at a grid point -/

/-- The block indices, decided once over the fifty grid points: at point t = 25·b + v the multi-hot window is at block
    (b, v), the weight window at block (v, 0), the five small windows at block (0, 0), and each result window at block
    (b, 0). -/
theorem idx_facts : ∀ t : Fin cfg0.N,
    win0_0.index t (0 : Fin 2) = t.val / 25 ∧ win0_0.index t (1 : Fin 2) = t.val % 25
    ∧ win0_1.index t (0 : Fin 2) = t.val % 25 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val / 25 ∧ win0_7.index t (1 : Fin 2) = 0
    ∧ win0_8.index t (0 : Fin 2) = t.val / 25 ∧ win0_8.index t (1 : Fin 2) = 0 :=
  (by decide +kernel : ∀ t : Fin grid0.N, _)

section Blocks

variable {F : FTy → Type} [FloatOps F]
variable (V : (c : Dev nD) → (b : Ref sig .tc) → Buf (Elt F) ((c : Thread nD τ).loc b))

/-- Entry (a, j) of the multi-hot block at point t is entry (1024·(t/25) + a, 4096·(t%25) + j) of the array. -/
theorem iblk0_0_apply (c : Dev nD) (t : Fin cfg0.N) (a : Fin 1024) (j : Fin 4096) (r : Fin 2048) (n : Fin 102400)
    (hr : r.val = 1024 * (t.val / 25) + a.val) (hn : n.val = 4096 * (t.val % 25) + j.val) :
    (iblk0 V c 0 t : Vec F S1024x4096 .bf16) (ix2 a j) = (V c main_v18 : S2048x102400.Idx → Elt F .bf16) (ix2 r n) := by
  obtain ⟨e0, e1, -⟩ := idx_facts t
  unfold iblk0
  rw [View.read_apply]
  show V c main_v18 _ = V c main_v18 _
  congr 1
  funext ax
  apply Fin.ext
  match ax with
  | ⟨0, _⟩ => show win0_0.index t 0 * 1024 + 1 * a.val = r.val; rw [e0, hr]; omega
  | ⟨1, _⟩ => show win0_0.index t 1 * 4096 + 1 * j.val = n.val; rw [e1, hn]; omega

/-- Entry (j, k) of the weight block at point t is entry (4096·(t%25) + j, k) of the array. -/
theorem iblk0_1_apply (c : Dev nD) (t : Fin cfg0.N) (j : Fin 4096) (k : Fin 256) (n : Fin 102400)
    (hn : n.val = 4096 * (t.val % 25) + j.val) :
    (iblk0 V c 1 t : Vec F S4096x256 .bf16) (ix2 j k) = (V c main_v20 : S102400x256.Idx → Elt F .bf16) (ix2 n k) := by
  obtain ⟨-, -, e0, e1, -⟩ := idx_facts t
  unfold iblk0
  rw [View.read_apply]
  show V c main_v20 _ = V c main_v20 _
  congr 1
  funext ax
  apply Fin.ext
  match ax with
  | ⟨0, _⟩ => show win0_1.index t 0 * 4096 + 1 * j.val = n.val; rw [e0, hn]; omega
  | ⟨1, _⟩ => show win0_1.index t 1 * 256 + 1 * k.val = k.val; rw [e1]; omega

/-- The hidden layer's bias row is read whole at every point. -/
theorem iblk0_2_apply (c : Dev nD) (t : Fin cfg0.N) (u : Fin 1) (k : Fin 256) :
    (iblk0 V c 2 t : Vec F S1x256 .f32) (ix2 u k) = (V c main_v21 : S1x256.Idx → Elt F .f32) (ix2 (0 : Fin 1) k) := by
  obtain ⟨-, -, -, -, e0, e1, -⟩ := idx_facts t
  have hu : u.val = 0 := by omega
  unfold iblk0
  rw [View.read_apply]
  show V c main_v21 _ = V c main_v21 _
  congr 1
  funext ax
  apply Fin.ext
  match ax with
  | ⟨0, _⟩ => show win0_2.index t 0 * 1 + 1 * u.val = 0; rw [e0, hu]
  | ⟨1, _⟩ => show win0_2.index t 1 * 256 + 1 * k.val = k.val; rw [e1]; omega

/-- The first head's weights are read whole at every point. -/
theorem iblk0_3_apply (c : Dev nD) (t : Fin cfg0.N) (k : Fin 256) (q : Fin 5) :
    (iblk0 V c 3 t : Vec F S256x5 .bf16) (ix2 k q) = (V c main_v22 : S256x5.Idx → Elt F .bf16) (ix2 k q) := by
  obtain ⟨-, -, -, -, -, -, e0, e1, -⟩ := idx_facts t
  unfold iblk0
  rw [View.read_apply]
  show V c main_v22 _ = V c main_v22 _
  congr 1
  funext ax
  apply Fin.ext
  match ax with
  | ⟨0, _⟩ => show win0_3.index t 0 * 256 + 1 * k.val = k.val; rw [e0]; omega
  | ⟨1, _⟩ => show win0_3.index t 1 * 5 + 1 * q.val = q.val; rw [e1]; omega

/-- The first head's bias row is read whole at every point. -/
theorem iblk0_4_apply (c : Dev nD) (t : Fin cfg0.N) (u : Fin 1) (q : Fin 5) :
    (iblk0 V c 4 t : Vec F S1x5 .f32) (ix2 u q) = (V c main_v23 : S1x5.Idx → Elt F .f32) (ix2 (0 : Fin 1) q) := by
  obtain ⟨-, -, -, -, -, -, -, -, e0, e1, -⟩ := idx_facts t
  have hu : u.val = 0 := by omega
  unfold iblk0
  rw [View.read_apply]
  show V c main_v23 _ = V c main_v23 _
  congr 1
  funext ax
  apply Fin.ext
  match ax with
  | ⟨0, _⟩ => show win0_4.index t 0 * 1 + 1 * u.val = 0; rw [e0, hu]
  | ⟨1, _⟩ => show win0_4.index t 1 * 5 + 1 * q.val = q.val; rw [e1]; omega

/-- The second head's weights are read whole at every point. -/
theorem iblk0_5_apply (c : Dev nD) (t : Fin cfg0.N) (k : Fin 256) (q : Fin 64) :
    (iblk0 V c 5 t : Vec F S256x64 .bf16) (ix2 k q) = (V c main_v24 : S256x64.Idx → Elt F .bf16) (ix2 k q) := by
  obtain ⟨-, -, -, -, -, -, -, -, -, -, e0, e1, -⟩ := idx_facts t
  unfold iblk0
  rw [View.read_apply]
  show V c main_v24 _ = V c main_v24 _
  congr 1
  funext ax
  apply Fin.ext
  match ax with
  | ⟨0, _⟩ => show win0_5.index t 0 * 256 + 1 * k.val = k.val; rw [e0]; omega
  | ⟨1, _⟩ => show win0_5.index t 1 * 64 + 1 * q.val = q.val; rw [e1]; omega

/-- The second head's bias row is read whole at every point. -/
theorem iblk0_6_apply (c : Dev nD) (t : Fin cfg0.N) (u : Fin 1) (q : Fin 64) :
    (iblk0 V c 6 t : Vec F S1x64 .f32) (ix2 u q) = (V c main_v25 : S1x64.Idx → Elt F .f32) (ix2 (0 : Fin 1) q) := by
  obtain ⟨-, -, -, -, -, -, -, -, -, -, -, -, e0, e1, -⟩ := idx_facts t
  have hu : u.val = 0 := by omega
  unfold iblk0
  rw [View.read_apply]
  show V c main_v25 _ = V c main_v25 _
  congr 1
  funext ax
  apply Fin.ext
  match ax with
  | ⟨0, _⟩ => show win0_6.index t 0 * 1 + 1 * u.val = 0; rw [e0, hu]
  | ⟨1, _⟩ => show win0_6.index t 1 * 64 + 1 * q.val = q.val; rw [e1]; omega

end Blocks

/-! ## The accumulator as a running total of tile sums -/

section AtIdeal

variable (V : (c : Dev nD) → (b : Ref sig .tc) → Buf (Elt Ideal) ((c : Thread nD τ).loc b))

/-- The multi-hot matrix and the padded weight matrix, as functions of a row and a column. -/
abbrev X (c : Dev nD) : Fin 2048 → Fin 102400 → EReal := Spec.fn2 (V c main_v18 : (Spec.Mat 2048 102400).Idx → EReal)
abbrev W (c : Dev nD) : Fin 102400 → Fin 256 → EReal := Spec.fn2 (V c main_v20 : (Spec.Mat 102400 256).Idx → EReal)

/-- The two tiles point t reads, as blocks of extended reals. -/
abbrev xb (c : Dev nD) (t : Fin cfg0.N) : Vec Ideal S1024x4096 .bf16 := iblk0 V c 0 t
abbrev wb (c : Dev nD) (t : Fin cfg0.N) : Vec Ideal S4096x256 .bf16 := iblk0 V c 1 t

/-- The vocabulary's 102400 rows are 25 tiles of 4096. -/
theorem h25 : 25 * 4096 = 102400 := by norm_num

/-- The sum over tile v of the products X(r, n) · W(n, k). -/
def tile (c : Dev nD) (r : Fin 2048) (k : Fin 256) (v : Fin 25) : EReal :=
  ∑ q : Fin 4096, X V c r ⟨v.val * 4096 + q.val, LibBlockSum.row_lt_of_eq h25 v q⟩
    * W V c ⟨v.val * 4096 + q.val, LibBlockSum.row_lt_of_eq h25 v q⟩ k

/-- The product of the two tiles of point t, at entry (a, k), is the tile sum of tile t % 25 for the row 1024·(t/25) + a. -/
theorem tile_eq (c : Dev nD) (t : Fin cfg0.N) (a : Fin 1024) (k : Fin 256) (r : Fin 2048)
    (hr : r.val = 1024 * (t.val / 25) + a.val) (hv : t.val % 25 < 25) :
    ∑ j : Fin 4096, xb V c t (ix2 a j) * wb V c t (ix2 j k) = tile V c r k ⟨t.val % 25, hv⟩ :=
  Finset.sum_congr rfl fun j _ => congrArg₂ (· * ·)
    (iblk0_0_apply V c t a j r ⟨t.val % 25 * 4096 + j.val, LibBlockSum.row_lt_of_eq h25 ⟨t.val % 25, hv⟩ j⟩ hr
      (by show t.val % 25 * 4096 + j.val = 4096 * (t.val % 25) + j.val; omega))
    (iblk0_1_apply V c t j k ⟨t.val % 25 * 4096 + j.val, LibBlockSum.row_lt_of_eq h25 ⟨t.val % 25, hv⟩ j⟩
      (by show t.val % 25 * 4096 + j.val = 4096 * (t.val % 25) + j.val; omega))

/-- After point n = 25·b + v the accumulator's entry (a, k) is the total of the first v + 1 tile sums of the row
    1024·b + a: at v = 0 it is zero plus the first tile's sum, and each later point adds its tile's sum. -/
theorem acc_apply (c : Dev nD) (n : Nat) : ∀ (hn : n < cfg0.N) (a : Fin 1024) (k : Fin 256) (r : Fin 2048),
    r.val = 1024 * (n / 25) + a.val →
    accAt0 V c n hn (ix2 a k) = LibBlockSum.upTo (tile V c r k) (n % 25 + 1) := by
  induction n using Nat.strong_induction_on with
  | _ n ih =>
    intro hn a k r hr
    have hv : n % 25 < 25 := Nat.mod_lt _ (by decide)
    rw [LibBlockSum.upTo_succ _ _ hv]
    by_cases h : n % 25 = 0
    · refine ((congrFun (accAt0_reset V c ⟨n, hn⟩ h) (ix2 a k)).trans (Pay.k0_pay2_apply _ _ _ a k)).trans ?_
      refine congrArg₂ (· + ·) ?_ (tile_eq V c ⟨n, hn⟩ a k r hr hv)
      rw [Pay.k0_pay1_apply, h, LibBlockSum.upTo_zero]
    · refine ((congrFun (accAt0_step V c ⟨n, hn⟩ h) (ix2 a k)).trans (Pay.k0_pay2_apply _ _ _ a k)).trans ?_
      refine congrArg₂ (· + ·) ?_ (tile_eq V c ⟨n, hn⟩ a k r hr hv)
      exact (ih (n - 1) (by omega) (Nat.lt_of_le_of_lt (Nat.sub_le _ _) hn) a k r (by omega)).trans
        (congrArg (LibBlockSum.upTo (tile V c r k)) (by omega))

/-- At the last of every 25 points the accumulator's entry (a, k) is the whole sum over the vocabulary. -/
theorem acc_last (c : Dev nD) (t : Fin cfg0.N) (h : t.val % 25 = 24) (a : Fin 1024) (k : Fin 256) (r : Fin 2048)
    (hr : r.val = 1024 * (t.val / 25) + a.val) :
    accAt0 V c t.val t.isLt (ix2 a k) = ∑ n : Fin 102400, X V c r n * W V c n k := by
  rw [acc_apply V c t.val t.isLt a k r hr, h]
  exact LibBlockSum.upTo_blocks h25 (fun n : Fin 102400 => X V c r n * W V c n k)

end AtIdeal

/-! ## The two result arrays -/

section Results

variable (V : (c : Dev nD) → (b : Ref sig .tc) → Buf (Elt Ideal) ((c : Thread nD τ).loc b))

/-- The hidden layer of the bag-of-words branch, from the region's entry contents. -/
abbrev H (c : Dev nD) : Fin 2048 → Fin 256 → EReal :=
  Spec.hid (Spec.fn2 (V c main_v18 : (Spec.Mat 2048 102400).Idx → EReal))
    (Spec.fn2 (V c main_v20 : (Spec.Mat 102400 256).Idx → EReal))
    (Spec.row1 (V c main_v21 : (Spec.Mat 1 256).Idx → EReal))

/-- What the first result array ends holding. -/
abbrev G7 (c : Dev nD) : (Spec.Mat 2048 5).Idx → EReal :=
  Spec.arr (Spec.head (H V c) (Spec.fn2 (V c main_v22 : (Spec.Mat 256 5).Idx → EReal))
    (Spec.row1 (V c main_v23 : (Spec.Mat 1 5).Idx → EReal)))

/-- What the second result array ends holding. -/
abbrev G8 (c : Dev nD) : (Spec.Mat 2048 64).Idx → EReal :=
  Spec.arr (Spec.head (H V c) (Spec.fn2 (V c main_v24 : (Spec.Mat 256 64).Idx → EReal))
    (Spec.row1 (V c main_v25 : (Spec.Mat 1 64).Idx → EReal)))

/-- What a flushing point writes back to the first result array is its block of G7: there the accumulator holds the
    whole sum over the vocabulary, so the hidden layer and the head are the specification's at the block's rows. -/
theorem flushed7_eq (c : Dev nD) (t : Fin cfg0.N) (hf : (cfg0.win 7).flush t = true) :
    (dat0 V c).flushed 7 t = ((cfg0.win 7).blk t).view.read (Elt Ideal) (G7 V c) := by
  have h24 : t.val % 25 = 24 := (flush0_7 t).mp hf
  have hN : cfg0.N = 50 := N_0
  show (cfg0.win 7).cut (grid0.coords t) ((dat0 V c).after 7 t) = _
  rw [after0_7]
  funext y
  obtain ⟨a, q, rfl⟩ : ∃ (a : Fin 1024) (q : Fin 5), y = ix2 a q := ⟨y 0, y 1, eq_ix2 y⟩
  have hrlt : 1024 * (t.val / 25) + a.val < 2048 := by have := t.isLt; omega
  show k0_pay4 (F := Ideal) _ _ _ _ (ix2 a q) = G7 V c (((cfg0.win 7).blk t).view.emb (ix2 a q))
  rw [Pay.k0_pay4_apply, BowCover.emb0_7 t a q hrlt]
  show _ = Spec.head (H V c) _ _ ⟨1024 * (t.val / 25) + a.val, hrlt⟩ q
  unfold Spec.head H Spec.hid
  refine congrArg₂ (· + ·) (Finset.sum_congr rfl fun k _ => congrArg₂ (· * ·)
    (congrArg Spec.lrelu (congrArg₂ (· + ·) ?_ ?_)) ?_) ?_
  · exact acc_last V c t h24 a k _ rfl
  · exact iblk0_2_apply V c t 0 k
  · exact iblk0_3_apply V c t k q
  · exact iblk0_4_apply V c t 0 q

/-- The same for the second result array. -/
theorem flushed8_eq (c : Dev nD) (t : Fin cfg0.N) (hf : (cfg0.win 8).flush t = true) :
    (dat0 V c).flushed 8 t = ((cfg0.win 8).blk t).view.read (Elt Ideal) (G8 V c) := by
  have h24 : t.val % 25 = 24 := (flush0_8 t).mp hf
  have hN : cfg0.N = 50 := N_0
  show (cfg0.win 8).cut (grid0.coords t) ((dat0 V c).after 8 t) = _
  rw [after0_8]
  funext y
  obtain ⟨a, q, rfl⟩ : ∃ (a : Fin 1024) (q : Fin 64), y = ix2 a q := ⟨y 0, y 1, eq_ix2 y⟩
  have hrlt : 1024 * (t.val / 25) + a.val < 2048 := by have := t.isLt; omega
  show k0_pay5 (F := Ideal) _ _ _ _ (ix2 a q) = G8 V c (((cfg0.win 8).blk t).view.emb (ix2 a q))
  rw [Pay.k0_pay5_apply, BowCover.emb0_8 t a q hrlt]
  show _ = Spec.head (H V c) _ _ ⟨1024 * (t.val / 25) + a.val, hrlt⟩ q
  unfold Spec.head H Spec.hid
  refine congrArg₂ (· + ·) (Finset.sum_congr rfl fun k _ => congrArg₂ (· * ·)
    (congrArg Spec.lrelu (congrArg₂ (· + ·) ?_ ?_)) ?_) ?_
  · exact acc_last V c t h24 a k _ rfl
  · exact iblk0_2_apply V c t 0 k
  · exact iblk0_5_apply V c t k q
  · exact iblk0_6_apply V c t 0 q

/-- The first result array after the region: the first head of the bag-of-words hidden layer. -/
theorem value0_7 (c : Dev nD) : (dat0 (F := Ideal) V c).arrAt 7 cfg0.N
    = Spec.arr (Spec.head (Spec.hid (Spec.fn2 (V c main_v18 : (Spec.Mat 2048 102400).Idx → EReal))
        (Spec.fn2 (V c main_v20 : (Spec.Mat 102400 256).Idx → EReal)) (Spec.row1 (V c main_v21 : (Spec.Mat 1 256).Idx → EReal)))
      (Spec.fn2 (V c main_v22 : (Spec.Mat 256 5).Idx → EReal)) (Spec.row1 (V c main_v23 : (Spec.Mat 1 5).Idx → EReal))) :=
  (dat0 V c).arrAt_eq_of_cover 7 (G7 V c) (flushed7_eq V c) BowCover.cover0_7

/-- The second result array after the region: the second head of the bag-of-words hidden layer. -/
theorem value0_8 (c : Dev nD) : (dat0 (F := Ideal) V c).arrAt 8 cfg0.N
    = Spec.arr (Spec.head (Spec.hid (Spec.fn2 (V c main_v18 : (Spec.Mat 2048 102400).Idx → EReal))
        (Spec.fn2 (V c main_v20 : (Spec.Mat 102400 256).Idx → EReal)) (Spec.row1 (V c main_v21 : (Spec.Mat 1 256).Idx → EReal)))
      (Spec.fn2 (V c main_v24 : (Spec.Mat 256 64).Idx → EReal)) (Spec.row1 (V c main_v25 : (Spec.Mat 1 64).Idx → EReal))) :=
  (dat0 V c).arrAt_eq_of_cover 8 (G8 V c) (flushed8_eq V c) BowCover.cover0_8

end Results

end Cert.KernelIdeal.BowValue

end
-- ==== Proof.BeoValue.lean ====
import proofs.«165028_j4097398800503_1_alg».proof.Proof.BeoRegion
import proofs.«165028_j4097398800503_1_alg».proof.Proof.Spec
import proofs.«165028_j4097398800503_1_alg».proof.Proof.Payloads
import Idealize.ShloMosaic.Lib.Pipeline.Value
import Idealize.ShloMosaic.Lib.ValueIdx
import Idealize.ShloMosaic.Lib.Tactic

/-! # The dense branch's region, read as values on the extended reals

With floats read as extended reals, each of the region's two output arrays ends holding one function of the arrays
the region finds: the head (a matrix product plus a bias row) of the hidden layer (the leaky rectifier of a matrix
product plus a bias row) of the dense input. Each grid point writes back one block of 1024 rows, its rows a function
of the same rows of the input alone, and the two points' blocks cover the 2048 rows. -/

noncomputable section

namespace Cert.KernelIdeal.BeoValue

open Cert.KernelIdeal Cert.KernelIdeal.Gen Cert.KernelIdeal.Beo
open Idealize.ShloMosaic Idealize.ShloMosaic.TcCoe Idealize.SL.Sem Idealize.ShloMosaic.ValueIdx
open Idealize.ShloMosaic.Pipeline (Dat)
open scoped BigOperators

-- the TensorCore's buffer contents when the region is entered
variable (V : (c : Dev nD) → (b : Ref sig .tc) → Buf (Elt Ideal) ((c : Thread nD τ).loc b))

/-! ## Zero offsets, the index maps, and the blocks as rows of the arrays -/

/-- The zero offsets of a whole-buffer access, as a constant function. -/
theorem hz : (![0, 0] : Fin 2 → Nat) = fun _ => 0 := funext fun a => by fin_cases a <;> rfl

/-- The printed index maps, decided over the two grid points: the dense input's window and the two outputs' windows
    sit at row block `t`, every parameter window at its one block. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0
    ∧ win1_8.index t (0 : Fin 2) = t.val ∧ win1_8.index t (1 : Fin 2) = 0 :=
  (by decide +kernel : ∀ t : Fin grid1.N, _)

/-- Row `a` of point `t`'s block is a row of the 2048-row arrays. -/
theorem row_lt (t : Fin cfg1.N) (a : Fin 1024) : t.val * 1024 + a.val < 2048 := by
  have := t.isLt; have hN : cfg1.N = 2 := N_1; have := a.isLt; omega

/-- The dense input's block at point `t` is rows `1024 t … 1024 t + 1023` of the input array. -/
theorem blk0 (c : Dev nD) (t : Fin cfg1.N) (a : Fin 1024) (j : Fin 512) :
    (iblk1 V c 0 t : Vec Ideal S1024x512 .f32) (ix2 a j) = (V c main_v30 : (Spec.Mat 2048 512).Idx → EReal) (ix2 ⟨t.val * 1024 + a.val, row_lt t a⟩ j) := by
  obtain ⟨e0, e1, -⟩ := idx_facts t
  unfold iblk1
  rw [View.read_apply]
  show V c main_v30 _ = V c main_v30 _
  congr 1
  funext d
  apply Fin.ext
  match d with
  | ⟨0, _⟩ => show win1_0.index t (0 : Fin 2) * 1024 + 1 * a.val = t.val * 1024 + a.val; rw [e0]; omega
  | ⟨1, _⟩ => show win1_0.index t (1 : Fin 2) * 512 + 1 * j.val = j.val; rw [e1]; omega

/-- Parameter window 1's block is its whole array at every point. -/
theorem blk1 (c : Dev nD) (t : Fin cfg1.N) (x : S512x256.Idx) :
    (iblk1 V c 1 t : Vec Ideal S512x256 .bf16) x = (V c main_v31 : (Spec.Mat 512 256).Idx → EReal) x := by
  obtain ⟨-, -, e0, e1, -⟩ := idx_facts t
  unfold iblk1
  rw [View.read_apply]
  show V c main_v31 _ = V c main_v31 _
  congr 1
  funext d
  apply Fin.ext
  match d with
  | ⟨0, _⟩ => show win1_1.index t (0 : Fin 2) * 512 + 1 * (x 0).val = (x 0).val; rw [e0]; omega
  | ⟨1, _⟩ => show win1_1.index t (1 : Fin 2) * 256 + 1 * (x 1).val = (x 1).val; rw [e1]; omega

/-- Parameter window 2's block is its whole array at every point. -/
theorem blk2 (c : Dev nD) (t : Fin cfg1.N) (x : S1x256.Idx) :
    (iblk1 V c 2 t : Vec Ideal S1x256 .f32) x = (V c main_v32 : (Spec.Mat 1 256).Idx → EReal) x := by
  obtain ⟨-, -, -, -, e0, e1, -⟩ := idx_facts t
  unfold iblk1
  rw [View.read_apply]
  show V c main_v32 _ = V c main_v32 _
  congr 1
  funext d
  apply Fin.ext
  match d with
  | ⟨0, _⟩ => show win1_2.index t (0 : Fin 2) * 1 + 1 * (x 0).val = (x 0).val; rw [e0]; omega
  | ⟨1, _⟩ => show win1_2.index t (1 : Fin 2) * 256 + 1 * (x 1).val = (x 1).val; rw [e1]; omega

/-- Parameter window 3's block is its whole array at every point. -/
theorem blk3 (c : Dev nD) (t : Fin cfg1.N) (x : S256x5.Idx) :
    (iblk1 V c 3 t : Vec Ideal S256x5 .bf16) x = (V c main_v33 : (Spec.Mat 256 5).Idx → EReal) x := by
  obtain ⟨-, -, -, -, -, -, e0, e1, -⟩ := idx_facts t
  unfold iblk1
  rw [View.read_apply]
  show V c main_v33 _ = V c main_v33 _
  congr 1
  funext d
  apply Fin.ext
  match d with
  | ⟨0, _⟩ => show win1_3.index t (0 : Fin 2) * 256 + 1 * (x 0).val = (x 0).val; rw [e0]; omega
  | ⟨1, _⟩ => show win1_3.index t (1 : Fin 2) * 5 + 1 * (x 1).val = (x 1).val; rw [e1]; omega

/-- Parameter window 4's block is its whole array at every point. -/
theorem blk4 (c : Dev nD) (t : Fin cfg1.N) (x : S1x5.Idx) :
    (iblk1 V c 4 t : Vec Ideal S1x5 .f32) x = (V c main_v34 : (Spec.Mat 1 5).Idx → EReal) x := by
  obtain ⟨-, -, -, -, -, -, -, -, e0, e1, -⟩ := idx_facts t
  unfold iblk1
  rw [View.read_apply]
  show V c main_v34 _ = V c main_v34 _
  congr 1
  funext d
  apply Fin.ext
  match d with
  | ⟨0, _⟩ => show win1_4.index t (0 : Fin 2) * 1 + 1 * (x 0).val = (x 0).val; rw [e0]; omega
  | ⟨1, _⟩ => show win1_4.index t (1 : Fin 2) * 5 + 1 * (x 1).val = (x 1).val; rw [e1]; omega

/-- Parameter window 5's block is its whole array at every point. -/
theorem blk5 (c : Dev nD) (t : Fin cfg1.N) (x : S256x64.Idx) :
    (iblk1 V c 5 t : Vec Ideal S256x64 .bf16) x = (V c main_v35 : (Spec.Mat 256 64).Idx → EReal) x := by
  obtain ⟨-, -, -, -, -, -, -, -, -, -, e0, e1, -⟩ := idx_facts t
  unfold iblk1
  rw [View.read_apply]
  show V c main_v35 _ = V c main_v35 _
  congr 1
  funext d
  apply Fin.ext
  match d with
  | ⟨0, _⟩ => show win1_5.index t (0 : Fin 2) * 256 + 1 * (x 0).val = (x 0).val; rw [e0]; omega
  | ⟨1, _⟩ => show win1_5.index t (1 : Fin 2) * 64 + 1 * (x 1).val = (x 1).val; rw [e1]; omega

/-- Parameter window 6's block is its whole array at every point. -/
theorem blk6 (c : Dev nD) (t : Fin cfg1.N) (x : S1x64.Idx) :
    (iblk1 V c 6 t : Vec Ideal S1x64 .f32) x = (V c main_v36 : (Spec.Mat 1 64).Idx → EReal) x := by
  obtain ⟨-, -, -, -, -, -, -, -, -, -, -, -, e0, e1, -⟩ := idx_facts t
  unfold iblk1
  rw [View.read_apply]
  show V c main_v36 _ = V c main_v36 _
  congr 1
  funext d
  apply Fin.ext
  match d with
  | ⟨0, _⟩ => show win1_6.index t (0 : Fin 2) * 1 + 1 * (x 0).val = (x 0).val; rw [e0]; omega
  | ⟨1, _⟩ => show win1_6.index t (1 : Fin 2) * 64 + 1 * (x 1).val = (x 1).val; rw [e1]; omega

/-! ## Output window 7: the first head -/

/-- What the first head's array ends holding: the head of the hidden layer of the dense input, from the arrays as the
    region finds them. -/
def G7 (c : Dev nD) : (Spec.Mat 2048 5).Idx → EReal :=
  Spec.arr (Spec.head (Spec.hid (Spec.fn2 (V c main_v30 : (Spec.Mat 2048 512).Idx → EReal)) (Spec.fn2 (V c main_v31 : (Spec.Mat 512 256).Idx → EReal)) (Spec.row1 (V c main_v32 : (Spec.Mat 1 256).Idx → EReal)))
    (Spec.fn2 (V c main_v33 : (Spec.Mat 256 5).Idx → EReal)) (Spec.row1 (V c main_v34 : (Spec.Mat 1 5).Idx → EReal)))

/-- Element `(a, b)` of point `t`'s block of the output sits at row `1024 t + a`, column `b` of the array. -/
theorem emb7 (t : Fin cfg1.N) (a : Fin 1024) (b : Fin 5) :
    (((cfg1.win 7).blk t).view.emb (ix2 a b) : (Spec.Mat 2048 5).Idx) = ix2 ⟨t.val * 1024 + a.val, row_lt t a⟩ b := by
  obtain ⟨-, -, -, -, -, -, -, -, -, -, -, -, -, -, e0, e1, -⟩ := idx_facts t
  funext d
  apply Fin.ext
  match d with
  | ⟨0, _⟩ => show win1_7.index t (0 : Fin 2) * 1024 + 1 * a.val = t.val * 1024 + a.val; rw [e0]; omega
  | ⟨1, _⟩ => show win1_7.index t (1 : Fin 2) * 5 + 1 * b.val = b.val; rw [e1]; omega

/-- What point `t` writes back is block `t` of `G7`: the body's one store leaves its payload, whose element `(a, b)` is
    the head's sum over the hidden units of the rectified hidden sum of row `a` of the input block, and row `a` of the
    input block is row `1024 t + a` of the input array, where the output block's element sits. -/
theorem flushed7_eq (c : Dev nD) (t : Fin cfg1.N) :
    (dat1 V c).flushed 7 t = ((cfg1.win 7).blk t).view.read (Elt Ideal) (G7 V c) := by
  show (cfg1.win 7).cut (grid1.coords t) ((dat1 V c).after 7 t) = _
  rw [after1_7]
  unfold out1_7
  rw [View.canon_unit_zero hz]
  simp only [View.ld_unit_zero (S := S1024x512) hz, View.ld_unit_zero (S := S512x256) hz, View.ld_unit_zero (S := S1x256) hz, View.ld_unit_zero (S := S256x5) hz, View.ld_unit_zero (S := S1x5) hz]
  funext j
  obtain ⟨a, b, rfl⟩ : ∃ (a : Fin 1024) (b : Fin 5), j = ix2 a b := ⟨j 0, j 1, eq_ix2 j⟩
  show k1_pay2 (F := Ideal) (iblk1 V c 0 t) (iblk1 V c 1 t) (iblk1 V c 2 t) (iblk1 V c 3 t) (iblk1 V c 4 t) (ix2 a b) = G7 V c (((cfg1.win 7).blk t).view.emb (ix2 a b))
  rw [Pay.k1_pay2_apply, emb7]
  simp only [blk0, blk1, blk2, blk3, blk4]
  rfl

/-- An index of the array is in point `t`'s block iff each coordinate is in the block's range on its axis. -/
theorem mem_blk7 (t : Fin cfg1.N) (i : S2048x5.Idx) :
    i ∈ ((cfg1.win 7).blk t).view.set ↔ ∀ a : Fin 2, win1_7.index t a * S1024x5.size a ≤ (i a).val ∧ (i a).val < win1_7.index t a * S1024x5.size a + S1024x5.size a := by
  show i ∈ ((View.whole main_v37_0).slice (win1_7.rect t)).set ↔ _
  rw [View.set_slice_whole, Rect.mem_set_unit]
  exact Iff.rfl

/-- Every index of the array is in some point's block: row `r` is in the block of point `r / 1024`. -/
theorem cover7 (i : S2048x5.Idx) : ∃ t : Fin cfg1.N, (cfg1.win 7).flush t = true ∧ i ∈ ((cfg1.win 7).blk t).view.set := by
  have hi0 : (i 0).val < 2048 := (i 0).isLt
  have hi1 : (i 1).val < 5 := (i 1).isLt
  have hN : cfg1.N = 2 := N_1
  refine ⟨⟨(i 0).val / 1024, by omega⟩, flush1_7 _, ?_⟩
  obtain ⟨-, -, -, -, -, -, -, -, -, -, -, -, -, -, e0, e1, -⟩ := idx_facts ⟨(i 0).val / 1024, by omega⟩
  rw [mem_blk7]
  intro a
  match a with
  | ⟨0, _⟩ => show win1_7.index _ (0 : Fin 2) * 1024 ≤ (i 0).val ∧ (i 0).val < win1_7.index _ (0 : Fin 2) * 1024 + 1024; rw [e0]; show (i 0).val / 1024 * 1024 ≤ (i 0).val ∧ (i 0).val < (i 0).val / 1024 * 1024 + 1024; omega
  | ⟨1, _⟩ => show win1_7.index _ (1 : Fin 2) * 5 ≤ (i 1).val ∧ (i 1).val < win1_7.index _ (1 : Fin 2) * 5 + 5; rw [e1]; omega

/-- THE ARRAY after the region: the first head of the dense branch, at every index. -/
theorem value1_7 (c : Dev nD) : (dat1 (F := Ideal) V c).arrAt 7 cfg1.N =
    Spec.arr (Spec.head (Spec.hid (Spec.fn2 (V c main_v30 : (Spec.Mat 2048 512).Idx → EReal)) (Spec.fn2 (V c main_v31 : (Spec.Mat 512 256).Idx → EReal)) (Spec.row1 (V c main_v32 : (Spec.Mat 1 256).Idx → EReal)))
    (Spec.fn2 (V c main_v33 : (Spec.Mat 256 5).Idx → EReal)) (Spec.row1 (V c main_v34 : (Spec.Mat 1 5).Idx → EReal))) :=
  (dat1 V c).arrAt_eq_of_cover 7 (G7 V c) (fun t _ => flushed7_eq V c t) (cover7)

/-! ## Output window 8: the second head -/

/-- What the second head's array ends holding: the head of the hidden layer of the dense input, from the arrays as the
    region finds them. -/
def G8 (c : Dev nD) : (Spec.Mat 2048 64).Idx → EReal :=
  Spec.arr (Spec.head (Spec.hid (Spec.fn2 (V c main_v30 : (Spec.Mat 2048 512).Idx → EReal)) (Spec.fn2 (V c main_v31 : (Spec.Mat 512 256).Idx → EReal)) (Spec.row1 (V c main_v32 : (Spec.Mat 1 256).Idx → EReal)))
    (Spec.fn2 (V c main_v35 : (Spec.Mat 256 64).Idx → EReal)) (Spec.row1 (V c main_v36 : (Spec.Mat 1 64).Idx → EReal)))

/-- Element `(a, b)` of point `t`'s block of the output sits at row `1024 t + a`, column `b` of the array. -/
theorem emb8 (t : Fin cfg1.N) (a : Fin 1024) (b : Fin 64) :
    (((cfg1.win 8).blk t).view.emb (ix2 a b) : (Spec.Mat 2048 64).Idx) = ix2 ⟨t.val * 1024 + a.val, row_lt t a⟩ b := by
  obtain ⟨-, -, -, -, -, -, -, -, -, -, -, -, -, -, -, -, e0, e1⟩ := idx_facts t
  funext d
  apply Fin.ext
  match d with
  | ⟨0, _⟩ => show win1_8.index t (0 : Fin 2) * 1024 + 1 * a.val = t.val * 1024 + a.val; rw [e0]; omega
  | ⟨1, _⟩ => show win1_8.index t (1 : Fin 2) * 64 + 1 * b.val = b.val; rw [e1]; omega

/-- What point `t` writes back is block `t` of `G8`: the body's one store leaves its payload, whose element `(a, b)` is
    the head's sum over the hidden units of the rectified hidden sum of row `a` of the input block, and row `a` of the
    input block is row `1024 t + a` of the input array, where the output block's element sits. -/
theorem flushed8_eq (c : Dev nD) (t : Fin cfg1.N) :
    (dat1 V c).flushed 8 t = ((cfg1.win 8).blk t).view.read (Elt Ideal) (G8 V c) := by
  show (cfg1.win 8).cut (grid1.coords t) ((dat1 V c).after 8 t) = _
  rw [after1_8]
  unfold out1_8
  rw [View.canon_unit_zero hz]
  simp only [View.ld_unit_zero (S := S1024x512) hz, View.ld_unit_zero (S := S512x256) hz, View.ld_unit_zero (S := S1x256) hz, View.ld_unit_zero (S := S256x64) hz, View.ld_unit_zero (S := S1x64) hz]
  funext j
  obtain ⟨a, b, rfl⟩ : ∃ (a : Fin 1024) (b : Fin 64), j = ix2 a b := ⟨j 0, j 1, eq_ix2 j⟩
  show k1_pay3 (F := Ideal) (iblk1 V c 0 t) (iblk1 V c 1 t) (iblk1 V c 2 t) (iblk1 V c 5 t) (iblk1 V c 6 t) (ix2 a b) = G8 V c (((cfg1.win 8).blk t).view.emb (ix2 a b))
  rw [Pay.k1_pay3_apply, emb8]
  simp only [blk0, blk1, blk2, blk5, blk6]
  rfl

/-- An index of the array is in point `t`'s block iff each coordinate is in the block's range on its axis. -/
theorem mem_blk8 (t : Fin cfg1.N) (i : S2048x64.Idx) :
    i ∈ ((cfg1.win 8).blk t).view.set ↔ ∀ a : Fin 2, win1_8.index t a * S1024x64.size a ≤ (i a).val ∧ (i a).val < win1_8.index t a * S1024x64.size a + S1024x64.size a := by
  show i ∈ ((View.whole main_v37_1).slice (win1_8.rect t)).set ↔ _
  rw [View.set_slice_whole, Rect.mem_set_unit]
  exact Iff.rfl

/-- Every index of the array is in some point's block: row `r` is in the block of point `r / 1024`. -/
theorem cover8 (i : S2048x64.Idx) : ∃ t : Fin cfg1.N, (cfg1.win 8).flush t = true ∧ i ∈ ((cfg1.win 8).blk t).view.set := by
  have hi0 : (i 0).val < 2048 := (i 0).isLt
  have hi1 : (i 1).val < 64 := (i 1).isLt
  have hN : cfg1.N = 2 := N_1
  refine ⟨⟨(i 0).val / 1024, by omega⟩, flush1_8 _, ?_⟩
  obtain ⟨-, -, -, -, -, -, -, -, -, -, -, -, -, -, -, -, e0, e1⟩ := idx_facts ⟨(i 0).val / 1024, by omega⟩
  rw [mem_blk8]
  intro a
  match a with
  | ⟨0, _⟩ => show win1_8.index _ (0 : Fin 2) * 1024 ≤ (i 0).val ∧ (i 0).val < win1_8.index _ (0 : Fin 2) * 1024 + 1024; rw [e0]; show (i 0).val / 1024 * 1024 ≤ (i 0).val ∧ (i 0).val < (i 0).val / 1024 * 1024 + 1024; omega
  | ⟨1, _⟩ => show win1_8.index _ (1 : Fin 2) * 64 ≤ (i 1).val ∧ (i 1).val < win1_8.index _ (1 : Fin 2) * 64 + 64; rw [e1]; omega

/-- THE ARRAY after the region: the second head of the dense branch, at every index. -/
theorem value1_8 (c : Dev nD) : (dat1 (F := Ideal) V c).arrAt 8 cfg1.N =
    Spec.arr (Spec.head (Spec.hid (Spec.fn2 (V c main_v30 : (Spec.Mat 2048 512).Idx → EReal)) (Spec.fn2 (V c main_v31 : (Spec.Mat 512 256).Idx → EReal)) (Spec.row1 (V c main_v32 : (Spec.Mat 1 256).Idx → EReal)))
    (Spec.fn2 (V c main_v35 : (Spec.Mat 256 64).Idx → EReal)) (Spec.row1 (V c main_v36 : (Spec.Mat 1 64).Idx → EReal))) :=
  (dat1 V c).arrAt_eq_of_cover 8 (G8 V c) (fun t _ => flushed8_eq V c t) (cover8)

end Cert.KernelIdeal.BeoValue

end
-- ==== Proof.KernelHost.lean ====
/-
  What the first program's host operations leave in the arrays its two kernel regions read, in terms of the argument
  arrays, at the ideal instance (a float an extended real, a change of format the identity).

  Before the first region three stretches of host operations run: one builds the multi-hot operand (a zero matrix of
  102400 columns with ones scattered at the (row, id) pairs), one pads the bag-of-words weight matrix from 100000 to
  102400 rows with zero rows, one narrows the weights (the identity here) and turns each bias vector [n] into a row
  [1, n]. Before the second region one stretch computes (x − 0) / 1, which is x, narrows the weights and turns the
  bias vectors into rows. Every statement is over an arbitrary valuation of the buffers before the stretches, so it
  applies at the launch contents and at the contents the first region leaves.
-/
import proofs.«165028_j4097398800503_1_alg».proof.Proof.Gen.KernelIdeal.Launch
import proofs.«165028_j4097398800503_1_alg».proof.Proof.Spec
import Idealize.ShloMosaic.Lib.StableHlo.Run
import Idealize.ShloMosaic.Lib.ValueLayout
import Idealize.ShloMosaic.Lib.IdealHost
import Idealize.ShloMosaic.Lib.KernelVsHost

noncomputable section

namespace Cert.KernelIdeal.HostRead

open Idealize.ShloMosaic Idealize.ShloMosaic.ValueIdx Idealize.ShloMosaic.StableHlo
open Cert.KernelIdeal Cert.KernelIdeal.Gen

variable (Wp : Valuation τ sig (Elt Ideal))

/-- The buffers after the three stretches of host operations that precede the first region, from contents `W`. -/
local notation "A0[" W "]" =>
  StableHlo.after (hostOps0_2 (F := Ideal)) (StableHlo.after (hostOps0_1 (F := Ideal)) (StableHlo.after (hostOps0 (F := Ideal)) W))

/-- The buffers after the stretch of host operations that precedes the second region, from contents `W`. -/
local notation "A1[" W "]" => StableHlo.after (hostOps1 (F := Ideal)) W

/-! ## Before the first region -/

/-- The first region's multi-hot operand as the host operations build it: the zero matrix with ones scattered at
    the (row, id) pairs, rows and ids normalised (a negative one has the extent added). -/
def scatterTerm (s : (⟨S2048x50, .i32⟩ : BufTy).Contents (Elt Ideal)) : (⟨S2048x102400, .bf16⟩ : BufTy).Contents (Elt Ideal) :=
  Host.scatter scatter_S2048x102400_S2048x50x2_S2048x50_n_01_01_2 (fun _ b => b)
    (broadcastInDim S2048x102400 ![] bcast_S_S2048x102400 (constant (F := Ideal) S_ .bf16 0x0000#16))
    (concatenate S2048x50x2 2
      [⟨S2048x50x1, broadcastInDim S2048x50x1 ![0, 1] bcast_S2048x50_S2048x50x1_0_1
          (broadcastInDim S2048x50 ![0, 1] bcast_S2048x1_S2048x50_0_1
            (select
              (cmpi .slt (broadcastInDim S2048x1 ![0] bcast_S2048_S2048x1_0 (iotaInDim S2048 32 0))
                (broadcastInDim S2048x1 ![] bcast_S_S2048x1 (constantI S_ 32 0#32)))
              (addi (broadcastInDim S2048x1 ![0] bcast_S2048_S2048x1_0 (iotaInDim S2048 32 0))
                (broadcastInDim S2048x1 ![] bcast_S_S2048x1 (constantI S_ 32 2048#32)))
              (broadcastInDim S2048x1 ![0] bcast_S2048_S2048x1_0 (iotaInDim S2048 32 0))))⟩,
       ⟨S2048x50x1, broadcastInDim S2048x50x1 ![0, 1] bcast_S2048x50_S2048x50x1_0_1
          (select
            (cmpi .slt s (broadcastInDim S2048x50 ![] bcast_S_S2048x50 (constantI S_ 32 0#32)))
            (addi s (broadcastInDim S2048x50 ![] bcast_S_S2048x50 (constantI S_ 32 102400#32)))
            s)⟩]
      concatenates_S2048x50x1_S2048x50x1_S2048x50x2_d2)
    (broadcastInDim S2048x50 ![] bcast_S_S2048x50 (constant (F := Ideal) S_ .bf16 0x3F80#16))

/-- The multi-hot operand `main_v18` is the scatter of ones into the zero matrix at the normalised (row, id) pairs
    of the ids `main_arg0`. -/
theorem v18_eq : (A0[Wp] (Proc.devRef .tc main_v18) : S2048x102400.Idx → EReal)
    = scatterTerm (Wp (Proc.devRef .tc main_arg0) : S2048x50.Idx → BitVec 32) := by
  dsimp only [hostOps0_2, hostOps0_1, hostOps0]
  after_results_simp
  rfl

/-- The padded, narrowed weights `main_v20` read, at row k, the argument `main_arg2` at row k below 100000 and
    zero from there on: the padding value is the integer 0 made a float. -/
theorem v20_apply (k : Fin 102400) (c' : Fin 256) :
    (A0[Wp] (Proc.devRef .tc main_v20) : (Spec.Mat 102400 256).Idx → EReal) (ix2 k c')
      = if h : k.val < 100000 then (Wp (Proc.devRef .tc main_arg2) : (Spec.Mat 100000 256).Idx → EReal) (ix2 ⟨k.val, h⟩ c') else (0 : EReal) := by
  have e : (A0[Wp] (Proc.devRef .tc main_v20) : S102400x256.Idx → EReal)
      = truncf .bf16 (pad S102400x256 ![0, 0] ![2400, 0] ![0, 0] (Wp (Proc.devRef .tc main_arg2) : FVec Ideal S100000x256 .f32)
          (sitofp .f32 (constantI S_ 32 0#32) : FVec Ideal S_ .f32) pads_S100000x256_S102400x256_024000_000 h_S_) bitsLt_bf16_f32 := by
    dsimp only [hostOps0_2, hostOps0_1, hostOps0]
    after_results
    rfl
  show (A0[Wp] (Proc.devRef .tc main_v20) : S102400x256.Idx → EReal) (ix2 k c') = _
  rw [e, truncf_apply]
  by_cases h : k.val < 100000
  · rw [dif_pos h]
    exact pad_apply_of_inside _ _ _ _ _ _ _ (ix2 k c') (ix2 ⟨k.val, h⟩ c') (fun a => match a with
      | ⟨0, _⟩ => by show k.val = 0 + k.val * (0 + 1); omega
      | ⟨1, _⟩ => by show c'.val = 0 + c'.val * (0 + 1); omega)
  · rw [dif_neg h]
    rw [pad_apply_of_not_inside _ _ _ _ _ _ _ (ix2 k c') (0 : Fin 2)
      (by show ¬(0 ≤ k.val ∧ (k.val - 0) % (0 + 1) = 0 ∧ (k.val - 0) / (0 + 1) < 100000); omega)]
    rw [sitofp_apply, constantI_apply]
    show (((0#32 : BitVec 32).toInt : ℝ) : EReal) = 0
    norm_num

/-- The bias row `main_v21` reads, at column c, the argument vector `main_arg3` at c. -/
theorem v21_eq : Spec.row1 (A0[Wp] (Proc.devRef .tc main_v21) : (Spec.Mat 1 256).Idx → EReal)
    = Spec.fn1 (Wp (Proc.devRef .tc main_arg3) : (⟨1, ![256]⟩ : Shape).Idx → EReal) := by
  have e : (A0[Wp] (Proc.devRef .tc main_v21) : S1x256.Idx → EReal)
      = shapeCast S1x256 (Wp (Proc.devRef .tc main_arg3) : S256.Idx → EReal) shapeCasts_S256_S1x256 := by
    dsimp only [hostOps0_2, hostOps0_1, hostOps0]
    after_results
    rfl
  funext c'
  show (A0[Wp] (Proc.devRef .tc main_v21) : S1x256.Idx → EReal) (ix2 (0 : Fin 1) c') = _
  rw [e, shapeCast_a_1a_apply]
  rfl

/-- The narrowed weights `main_v22` are the argument `main_arg4`: a change of format is the identity. -/
theorem v22_eq : (A0[Wp] (Proc.devRef .tc main_v22) : S256x5.Idx → EReal) = (Wp (Proc.devRef .tc main_arg4) : S256x5.Idx → EReal) := by
  dsimp only [hostOps0_2, hostOps0_1, hostOps0]
  after_results
  rfl

/-- The bias row `main_v23` reads, at column c, the argument vector `main_arg5` at c. -/
theorem v23_eq : Spec.row1 (A0[Wp] (Proc.devRef .tc main_v23) : (Spec.Mat 1 5).Idx → EReal)
    = Spec.fn1 (Wp (Proc.devRef .tc main_arg5) : (⟨1, ![5]⟩ : Shape).Idx → EReal) := by
  have e : (A0[Wp] (Proc.devRef .tc main_v23) : S1x5.Idx → EReal)
      = shapeCast S1x5 (Wp (Proc.devRef .tc main_arg5) : S5.Idx → EReal) shapeCasts_S5_S1x5 := by
    dsimp only [hostOps0_2, hostOps0_1, hostOps0]
    after_results
    rfl
  funext c'
  show (A0[Wp] (Proc.devRef .tc main_v23) : S1x5.Idx → EReal) (ix2 (0 : Fin 1) c') = _
  rw [e, shapeCast_a_1a_apply]
  rfl

/-- The narrowed weights `main_v24` are the argument `main_arg6`: a change of format is the identity. -/
theorem v24_eq : (A0[Wp] (Proc.devRef .tc main_v24) : S256x64.Idx → EReal) = (Wp (Proc.devRef .tc main_arg6) : S256x64.Idx → EReal) := by
  dsimp only [hostOps0_2, hostOps0_1, hostOps0]
  after_results
  rfl

/-- The bias row `main_v25` reads, at column c, the argument vector `main_arg7` at c. -/
theorem v25_eq : Spec.row1 (A0[Wp] (Proc.devRef .tc main_v25) : (Spec.Mat 1 64).Idx → EReal)
    = Spec.fn1 (Wp (Proc.devRef .tc main_arg7) : (⟨1, ![64]⟩ : Shape).Idx → EReal) := by
  have e : (A0[Wp] (Proc.devRef .tc main_v25) : S1x64.Idx → EReal)
      = shapeCast S1x64 (Wp (Proc.devRef .tc main_arg7) : S64.Idx → EReal) shapeCasts_S64_S1x64 := by
    dsimp only [hostOps0_2, hostOps0_1, hostOps0]
    after_results
    rfl
  funext c'
  show (A0[Wp] (Proc.devRef .tc main_v25) : S1x64.Idx → EReal) (ix2 (0 : Fin 1) c') = _
  rw [e, shapeCast_a_1a_apply]
  rfl

/-! ## Before the second region -/

/-- The dense input `main_v30` is the argument `main_arg1`: (x − 0) / 1 = x on the extended reals. -/
theorem v30_eq : (A1[Wp] (Proc.devRef .tc main_v30) : S2048x512.Idx → EReal) = (Wp (Proc.devRef .tc main_arg1) : S2048x512.Idx → EReal) := by
  have e : (A1[Wp] (Proc.devRef .tc main_v30) : S2048x512.Idx → EReal)
      = Host.divf (F := Ideal) (subf (Wp (Proc.devRef .tc main_arg1) : FVec Ideal S2048x512 .f32)
          (broadcastInDim S2048x512 ![] bcast_S_S2048x512 (constant (F := Ideal) S_ .f32 0x00000000#32)))
          (broadcastInDim S2048x512 ![] bcast_S_S2048x512 (constant (F := Ideal) S_ .f32 0x3F800000#32)) := by
    dsimp only [hostOps1]
    after_results
  rw [e]
  funext i
  rw [hostDivf_apply, subf_apply, broadcastInDim_scalar_apply, broadcastInDim_scalar_apply, constant_apply, constant_apply,
    Ideal.ofBits_zero_f32, Ideal.ofBits_one_f32, sub_zero, ← EReal.coe_one, Ideal.div_coe one_ne_zero, one_div_one, EReal.coe_one, mul_one]

/-- The narrowed weights `main_v31` are the argument `main_arg8`: a change of format is the identity. -/
theorem v31_eq : (A1[Wp] (Proc.devRef .tc main_v31) : S512x256.Idx → EReal) = (Wp (Proc.devRef .tc main_arg8) : S512x256.Idx → EReal) := by
  dsimp only [hostOps1]
  after_results
  rfl

/-- The bias row `main_v32` reads, at column c, the argument vector `main_arg9` at c. -/
theorem v32_eq : Spec.row1 (A1[Wp] (Proc.devRef .tc main_v32) : (Spec.Mat 1 256).Idx → EReal)
    = Spec.fn1 (Wp (Proc.devRef .tc main_arg9) : (⟨1, ![256]⟩ : Shape).Idx → EReal) := by
  have e : (A1[Wp] (Proc.devRef .tc main_v32) : S1x256.Idx → EReal)
      = shapeCast S1x256 (Wp (Proc.devRef .tc main_arg9) : S256.Idx → EReal) shapeCasts_S256_S1x256 := by
    dsimp only [hostOps1]
    after_results
    rfl
  funext c'
  show (A1[Wp] (Proc.devRef .tc main_v32) : S1x256.Idx → EReal) (ix2 (0 : Fin 1) c') = _
  rw [e, shapeCast_a_1a_apply]
  rfl

/-- The narrowed weights `main_v33` are the argument `main_arg10`: a change of format is the identity. -/
theorem v33_eq : (A1[Wp] (Proc.devRef .tc main_v33) : S256x5.Idx → EReal) = (Wp (Proc.devRef .tc main_arg10) : S256x5.Idx → EReal) := by
  dsimp only [hostOps1]
  after_results
  rfl

/-- The bias row `main_v34` reads, at column c, the argument vector `main_arg11` at c. -/
theorem v34_eq : Spec.row1 (A1[Wp] (Proc.devRef .tc main_v34) : (Spec.Mat 1 5).Idx → EReal)
    = Spec.fn1 (Wp (Proc.devRef .tc main_arg11) : (⟨1, ![5]⟩ : Shape).Idx → EReal) := by
  have e : (A1[Wp] (Proc.devRef .tc main_v34) : S1x5.Idx → EReal)
      = shapeCast S1x5 (Wp (Proc.devRef .tc main_arg11) : S5.Idx → EReal) shapeCasts_S5_S1x5 := by
    dsimp only [hostOps1]
    after_results
    rfl
  funext c'
  show (A1[Wp] (Proc.devRef .tc main_v34) : S1x5.Idx → EReal) (ix2 (0 : Fin 1) c') = _
  rw [e, shapeCast_a_1a_apply]
  rfl

/-- The narrowed weights `main_v35` are the argument `main_arg12`: a change of format is the identity. -/
theorem v35_eq : (A1[Wp] (Proc.devRef .tc main_v35) : S256x64.Idx → EReal) = (Wp (Proc.devRef .tc main_arg12) : S256x64.Idx → EReal) := by
  dsimp only [hostOps1]
  after_results
  rfl

/-- The bias row `main_v36` reads, at column c, the argument vector `main_arg13` at c. -/
theorem v36_eq : Spec.row1 (A1[Wp] (Proc.devRef .tc main_v36) : (Spec.Mat 1 64).Idx → EReal)
    = Spec.fn1 (Wp (Proc.devRef .tc main_arg13) : (⟨1, ![64]⟩ : Shape).Idx → EReal) := by
  have e : (A1[Wp] (Proc.devRef .tc main_v36) : S1x64.Idx → EReal)
      = shapeCast S1x64 (Wp (Proc.devRef .tc main_arg13) : S64.Idx → EReal) shapeCasts_S64_S1x64 := by
    dsimp only [hostOps1]
    after_results
    rfl
  funext c'
  show (A1[Wp] (Proc.devRef .tc main_v36) : S1x64.Idx → EReal) (ix2 (0 : Fin 1) c') = _
  rw [e, shapeCast_a_1a_apply]
  rfl

end Cert.KernelIdeal.HostRead
end
-- ==== Proof.RefTerms.lean ====
/-
  The reference program's four results as pure terms of its argument arrays.

  The reference is a straight line of array operations: the dense input is shifted by zero and divided by one; the ids
  are turned into pairs (row, id) — each index first wrapped if negative — and a matrix of zeros receives a one at every
  pair, which makes the multi-hot matrix; each branch is a matrix product plus a bias row, the leaky rectifier (select z
  where z ≥ 0, else slope · z), and two heads, each a matrix product plus a bias row. The terms are built from named
  intermediates so that each can be opened on its own.
-/
import proofs.«165028_j4097398800503_1_alg».proof.ReferenceIdeal
import proofs.«165028_j4097398800503_1_alg».proof.Proof.Gen.ReferenceIdeal
import Idealize.ShloMosaic.PureOps.Ideal

noncomputable section

namespace Cert.ReferenceIdeal.Hand

open Cert.ReferenceIdeal Cert.ReferenceIdeal.Gen Idealize.ShloMosaic Idealize.SL.Sem

/-! ## The results as terms of the arguments -/

/-- The dense input as the program normalizes it: (x − 0) / 1. -/
def xn (x : FVec Ideal S2048x512 .f32) : FVec Ideal S2048x512 .f32 :=
  Host.divf (F := Ideal)
    (subf x (broadcastInDim S2048x512 ![] bcast_S_S2048x512 (constant (F := Ideal) S_ .f32 0x00000000#32)))
    (broadcastInDim S2048x512 ![] bcast_S_S2048x512 (constant (F := Ideal) S_ .f32 0x3F800000#32))

/-- The row number of each row, as a column: r, or r + 2048 where r is negative as a signed word (never, for a row number). -/
def rowIx : IVec S2048x1 32 :=
  select
    (cmpi .slt (broadcastInDim S2048x1 ![0] bcast_S2048_S2048x1_0 (iotaInDim S2048 32 0))
      (broadcastInDim S2048x1 ![] bcast_S_S2048x1 (constantI S_ 32 0#32)))
    (addi (broadcastInDim S2048x1 ![0] bcast_S2048_S2048x1_0 (iotaInDim S2048 32 0))
      (broadcastInDim S2048x1 ![] bcast_S_S2048x1 (constantI S_ 32 2048#32)))
    (broadcastInDim S2048x1 ![0] bcast_S2048_S2048x1_0 (iotaInDim S2048 32 0))

/-- The ids as column numbers: s, or s + 100000 where s is negative as a signed word. -/
def colIx (s : IVec S2048x50 32) : IVec S2048x50 32 :=
  select (cmpi .slt s (broadcastInDim S2048x50 ![] bcast_S_S2048x50 (constantI S_ 32 0#32)))
    (addi s (broadcastInDim S2048x50 ![] bcast_S_S2048x50 (constantI S_ 32 100000#32)))
    s

/-- The scatter's index table: at (r, j) the pair (row number of r, column number of the id at (r, j)). -/
def idx (s : IVec S2048x50 32) : IVec S2048x50x2 32 :=
  concatenate S2048x50x2 2
    [⟨S2048x50x1, broadcastInDim S2048x50x1 ![0, 1] bcast_S2048x50_S2048x50x1_0_1
        (broadcastInDim S2048x50 ![0, 1] bcast_S2048x1_S2048x50_0_1 rowIx)⟩,
     ⟨S2048x50x1, broadcastInDim S2048x50x1 ![0, 1] bcast_S2048x50_S2048x50x1_0_1 (colIx s)⟩]
    concatenates_S2048x50x1_S2048x50x1_S2048x50x2_d2

/-- The multi-hot matrix: zeros, with a one written at every pair of the index table. -/
def bowM (s : IVec S2048x50 32) : FVec Ideal S2048x100000 .f32 :=
  Host.scatter scatter_S2048x100000_S2048x50x2_S2048x50_n_01_01_2 (fun _ b => b)
    (broadcastInDim S2048x100000 ![] bcast_S_S2048x100000 (constant (F := Ideal) S_ .f32 0x00000000#32))
    (idx s)
    (broadcastInDim S2048x50 ![] bcast_S_S2048x50 (constant (F := Ideal) S_ .f32 0x3F800000#32))

/-- The leaky rectifier as the program's two helper functions compute it: z where z ≥ 0, else slope · z, the slope the
    scalar word 0x3E4CCCCD passed through the identity conversion and broadcast. -/
def leaky (z : FVec Ideal S2048x256 .f32) : FVec Ideal S2048x256 .f32 :=
  select
    (cmpf .oge z (broadcastInDim S2048x256 ![] bcast_S_S2048x256 (constant (F := Ideal) S_ .f32 0x00000000#32)))
    z
    (mulf (broadcastInDim S2048x256 ![] bcast_S_S2048x256 (id (constant (F := Ideal) S_ .f32 0x3E4CCCCD#32))) z)

/-- A bias vector of length 256 as 2048 equal rows. -/
def bias256 (b : FVec Ideal S256 .f32) : FVec Ideal S2048x256 .f32 :=
  broadcastInDim S2048x256 ![0, 1] bcast_S1x256_S2048x256_0_1 (broadcastInDim S1x256 ![1] bcast_S256_S1x256_1 b)

/-- A bias vector of length 5 as 2048 equal rows. -/
def bias5 (b : FVec Ideal S5 .f32) : FVec Ideal S2048x5 .f32 :=
  broadcastInDim S2048x5 ![0, 1] bcast_S1x5_S2048x5_0_1 (broadcastInDim S1x5 ![1] bcast_S5_S1x5_1 b)

/-- A bias vector of length 64 as 2048 equal rows. -/
def bias64 (b : FVec Ideal S64 .f32) : FVec Ideal S2048x64 .f32 :=
  broadcastInDim S2048x64 ![0, 1] bcast_S1x64_S2048x64_0_1 (broadcastInDim S1x64 ![1] bcast_S64_S1x64_1 b)

/-- The bag-of-words branch's hidden layer: the rectifier of (multi-hot · W₂ + b₃). -/
def hidB (s : IVec S2048x50 32) (W2 : FVec Ideal S100000x256 .f32) (b3 : FVec Ideal S256 .f32) : FVec Ideal S2048x256 .f32 :=
  leaky (addf (Host.dotGeneral (F := Ideal) dot_S2048x100000_S100000x256_S2048x256_1_0_0_1_n_n none (bowM s) W2) (bias256 b3))

/-- The dense branch's hidden layer: the rectifier of (normalized x · W₈ + b₉). -/
def hidE (x : FVec Ideal S2048x512 .f32) (W8 : FVec Ideal S512x256 .f32) (b9 : FVec Ideal S256 .f32) : FVec Ideal S2048x256 .f32 :=
  leaky (addf (Host.dotGeneral (F := Ideal) dot_S2048x512_S512x256_S2048x256_1_0_0_1_n_n none (xn x) W8) (bias256 b9))

/-- A head of width 5: h · W + b. -/
def head5 (h : FVec Ideal S2048x256 .f32) (W : FVec Ideal S256x5 .f32) (b : FVec Ideal S5 .f32) : FVec Ideal S2048x5 .f32 :=
  addf (Host.dotGeneral (F := Ideal) dot_S2048x256_S256x5_S2048x5_1_0_0_1_n_n none h W) (bias5 b)

/-- A head of width 64: h · W + b. -/
def head64 (h : FVec Ideal S2048x256 .f32) (W : FVec Ideal S256x64 .f32) (b : FVec Ideal S64 .f32) : FVec Ideal S2048x64 .f32 :=
  addf (Host.dotGeneral (F := Ideal) dot_S2048x256_S256x64_S2048x64_1_0_0_1_n_n none h W) (bias64 b)

/-- The bag-of-words branch's head of width 5. -/
def res36 (s : IVec S2048x50 32) (W2 : FVec Ideal S100000x256 .f32) (b3 : FVec Ideal S256 .f32)
    (W4 : FVec Ideal S256x5 .f32) (b5 : FVec Ideal S5 .f32) : FVec Ideal S2048x5 .f32 :=
  head5 (hidB s W2 b3) W4 b5

/-- The dense branch's head of width 5. -/
def res40 (x : FVec Ideal S2048x512 .f32) (W8 : FVec Ideal S512x256 .f32) (b9 : FVec Ideal S256 .f32)
    (W10 : FVec Ideal S256x5 .f32) (b11 : FVec Ideal S5 .f32) : FVec Ideal S2048x5 .f32 :=
  head5 (hidE x W8 b9) W10 b11

/-- The bag-of-words branch's head of width 64. -/
def res44 (s : IVec S2048x50 32) (W2 : FVec Ideal S100000x256 .f32) (b3 : FVec Ideal S256 .f32)
    (W6 : FVec Ideal S256x64 .f32) (b7 : FVec Ideal S64 .f32) : FVec Ideal S2048x64 .f32 :=
  head64 (hidB s W2 b3) W6 b7

/-- The dense branch's head of width 64. -/
def res48 (x : FVec Ideal S2048x512 .f32) (W8 : FVec Ideal S512x256 .f32) (b9 : FVec Ideal S256 .f32)
    (W12 : FVec Ideal S256x64 .f32) (b13 : FVec Ideal S64 .f32) : FVec Ideal S2048x64 .f32 :=
  head64 (hidE x W8 b9) W12 b13

end Cert.ReferenceIdeal.Hand

end
-- ==== Proof.LibHostReads.lean ====
/-
  Host-side array operations read at an index, on the extended reals.

  The reads that plain array code needs again and again: a plain matrix product [m,k]·[k,n] at (a, b) is the finite sum
  Σ_c L(a,c)·R(c,b), whatever name the product's dimension record was printed under, as long as it is the plain one; a
  scalar broadcast to any shape reads the scalar; a bias vector [n] broadcast to one row [1,n] and then down m rows reads,
  at (r, c), the bias at c; a vector [m] made a column [m,1] reads, at (r, ·), the vector at r; and a column [m,1]
  repeated along n columns reads, at (r, d), the column at r. Generic in the extents (an extent that must not be the unit
  extent says so) and, for the layout reads, in the element type; the indices are written by coordinates (ix1, ix2), so
  each lemma applies to a printed operation by unification.
-/
import Idealize.ShloMosaic.Lib.StackMember
import Idealize.ShloMosaic.Lib.Pipeline.Value
import Idealize.ShloMosaic.Lib.ValueIdx

noncomputable section

open scoped BigOperators

namespace Cert.LibHostReads

open Idealize.ShloMosaic Idealize.ShloMosaic.ValueIdx

variable {α : Type}

/-- A plain m×k by k×n product read at (a, b): Σ_c L(a,c)·R(c,b). -/
theorem dot_apply {m k n : Nat} (D : DotDims ⟨2, ![m, k]⟩ ⟨2, ![k, n]⟩ ⟨2, ![m, n]⟩) (hD : D = DotDims.plain m k n)
    (L : FVec Ideal ⟨2, ![m, k]⟩ .f32) (R : FVec Ideal ⟨2, ![k, n]⟩ .f32) (a : Fin m) (b : Fin n) :
    Host.dotGeneral D none L R (ix2 a b) = ∑ c : Fin k, L (ix2 a c) * R (ix2 c b) := by
  subst hD
  exact StackMember.dotGeneral_plain_apply none L R a b

/-- A scalar broadcast to any shape reads the scalar everywhere. -/
theorem splat_apply {t : Shape} (h : (⟨0, ![]⟩ : Shape).BroadcastsInDim t ![]) (y : (⟨0, ![]⟩ : Shape).Idx → α) (j : t.Idx) :
    broadcastInDim t ![] h y j = y ix0 :=
  broadcastInDim_apply _ h y j ix0 (fun a => a.elim0)

/-- A vector of length n broadcast to one row and then to m rows reads, at (r, c), the vector at c. -/
theorem rowBias_apply {m n : Nat} (hn : n ≠ 1)
    (h1 : (⟨1, ![n]⟩ : Shape).BroadcastsInDim ⟨2, ![1, n]⟩ ![1])
    (h2 : (⟨2, ![1, n]⟩ : Shape).BroadcastsInDim ⟨2, ![m, n]⟩ ![0, 1])
    (b : (⟨1, ![n]⟩ : Shape).Idx → α) (r : Fin m) (c : Fin n) :
    broadcastInDim ⟨2, ![m, n]⟩ ![0, 1] h2 (broadcastInDim ⟨2, ![1, n]⟩ ![1] h1 b) (ix2 r c) = b (ix1 c) := by
  rw [broadcastInDim_apply _ h2 _ (ix2 r c) (ix2 (0 : Fin 1) c) (fun a => match a with
      | ⟨0, _⟩ => by show 0 = if (1 : Nat) = 1 then 0 else r.val; rw [if_pos rfl]
      | ⟨1, _⟩ => by show c.val = if n = 1 then 0 else c.val; rw [if_neg hn]),
    broadcastInDim_apply _ h1 b (ix2 (0 : Fin 1) c) (ix1 c) (fun a => match a with
      | ⟨0, _⟩ => by show c.val = if n = 1 then 0 else c.val; rw [if_neg hn])]

/-- A vector of length m as a column reads, at (r, z), the vector at r. -/
theorem col_apply {m : Nat} (hm : m ≠ 1) (h1 : (⟨1, ![m]⟩ : Shape).BroadcastsInDim ⟨2, ![m, 1]⟩ ![0])
    (v : (⟨1, ![m]⟩ : Shape).Idx → α) (r : Fin m) (z : Fin 1) :
    broadcastInDim ⟨2, ![m, 1]⟩ ![0] h1 v (ix2 r z) = v (ix1 r) :=
  broadcastInDim_apply _ h1 v (ix2 r z) (ix1 r) (fun a => match a with
    | ⟨0, _⟩ => by show r.val = if m = 1 then 0 else r.val; rw [if_neg hm])

/-- A column broadcast along its rows reads, at (r, d), the column at r. -/
theorem colBcast_apply {m n : Nat} (hm : m ≠ 1) (h2 : (⟨2, ![m, 1]⟩ : Shape).BroadcastsInDim ⟨2, ![m, n]⟩ ![0, 1])
    (Y : (⟨2, ![m, 1]⟩ : Shape).Idx → α) (r : Fin m) (d : Fin n) :
    broadcastInDim ⟨2, ![m, n]⟩ ![0, 1] h2 Y (ix2 r d) = Y (ix2 r (0 : Fin 1)) :=
  broadcastInDim_apply _ h2 Y (ix2 r d) (ix2 r (0 : Fin 1)) (fun a => match a with
    | ⟨0, _⟩ => by show r.val = if m = 1 then 0 else r.val; rw [if_neg hm]
    | ⟨1, _⟩ => by show 0 = if (1 : Nat) = 1 then 0 else d.val; rw [if_pos rfl])

end Cert.LibHostReads

end
-- ==== Proof.LibScatterConst.lean ====
/-
  A scatter that writes one constant into an array of another constant, read at an index.

  Whatever the order in which the update positions are taken, the result reads the written constant at exactly the
  elements that some update position's index vector names (inside the array) and the background constant elsewhere.
  For index pairs (row, column) listed along the last axis of a 2048 × 50 × 2 table into a 2048 × W matrix, position
  (r, j) names the element whose coordinates are the table's two entries read as signed words; when the table's entry
  (r, j) is the pair (r, id at (r, j)) — row numbers and ids each wrapped if negative, which no row number and no id
  below 2³¹ is — the element (r, k) is written exactly when some position j of row r holds the id k.
-/
import proofs.«165028_j4097398800503_1_alg».proof.Proof.LibHostReads
import Idealize.ShloMosaic.PureOps
import Idealize.ShloMosaic.Lib.Pipeline.Value
import Idealize.ShloMosaic.Lib.ValueLayout
import Idealize.ShloMosaic.Lib.ValueIdx
import Idealize.ShloMosaic.Lib.DynamicIndex

noncomputable section

namespace Cert.LibScatterConst

open Idealize.ShloMosaic Idealize.ShloMosaic.ValueIdx

/-! ## A set-scatter of a constant into a constant -/

section General
variable {α : Type} {s si u : Shape} {w : Nat}

/-- One step of a set-scatter of the constant c: the update position n overwrites the element its index vector names. -/
theorem fold_set_const (d : ScatterDims s si u) (c : α) (idx : IVec si w) (i : s.Idx)
    (l : List (Fin u.numel)) (r : s.Idx → α) :
    (l.foldl (fun r n =>
      match d.resultIdx? (u.rowMajor.symm n) idx with
      | some i => fun i' => if i' = i then (fun (_ b : α) => b) (r i) ((fun _ => c) (u.rowMajor.symm n)) else r i'
      | none => r) r) i
      = if ∃ n ∈ l, d.resultIdx? (u.rowMajor.symm n) idx = some i then c else r i := by
  induction l generalizing r with
  | nil => simp
  | cons n l ih =>
    rw [List.foldl_cons, ih]
    by_cases hl : ∃ n' ∈ l, d.resultIdx? (u.rowMajor.symm n') idx = some i
    · rw [if_pos hl, if_pos]
      obtain ⟨n', hn', h⟩ := hl
      exact ⟨n', List.mem_cons_of_mem _ hn', h⟩
    · rw [if_neg hl]
      cases hn : d.resultIdx? (u.rowMajor.symm n) idx with
      | none =>
        have : ¬ ∃ n' ∈ n :: l, d.resultIdx? (u.rowMajor.symm n') idx = some i := by
          rintro ⟨n', hn', h⟩
          rcases List.mem_cons.1 hn' with rfl | hn'
          · rw [hn] at h; cases h
          · exact hl ⟨n', hn', h⟩
        rw [if_neg this]
      | some i₀ =>
        by_cases hi : i = i₀
        · subst hi
          rw [if_pos ⟨n, List.mem_cons_self .., hn⟩]
          simp
        · have : ¬ ∃ n' ∈ n :: l, d.resultIdx? (u.rowMajor.symm n') idx = some i := by
            rintro ⟨n', hn', h⟩
            rcases List.mem_cons.1 hn' with rfl | hn'
            · rw [hn] at h; exact hi (Option.some.inj h).symm
            · exact hl ⟨n', hn', h⟩
          rw [if_neg this]
          simp [hi]

/-- A set-scatter of the constant c into the constant z, read at i: c when some update position's index vector names i
    (inside the operand), else z. -/
theorem scatter_set_const (d : ScatterDims s si u) (z c : α) (idx : IVec si w) (i : s.Idx)
    [Decidable (∃ j : u.Idx, d.resultIdx? j idx = some i)] :
    Host.scatter d (fun _ b => b) (fun _ => z) idx (fun _ => c) i
      = if ∃ j : u.Idx, d.resultIdx? j idx = some i then c else z := by
  unfold Host.scatter
  refine (fold_set_const d c idx i (List.finRange u.numel) (fun _ => z)).trans ?_
  have : (∃ n ∈ List.finRange u.numel, d.resultIdx? (u.rowMajor.symm n) idx = some i)
      ↔ ∃ j : u.Idx, d.resultIdx? j idx = some i := by
    constructor
    · rintro ⟨n, _, h⟩; exact ⟨_, h⟩
    · rintro ⟨j, h⟩; exact ⟨u.rowMajor j, List.mem_finRange _, by rw [Equiv.symm_apply_apply]; exact h⟩
  by_cases h : ∃ j : u.Idx, d.resultIdx? j idx = some i
  · rw [if_pos h, if_pos (this.2 h)]
  · rw [if_neg h, if_neg (fun h' => h (this.1 h'))]
end General

/-! ## The dimension record: index pairs (row, column) into a 2048 × W matrix -/

section Dims
/-- The dimension record of a scatter of scalars into a 2048 × W matrix at index pairs (row, column) listed along the
    last axis of a 2048 × 50 × 2 array: no window axes, both operand axes inserted, component c of the pair goes to
    operand axis c. -/
def dimsW (W : Nat)
    (wf : ScatterDims.WF ⟨2, ![2048, W]⟩ ⟨3, ![2048, 50, 2]⟩ ⟨2, ![2048, 50]⟩ [] [0, 1] [0, 1] 2) :
    ScatterDims ⟨2, ![2048, W]⟩ ⟨3, ![2048, 50, 2]⟩ ⟨2, ![2048, 50]⟩ where
  updateWindowDims := []
  insertedWindowDims := [0, 1]
  scatterDimsToOperandDims := [0, 1]
  indexVectorDim := 2
  wf := wf

variable {W : Nat} (wf : ScatterDims.WF ⟨2, ![2048, W]⟩ ⟨3, ![2048, 50, 2]⟩ ⟨2, ![2048, 50]⟩ [] [0, 1] [0, 1] 2)

theorem window_eq (j : (⟨2, ![2048, 50]⟩ : Shape).Idx) (a : Fin 2) : (dimsW W wf).window j a = 0 := by
  unfold ScatterDims.window
  rw [dif_neg]
  show a ∉ (List.finRange 2).filter (· ∉ ([0, 1] : List (Fin 2)))
  fin_cases a <;> decide

theorem siIdx_eq (j : (⟨2, ![2048, 50]⟩ : Shape).Idx) (c : Fin 2) :
    (dimsW W wf).siIdx j c = ix3 (j 0) (j 1) c := by
  funext b
  match b with
  | ⟨0, _⟩ => exact Fin.ext rfl
  | ⟨1, _⟩ => exact Fin.ext rfl
  | ⟨2, _⟩ => exact Fin.ext rfl

theorem start_eq {w : Nat} (j : (⟨2, ![2048, 50]⟩ : Shape).Idx) (idx : IVec ⟨3, ![2048, 50, 2]⟩ w) (a : Fin 2) :
    (dimsW W wf).start j idx a = (idx (ix3 (j 0) (j 1) a)).toInt := by
  unfold ScatterDims.start
  match a with
  | ⟨0, _⟩ =>
    refine (dif_pos (show (⟨0, _⟩ : Fin 2) ∈ ([0, 1] : List (Fin 2)) from List.mem_cons_self ..)).trans ?_
    exact congrArg (fun t => (idx t).toInt) (siIdx_eq wf j 0)
  | ⟨1, _⟩ =>
    refine (dif_pos (show (⟨1, _⟩ : Fin 2) ∈ ([0, 1] : List (Fin 2)) from List.mem_cons_of_mem _ (List.mem_cons_self ..))).trans ?_
    exact congrArg (fun t => (idx t).toInt) (siIdx_eq wf j 1)

/-- The index vector at update position j names operand element i exactly when its two components, read signed,
    are i's coordinates (which puts them inside the operand). -/
theorem resultIdx_eq_some_iff {w : Nat} (j : (⟨2, ![2048, 50]⟩ : Shape).Idx) (idx : IVec ⟨3, ![2048, 50, 2]⟩ w)
    (i : (⟨2, ![2048, W]⟩ : Shape).Idx) :
    (dimsW W wf).resultIdx? j idx = some i ↔
      (idx (ix3 (j 0) (j 1) (0 : Fin 2))).toInt = ((i 0).val : Int) ∧
      (idx (ix3 (j 0) (j 1) (1 : Fin 2))).toInt = ((i 1).val : Int) := by
  have hsw : ∀ a : Fin 2, (dimsW W wf).start j idx a + ((dimsW W wf).window j a : Int)
      = (idx (ix3 (j 0) (j 1) a)).toInt := by
    intro a; rw [start_eq, window_eq]; simp
  have hi0 : (i 0).val < 2048 := (i 0).isLt
  have hi1 : (i 1).val < W := (i 1).isLt
  unfold ScatterDims.resultIdx?
  split
  · next h =>
    have h0 := (h 0).1
    have h1 := (h 1).1
    rw [hsw 0] at h0
    rw [hsw 1] at h1
    constructor
    · intro e
      have e' := Option.some.inj e
      have e0 : ((dimsW W wf).start j idx 0 + ((dimsW W wf).window j 0 : Int)).toNat = (i 0).val :=
        congrArg (fun f => (f 0).val) e'
      have e1 : ((dimsW W wf).start j idx 1 + ((dimsW W wf).window j 1 : Int)).toNat = (i 1).val :=
        congrArg (fun f => (f 1).val) e'
      rw [hsw 0] at e0
      rw [hsw 1] at e1
      constructor <;> omega
    · rintro ⟨e0, e1⟩
      refine congrArg some (funext ?_)
      refine Fin.forall_fin_two.2 ⟨Fin.ext ?_, Fin.ext ?_⟩
      · show ((dimsW W wf).start j idx 0 + ((dimsW W wf).window j 0 : Int)).toNat = (i 0).val
        rw [hsw 0, e0]; simp
      · show ((dimsW W wf).start j idx 1 + ((dimsW W wf).window j 1 : Int)).toNat = (i 1).val
        rw [hsw 1, e1]; simp
  · next h =>
    constructor
    · intro e; cases e
    · rintro ⟨e0, e1⟩
      exfalso; apply h
      refine Fin.forall_fin_two.2 ⟨?_, ?_⟩
      · show 0 ≤ (dimsW W wf).start j idx 0 + ((dimsW W wf).window j 0 : Int) ∧
          (dimsW W wf).start j idx 0 + ((dimsW W wf).window j 0 : Int) < ((2048 : Nat) : Int)
        rw [hsw 0, e0]; omega
      · show 0 ≤ (dimsW W wf).start j idx 1 + ((dimsW W wf).window j 1 : Int) ∧
          (dimsW W wf).start j idx 1 + ((dimsW W wf).window j 1 : Int) < ((W : Nat) : Int)
        rw [hsw 1, e1]; omega
end Dims

/-! ## The index table -/

/-- Wrapping a negative index: where the word is not negative as a signed number, the wrapped index is the word itself. -/
theorem wrap_nonneg {s : Shape} (i z e : IVec s 32) (j : s.Idx) (hz : z j = 0#32) (h : (i j).msb = false) :
    select (cmpi .slt i z) (addi i e) i j = i j := by
  have hlt : (i j).slt (z j) = false := by
    rw [hz, BitVec.slt_zero_eq_msb]; exact h
  show (if BitVec.ofBool ((i j).slt (z j)) = 1 then _ else _) = _
  rw [hlt]
  rfl

/-- A word below 2³¹ is not negative as a signed number. -/
theorem msb_false_of_lt (x : BitVec 32) (h : x.toNat < 2 ^ 31) : x.msb = false := by
  rw [BitVec.msb_eq_false_iff_two_mul_lt]; omega

/-- Two 2048 × 50 arrays made the two components of an index pair: component 0 reads the first. -/
theorem pair_fst {α : Type} (A B : (⟨2, ![2048, 50]⟩ : Shape).Idx → α)
    (hb : (⟨2, ![2048, 50]⟩ : Shape).BroadcastsInDim ⟨3, ![2048, 50, 1]⟩ ![0, 1])
    (hc : Shape.Concatenates [⟨3, ![2048, 50, 1]⟩, ⟨3, ![2048, 50, 1]⟩] ⟨3, ![2048, 50, 2]⟩ 2)
    (r : Fin 2048) (j : Fin 50) :
    concatenate ⟨3, ![2048, 50, 2]⟩ 2
      [⟨⟨3, ![2048, 50, 1]⟩, broadcastInDim ⟨3, ![2048, 50, 1]⟩ ![0, 1] hb A⟩,
       ⟨⟨3, ![2048, 50, 1]⟩, broadcastInDim ⟨3, ![2048, 50, 1]⟩ ![0, 1] hb B⟩] hc (ix3 r j (0 : Fin 2)) = A (ix2 r j) := by
  rw [concatenate_pair_apply_left (s₁ := ⟨3, ![2048, 50, 1]⟩) (s₂ := ⟨3, ![2048, 50, 1]⟩) (2 : Fin 3) _ _ hc (ix3 r j (0 : Fin 2)) rfl (ix3 r j (0 : Fin 1))
    (fun b => match b with | ⟨0, _⟩ => rfl | ⟨1, _⟩ => rfl | ⟨2, _⟩ => rfl)]
  exact broadcastInDim_apply _ hb A _ (ix2 r j) (fun a => match a with
    | ⟨0, _⟩ => by show r.val = if (2048 : Nat) = 1 then 0 else r.val; rw [if_neg (by decide)]
    | ⟨1, _⟩ => by show j.val = if (50 : Nat) = 1 then 0 else j.val; rw [if_neg (by decide)])

/-- … and component 1 reads the second. -/
theorem pair_snd {α : Type} (A B : (⟨2, ![2048, 50]⟩ : Shape).Idx → α)
    (hb : (⟨2, ![2048, 50]⟩ : Shape).BroadcastsInDim ⟨3, ![2048, 50, 1]⟩ ![0, 1])
    (hc : Shape.Concatenates [⟨3, ![2048, 50, 1]⟩, ⟨3, ![2048, 50, 1]⟩] ⟨3, ![2048, 50, 2]⟩ 2)
    (r : Fin 2048) (j : Fin 50) :
    concatenate ⟨3, ![2048, 50, 2]⟩ 2
      [⟨⟨3, ![2048, 50, 1]⟩, broadcastInDim ⟨3, ![2048, 50, 1]⟩ ![0, 1] hb A⟩,
       ⟨⟨3, ![2048, 50, 1]⟩, broadcastInDim ⟨3, ![2048, 50, 1]⟩ ![0, 1] hb B⟩] hc (ix3 r j (1 : Fin 2)) = B (ix2 r j) := by
  rw [concatenate_pair_apply_right (s₁ := ⟨3, ![2048, 50, 1]⟩) (s₂ := ⟨3, ![2048, 50, 1]⟩) (2 : Fin 3) _ _ hc (ix3 r j (1 : Fin 2)) rfl rfl (ix3 r j (0 : Fin 1))
    (fun b => match b with | ⟨0, _⟩ => fun _ => rfl | ⟨1, _⟩ => fun _ => rfl | ⟨2, _⟩ => fun h => absurd rfl h) rfl]
  exact broadcastInDim_apply _ hb B _ (ix2 r j) (fun a => match a with
    | ⟨0, _⟩ => by show r.val = if (2048 : Nat) = 1 then 0 else r.val; rw [if_neg (by decide)]
    | ⟨1, _⟩ => by show j.val = if (50 : Nat) = 1 then 0 else j.val; rw [if_neg (by decide)])

/-- The row numbers, wrapped where negative (never) and repeated along the 50 positions: at (r, j) the word r. -/
theorem rows_apply
    (h1 : (⟨1, ![2048]⟩ : Shape).BroadcastsInDim ⟨2, ![2048, 1]⟩ ![0])
    (h0 : (⟨0, ![]⟩ : Shape).BroadcastsInDim ⟨2, ![2048, 1]⟩ ![])
    (h2 : (⟨2, ![2048, 1]⟩ : Shape).BroadcastsInDim ⟨2, ![2048, 50]⟩ ![0, 1])
    (e : IVec ⟨2, ![2048, 1]⟩ 32) (r : Fin 2048) (j : Fin 50) :
    broadcastInDim ⟨2, ![2048, 50]⟩ ![0, 1] h2
      (select
        (cmpi .slt (broadcastInDim ⟨2, ![2048, 1]⟩ ![0] h1 (iotaInDim ⟨1, ![2048]⟩ 32 0))
          (broadcastInDim ⟨2, ![2048, 1]⟩ ![] h0 (constantI ⟨0, ![]⟩ 32 0#32)))
        (addi (broadcastInDim ⟨2, ![2048, 1]⟩ ![0] h1 (iotaInDim ⟨1, ![2048]⟩ 32 0)) e)
        (broadcastInDim ⟨2, ![2048, 1]⟩ ![0] h1 (iotaInDim ⟨1, ![2048]⟩ 32 0))) (ix2 r j)
      = BitVec.ofNat 32 r.val := by
  rw [LibHostReads.colBcast_apply (by decide) h2 _ r j]
  have hv : broadcastInDim ⟨2, ![2048, 1]⟩ ![0] h1 (iotaInDim ⟨1, ![2048]⟩ 32 0) (ix2 r (0 : Fin 1)) = BitVec.ofNat 32 r.val :=
    LibHostReads.col_apply (by decide) h1 _ r 0
  rw [wrap_nonneg _ _ _ _ (LibHostReads.splat_apply h0 _ _) (by
    rw [hv]; apply msb_false_of_lt; rw [BitVec.toNat_ofNat]; have := r.isLt; omega)]
  exact hv

/-! ## The matrix at an index -/

/-- Two conditionals on equivalent conditions, whichever way each condition is decided. -/
theorem ite_iff_congr {α : Type} {p q : Prop} {dp : Decidable p} {dq : Decidable q} (hpq : p ↔ q) (a b : α) :
    @ite α p dp a b = @ite α q dq a b := by
  by_cases h : p
  · rw [if_pos h, if_pos (hpq.1 h)]
  · rw [if_neg h, if_neg (fun h' => h (hpq.2 h'))]

/-- A scatter of c into z at a table whose entry (r, j) is the pair (r, id at (r, j)), the ids below 100000 ≤ W: at
    (r, k) it reads c when some position j of row r holds the id k, else z. -/
theorem hot_of_table {α : Type} {W : Nat}
    (wf : ScatterDims.WF ⟨2, ![2048, W]⟩ ⟨3, ![2048, 50, 2]⟩ ⟨2, ![2048, 50]⟩ [] [0, 1] [0, 1] 2)
    (z c : α) (idx : IVec ⟨3, ![2048, 50, 2]⟩ 32)
    (s : (⟨2, ![2048, 50]⟩ : Shape).Idx → BitVec 32) (hs : ∀ i, (s i).toNat < 100000)
    (hrow : ∀ (r : Fin 2048) (j : Fin 50), idx (ix3 r j (0 : Fin 2)) = BitVec.ofNat 32 r.val)
    (hcol : ∀ (r : Fin 2048) (j : Fin 50), idx (ix3 r j (1 : Fin 2)) = s (ix2 r j))
    (r : Fin 2048) (k : Fin W) :
    Host.scatter (dimsW W wf) (fun _ b => b) (fun _ => z) idx (fun _ => c) (ix2 r k)
      = if ∃ j : Fin 50, (s (ix2 r j)).toNat = k.val then c else z := by
  classical
  rw [scatter_set_const]
  refine ite_iff_congr ?_ _ _
  have hcomp : ∀ j' : (⟨2, ![2048, 50]⟩ : Shape).Idx,
      ((dimsW W wf).resultIdx? j' idx = some (ix2 r k)) ↔
        ((j' 0).val = r.val ∧ (s (ix2 (j' 0) (j' 1))).toNat = k.val) := by
    intro j'
    have hm : (s (ix2 (j' 0) (j' 1))).msb = false :=
      msb_false_of_lt _ (by have := hs (ix2 (j' 0) (j' 1)); omega)
    have e0 := hrow (j' 0) (j' 1)
    have e1 := hcol (j' 0) (j' 1)
    rw [resultIdx_eq_some_iff, e0, e1, toInt_ofNat_of_lt (by have := idx2_lt0 j'; omega),
      BitVec.toInt_eq_toNat_of_msb hm]
    show (((j' 0).val : Int) = (r.val : Int) ∧ (((s (ix2 (j' 0) (j' 1))).toNat : Nat) : Int) = (k.val : Int)) ↔ _
    omega
  constructor
  · rintro ⟨j', h⟩
    obtain ⟨e0, e1⟩ := (hcomp j').1 h
    have : j' 0 = r := Fin.ext e0
    rw [this] at e1
    exact ⟨j' 1, e1⟩
  · rintro ⟨j, h⟩
    exact ⟨ix2 r j, (hcomp (ix2 r j)).2 ⟨rfl, h⟩⟩

/-- The matrix of width W as both programs build it, at (r, k): the written constant when some position j of row r
    holds the id k, else the background constant. The ids are below 100000 ≤ 2³¹, so none is wrapped, whatever the
    wrap's addend. -/
theorem hotW {α : Type} {W : Nat}
    (wf : ScatterDims.WF ⟨2, ![2048, W]⟩ ⟨3, ![2048, 50, 2]⟩ ⟨2, ![2048, 50]⟩ [] [0, 1] [0, 1] 2)
    (hz : (⟨0, ![]⟩ : Shape).BroadcastsInDim ⟨2, ![2048, W]⟩ ![])
    (h50 : (⟨0, ![]⟩ : Shape).BroadcastsInDim ⟨2, ![2048, 50]⟩ ![])
    (h1 : (⟨1, ![2048]⟩ : Shape).BroadcastsInDim ⟨2, ![2048, 1]⟩ ![0])
    (h0 : (⟨0, ![]⟩ : Shape).BroadcastsInDim ⟨2, ![2048, 1]⟩ ![])
    (h2 : (⟨2, ![2048, 1]⟩ : Shape).BroadcastsInDim ⟨2, ![2048, 50]⟩ ![0, 1])
    (hb : (⟨2, ![2048, 50]⟩ : Shape).BroadcastsInDim ⟨3, ![2048, 50, 1]⟩ ![0, 1])
    (hc : Shape.Concatenates [⟨3, ![2048, 50, 1]⟩, ⟨3, ![2048, 50, 1]⟩] ⟨3, ![2048, 50, 2]⟩ 2)
    (zc oc : (⟨0, ![]⟩ : Shape).Idx → α) (e1 : IVec ⟨2, ![2048, 1]⟩ 32) (e2 : IVec ⟨2, ![2048, 50]⟩ 32)
    (s : (⟨2, ![2048, 50]⟩ : Shape).Idx → BitVec 32) (hs : ∀ i, (s i).toNat < 100000)
    (r : Fin 2048) (k : Fin W) :
    Host.scatter (dimsW W wf) (fun _ b => b)
      (broadcastInDim ⟨2, ![2048, W]⟩ ![] hz zc)
      (concatenate ⟨3, ![2048, 50, 2]⟩ 2
        [⟨⟨3, ![2048, 50, 1]⟩, broadcastInDim ⟨3, ![2048, 50, 1]⟩ ![0, 1] hb
            (broadcastInDim ⟨2, ![2048, 50]⟩ ![0, 1] h2
              (select
                (cmpi .slt (broadcastInDim ⟨2, ![2048, 1]⟩ ![0] h1 (iotaInDim ⟨1, ![2048]⟩ 32 0))
                  (broadcastInDim ⟨2, ![2048, 1]⟩ ![] h0 (constantI ⟨0, ![]⟩ 32 0#32)))
                (addi (broadcastInDim ⟨2, ![2048, 1]⟩ ![0] h1 (iotaInDim ⟨1, ![2048]⟩ 32 0)) e1)
                (broadcastInDim ⟨2, ![2048, 1]⟩ ![0] h1 (iotaInDim ⟨1, ![2048]⟩ 32 0))))⟩,
         ⟨⟨3, ![2048, 50, 1]⟩, broadcastInDim ⟨3, ![2048, 50, 1]⟩ ![0, 1] hb
            (select (cmpi .slt s (broadcastInDim ⟨2, ![2048, 50]⟩ ![] h50 (constantI ⟨0, ![]⟩ 32 0#32)))
              (addi s e2) s)⟩] hc)
      (broadcastInDim ⟨2, ![2048, 50]⟩ ![] h50 oc) (ix2 r k)
      = if ∃ j : Fin 50, (s (ix2 r j)).toNat = k.val then oc ix0 else zc ix0 := by
  rw [show broadcastInDim ⟨2, ![2048, W]⟩ ![] hz zc = fun _ => zc ix0 from
        funext fun j => LibHostReads.splat_apply hz zc j,
      show broadcastInDim ⟨2, ![2048, 50]⟩ ![] h50 oc = fun _ => oc ix0 from
        funext fun j => LibHostReads.splat_apply h50 oc j]
  refine hot_of_table wf _ _ _ s hs (fun r j => ?_) (fun r j => ?_) r k
  · rw [pair_fst, rows_apply]
  · rw [pair_snd]
    exact wrap_nonneg _ _ _ _ (LibHostReads.splat_apply h50 _ _)
      (msb_false_of_lt _ (by have := hs (ix2 r j); omega))

end Cert.LibScatterConst

end
-- ==== Proof.MultiHot.lean ====
/-
  The multi-hot matrix both programs build, read at an index.

  Each program writes a one into a matrix of zeros at every pair (row r, id at (r, j)), the row number and the id each
  first wrapped if negative as a signed word; the first program's matrix is 102400 columns wide, the second's 100000.
  For ids below 100000 no id is wrapped, so the element (r, k) is one exactly when some position j of row r holds the
  id k, and in the wider matrix the columns from 100000 on stay zero.
-/
import proofs.«165028_j4097398800503_1_alg».proof.Proof.Gen.KernelIdeal
import proofs.«165028_j4097398800503_1_alg».proof.Proof.RefTerms
import proofs.«165028_j4097398800503_1_alg».proof.Proof.Spec
import proofs.«165028_j4097398800503_1_alg».proof.Proof.LibScatterConst
import Idealize.ShloMosaic.Lib.IdealHost
import Idealize.ShloMosaic.Lib.ValueIdx

noncomputable section

namespace Cert.MultiHot

open Idealize.ShloMosaic Idealize.ShloMosaic.ValueIdx Cert.LibScatterConst

export Cert.LibScatterConst (scatter_set_const hot_of_table hotW dimsW resultIdx_eq_some_iff pair_fst pair_snd rows_apply
  wrap_nonneg ite_iff_congr)

section K
open Cert.KernelIdeal Cert.KernelIdeal.Facts₀

/-- The index table the first program scatters at: per position (r, j) the pair (row number, id), each wrapped if negative. -/
def idxK (s : (Spec.Mat 2048 50).Idx → BitVec 32) : IVec S2048x50x2 32 :=
  concatenate S2048x50x2 2
    [⟨S2048x50x1, broadcastInDim S2048x50x1 ![0, 1] bcast_S2048x50_S2048x50x1_0_1
        (broadcastInDim S2048x50 ![0, 1] bcast_S2048x1_S2048x50_0_1
          (select
            (cmpi .slt (broadcastInDim S2048x1 ![0] bcast_S2048_S2048x1_0 (iotaInDim S2048 32 0))
              (broadcastInDim S2048x1 ![] bcast_S_S2048x1 (constantI S_ 32 0#32)))
            (addi (broadcastInDim S2048x1 ![0] bcast_S2048_S2048x1_0 (iotaInDim S2048 32 0))
              (broadcastInDim S2048x1 ![] bcast_S_S2048x1 (constantI S_ 32 2048#32)))
            (broadcastInDim S2048x1 ![0] bcast_S2048_S2048x1_0 (iotaInDim S2048 32 0))))⟩,
     ⟨S2048x50x1, broadcastInDim S2048x50x1 ![0, 1] bcast_S2048x50_S2048x50x1_0_1
        (select
          (cmpi .slt s (broadcastInDim S2048x50 ![] bcast_S_S2048x50 (constantI S_ 32 0#32)))
          (addi s (broadcastInDim S2048x50 ![] bcast_S_S2048x50 (constantI S_ 32 102400#32)))
          s)⟩]
    concatenates_S2048x50x1_S2048x50x1_S2048x50x2_d2

/-- The first program's multi-hot matrix, 102400 columns wide: zeros, with a one written at every pair of the table. -/
def MK (s : (Spec.Mat 2048 50).Idx → BitVec 32) : (Spec.Mat 2048 102400).Idx → EReal :=
  Host.scatter scatter_S2048x102400_S2048x50x2_S2048x50_n_01_01_2 (fun _ b => b)
    (broadcastInDim S2048x102400 ![] bcast_S_S2048x102400 (constant (F := Ideal) S_ .bf16 0x0000#16))
    (idxK s)
    (broadcastInDim S2048x50 ![] bcast_S_S2048x50 (constant (F := Ideal) S_ .bf16 0x3F80#16))

/-- The first program's matrix at (r, k): the multi-hot entry in the first 100000 columns, zero in the rest. -/
theorem hotK (s : (Spec.Mat 2048 50).Idx → BitVec 32) (hs : ∀ i, (s i).toNat < 100000) (r : Fin 2048) (k : Fin 102400) :
    MK s (ix2 r k) = if h : k.val < 100000 then Spec.hot (Spec.fn2 s) r ⟨k.val, h⟩ else 0 := by
  unfold MK idxK
  refine (hotW scatter_S2048x102400_S2048x50x2_S2048x50_n_01_01_2_wf bcast_S_S2048x102400 bcast_S_S2048x50
    bcast_S2048_S2048x1_0 bcast_S_S2048x1 bcast_S2048x1_S2048x50_0_1 bcast_S2048x50_S2048x50x1_0_1
    concatenates_S2048x50x1_S2048x50x1_S2048x50x2_d2 _ _ _ _ s hs r k).trans ?_
  rw [constant_apply, constant_apply, Ideal.ofBits_one_bf16, Ideal.ofBits_zero_bf16]
  by_cases h : k.val < 100000
  · rw [dif_pos h]; unfold Spec.hot
    exact ite_iff_congr Iff.rfl _ _
  · rw [dif_neg h, if_neg]
    rintro ⟨j, hj⟩
    have := hs (ix2 r j); omega
end K

section R
open Cert.ReferenceIdeal Cert.ReferenceIdeal.Facts₀

/-- The second program's matrix at (r, k): the multi-hot entry. -/
theorem hotR (s : IVec S2048x50 32) (hs : ∀ i, (s i).toNat < 100000) (r : Fin 2048) (k : Fin 100000) :
    Cert.ReferenceIdeal.Hand.bowM s (ix2 r k) = Spec.hot (Spec.fn2 s) r k := by
  unfold Cert.ReferenceIdeal.Hand.bowM Cert.ReferenceIdeal.Hand.idx Cert.ReferenceIdeal.Hand.colIx
    Cert.ReferenceIdeal.Hand.rowIx
  refine (hotW scatter_S2048x100000_S2048x50x2_S2048x50_n_01_01_2_wf bcast_S_S2048x100000 bcast_S_S2048x50
    bcast_S2048_S2048x1_0 bcast_S_S2048x1 bcast_S2048x1_S2048x50_0_1 bcast_S2048x50_S2048x50x1_0_1
    concatenates_S2048x50x1_S2048x50x1_S2048x50x2_d2 _ _ _ _ s hs r k).trans ?_
  rw [constant_apply, constant_apply, Ideal.ofBits_one_f32, Ideal.ofBits_zero_f32]
  unfold Spec.hot
  exact ite_iff_congr Iff.rfl _ _
end R

end Cert.MultiHot

end
-- ==== Proof.LibSumPad.lean ====
/-
  A finite sum whose summands vanish from some index on.

  In a commutative additive monoid a sum over M indices splits as the sum of the first N summands plus the sum of the
  remaining M − N; when the remaining summands are all zero the sum is the sum of its first N summands. Generic in the
  monoid and in the two extents (used for a contraction axis padded with zeros).
-/
import Mathlib.Algebra.BigOperators.Fin

namespace Cert.LibSumPad

open scoped BigOperators

/-- A sum over M ≥ N indices whose summands vanish from N on is the sum of its first N summands. -/
theorem sum_pad {A : Type} [AddCommMonoid A] {N M : Nat} (hNM : N ≤ M) (f : Fin M → A) (g : Fin N → A)
    (h1 : ∀ k : Fin N, f ⟨k.val, lt_of_lt_of_le k.isLt hNM⟩ = g k) (h2 : ∀ k : Fin M, N ≤ k.val → f k = 0) :
    ∑ k, f k = ∑ k, g k := by
  obtain ⟨d, rfl⟩ := Nat.exists_eq_add_of_le hNM
  rw [Fin.sum_univ_add]
  have hz : ∑ i : Fin d, f (Fin.natAdd N i) = 0 :=
    Finset.sum_eq_zero fun i _ => h2 _ (Nat.le_add_right N i.val)
  rw [hz, add_zero]
  exact Finset.sum_congr rfl fun k _ => h1 k

end Cert.LibSumPad
-- ==== Proof.PadSum.lean ====
/-
  Padding with zeros does not change a hidden layer.

  The kernel multiplies a multi-hot matrix of 102400 columns by a weight matrix padded with 2400 zero rows; the reference
  multiplies 100000 columns by the unpadded weights. The 2400 extra summands of every entry are products with a zero
  factor, and a finite sum in a commutative monoid splits as the first N summands plus the rest, so the two sums agree.
-/
import proofs.«165028_j4097398800503_1_alg».proof.Proof.Spec
import proofs.«165028_j4097398800503_1_alg».proof.Proof.LibSumPad

noncomputable section

namespace Cert.PadSum

open scoped BigOperators

/-- A hidden layer over 102400 input columns that vanish, together with their weight rows, from column 100000 on is
    the hidden layer over the first 100000. -/
theorem hid_pad (X : Fin 2048 → Fin 102400 → EReal) (Wp : Fin 102400 → Fin 256 → EReal)
    (H : Fin 2048 → Fin 100000 → EReal) (W : Fin 100000 → Fin 256 → EReal) (b : Fin 256 → EReal)
    (hX : ∀ r (k : Fin 102400), X r k = if h : k.val < 100000 then H r ⟨k.val, h⟩ else 0)
    (hW : ∀ (k : Fin 102400) c, Wp k c = if h : k.val < 100000 then W ⟨k.val, h⟩ c else 0) :
    Cert.Spec.hid X Wp b = Cert.Spec.hid H W b := by
  funext r c
  unfold Cert.Spec.hid
  refine congrArg (fun z => Cert.Spec.lrelu (z + b c)) ?_
  refine Cert.LibSumPad.sum_pad (by decide) _ _ (fun k => ?_) (fun k hk => ?_)
  · rw [hX, hW, dif_pos k.isLt, dif_pos k.isLt]
  · rw [hX, dif_neg (Nat.not_lt.mpr hk), zero_mul]

end Cert.PadSum

end
-- ==== Proof.PreIds.lean ====
/-
  From the precondition to the range of the token ids.

  The precondition is one i1 word: the conjunction of fifteen "all entries satisfy p" reductions, the last two of which
  run over the array of ids: every id is at least 0, and every id is below 100000, both read signed. When the word is 1
  each conjunct is 1, a conjunction of all entries that is 1 had a 1 at every entry, and a signed comparison word that is
  1 says the signed order of its operands. A 32-bit word whose signed reading lies in [0, 100000) has the same unsigned
  reading, so it is below 100000 unsigned as well.
-/
import proofs.«165028_j4097398800503_1_alg».proof.Pre_finite_inputs
import Idealize.ShloMosaic.Lib.ReduceAll

noncomputable section

namespace Cert.PreIds

open Idealize.ShloMosaic
open Cert.Pre_finite_inputs

/-- The result of the precondition has one index. -/
instance : Subsingleton S_.Idx := ⟨fun a b => funext fun d => d.elim0⟩

/-- The one index of the precondition's result. -/
def j0 : S_.Idx := fun a => a.elim0

/-- The two literals the ids are compared with, read signed. -/
theorem toInt_zero : (0#32 : BitVec 32).toInt = 0 := by decide
theorem toInt_bound : (100000#32 : BitVec 32).toInt = 100000 := by decide

/-- A 32-bit word in [0, 100000) signed is below 100000 unsigned: its top bit is clear, so both readings agree. -/
theorem toNat_lt_of_signed (w : BitVec 32) (h0 : 0 ≤ w.toInt) (h1 : w.toInt < 100000) : w.toNat < 100000 := by
  have hc := BitVec.toInt_eq_toNat_cond w
  have hlt := w.isLt
  split at hc <;> omega

/-- The last part of the precondition: the conjunction of the word carried so far with "every id is below 100000". -/
theorem part4 {F : FTy → Type} [FloatOps F] [Facts] (a0 : IVec S2048x50 32) (v67 : IVec S_ 1)
    (h : fn_part4 (F := F) a0 v67 j0 = 1#1) : v67 j0 = 1#1 ∧ ∀ i : S2048x50.Idx, (a0 i).toInt < 100000 := by
  dsimp only [fn_part4] at h
  obtain ⟨h67, h70⟩ := IntOp.andi_eq_one.1 h
  refine ⟨h67, fun i => ?_⟩
  have hi : IntOp.cmpi .slt (a0 i) (100000#32) = 1#1 := Host.reduce_andi_all _ _ _ _ _ h70 i
  have := IntOp.cmpi_slt.1 hi
  rwa [toInt_bound] at this

/-- The part before it ends in the conjunction of the word carried so far with "every id is at least 0". -/
theorem part3 {F : FTy → Type} [FloatOps F] [Facts] (a0 : IVec S2048x50 32) (a12 : FVec F S256x64 .f32)
    (a13 : FVec F S64 .f32) (v48 : IVec S_ 1) (v49 v50 : FVec F S5 .f32)
    (h : fn_part3 (F := F) a0 a12 a13 v48 v49 v50 j0 = 1#1) :
    ∀ i : S2048x50.Idx, 0 ≤ (a0 i).toInt ∧ (a0 i).toInt < 100000 := by
  dsimp only [fn_part3] at h
  obtain ⟨h67, hlt⟩ := part4 (F := F) a0 _ h
  obtain ⟨-, h66⟩ := IntOp.andi_eq_one.1 h67
  intro i
  have hi : IntOp.cmpi .sge (a0 i) (0#32) = 1#1 := Host.reduce_andi_all _ _ _ _ _ h66 i
  have := IntOp.cmpi_sge.1 hi
  rw [toInt_zero] at this
  exact ⟨this, hlt i⟩

/-- THE PRECONDITION DECODED, signed: every id lies in [0, 100000). -/
theorem ids_range_signed {F : FTy → Type} [FloatOps F] [Facts]
    (a0 : IVec S2048x50 32) (a1 : FVec F S2048x512 .f32) (a2 : FVec F S100000x256 .f32) (a3 : FVec F S256 .f32)
    (a4 : FVec F S256x5 .f32) (a5 : FVec F S5 .f32) (a6 : FVec F S256x64 .f32) (a7 : FVec F S64 .f32)
    (a8 : FVec F S512x256 .f32) (a9 : FVec F S256 .f32) (a10 : FVec F S256x5 .f32) (a11 : FVec F S5 .f32)
    (a12 : FVec F S256x64 .f32) (a13 : FVec F S64 .f32)
    (h : fn (F := F) a0 a1 a2 a3 a4 a5 a6 a7 a8 a9 a10 a11 a12 a13 = fun _ => 1#1) :
    ∀ i : S2048x50.Idx, 0 ≤ (a0 i).toInt ∧ (a0 i).toInt < 100000 := by
  have e : fn (F := F) a0 a1 a2 a3 a4 a5 a6 a7 a8 a9 a10 a11 a12 a13 j0 = 1#1 := congrFun h j0
  dsimp only [fn, fn_part1, fn_part2] at e
  exact part3 (F := F) a0 a12 a13 _ _ _ e

/-- THE PRECONDITION DECODED, unsigned: every id is below 100000. -/
theorem ids_range {F : FTy → Type} [FloatOps F] [Facts]
    (a0 : IVec S2048x50 32) (a1 : FVec F S2048x512 .f32) (a2 : FVec F S100000x256 .f32) (a3 : FVec F S256 .f32)
    (a4 : FVec F S256x5 .f32) (a5 : FVec F S5 .f32) (a6 : FVec F S256x64 .f32) (a7 : FVec F S64 .f32)
    (a8 : FVec F S512x256 .f32) (a9 : FVec F S256 .f32) (a10 : FVec F S256x5 .f32) (a11 : FVec F S5 .f32)
    (a12 : FVec F S256x64 .f32) (a13 : FVec F S64 .f32)
    (h : fn (F := F) a0 a1 a2 a3 a4 a5 a6 a7 a8 a9 a10 a11 a12 a13 = fun _ => 1#1) :
    ∀ i : S2048x50.Idx, (a0 i).toNat < 100000 := fun i =>
  toNat_lt_of_signed _ (ids_range_signed a0 a1 a2 a3 a4 a5 a6 a7 a8 a9 a10 a11 a12 a13 h i).1
    (ids_range_signed a0 a1 a2 a3 a4 a5 a6 a7 a8 a9 a10 a11 a12 a13 h i).2

end Cert.PreIds

end
-- ==== Proof.KernelValue.lean ====
/-
  The kernel program's four results are the specification's functions of the argument arrays.

  The run leaves, in each result buffer, the array an output window of one of the two regions ends at. That array is the
  heads of a hidden layer of the region's entry contents; the entry contents are what the host operations made of the
  arguments: copies (a change of float format is the identity on the extended reals), a bias vector as a one-row matrix,
  (x − 0) / 1 = x, the weight matrix padded with zero rows, and the multi-hot matrix of 102400 columns, whose columns from
  100000 on are zero when every id is below 100000. Padding with zeros does not change the hidden layer.
-/
import proofs.«165028_j4097398800503_1_alg».proof.Defs
import proofs.«165028_j4097398800503_1_alg».proof.Proof.KernelRun
import proofs.«165028_j4097398800503_1_alg».proof.Proof.BowValue
import proofs.«165028_j4097398800503_1_alg».proof.Proof.BeoValue
import proofs.«165028_j4097398800503_1_alg».proof.Proof.KernelHost
import proofs.«165028_j4097398800503_1_alg».proof.Proof.MultiHot
import proofs.«165028_j4097398800503_1_alg».proof.Proof.PadSum
import proofs.«165028_j4097398800503_1_alg».proof.Proof.PreIds
import proofs.«165028_j4097398800503_1_alg».proof.Proof.Gen.Pre_finite_inputs

set_option maxRecDepth 16384

noncomputable section

namespace Cert.KernelIdeal.Value

open Idealize.ShloMosaic Idealize.ShloMosaic.TcCoe Idealize.ShloMosaic.ValueIdx Idealize.SL.Sem
open Cert.KernelIdeal Cert.KernelIdeal.Gen Cert.KernelIdeal.Run Cert.KernelIdeal.Bow Cert.KernelIdeal.Beo

variable (m : (ℓ : Loc nD τ sig) → Buf (Elt Ideal) ℓ) (ρ : Dev nD → PrngReg) (c : Dev nD)

/-! ## The second region's entry contents are the arguments -/

theorem e30 : (V5 m ρ c main_v30 : S2048x512.Idx → EReal) = m ((c.tc : Thread nD τ).loc main_arg1) :=
  (HostRead.v30_eq (W4 m ρ c)).trans (W4_untouched m ρ c main_arg1 (by decide) (by decide) (by decide) (by decide))
theorem e31 : (V5 m ρ c main_v31 : S512x256.Idx → EReal) = m ((c.tc : Thread nD τ).loc main_arg8) :=
  (HostRead.v31_eq (W4 m ρ c)).trans (W4_untouched m ρ c main_arg8 (by decide) (by decide) (by decide) (by decide))
theorem e32 : Spec.row1 (V5 m ρ c main_v32 : (Spec.Mat 1 256).Idx → EReal) = Spec.fn1 (m ((c.tc : Thread nD τ).loc main_arg9)) :=
  (HostRead.v32_eq (W4 m ρ c)).trans (congrArg Spec.fn1 (W4_untouched m ρ c main_arg9 (by decide) (by decide) (by decide) (by decide)))
theorem e33 : (V5 m ρ c main_v33 : S256x5.Idx → EReal) = m ((c.tc : Thread nD τ).loc main_arg10) :=
  (HostRead.v33_eq (W4 m ρ c)).trans (W4_untouched m ρ c main_arg10 (by decide) (by decide) (by decide) (by decide))
theorem e34 : Spec.row1 (V5 m ρ c main_v34 : (Spec.Mat 1 5).Idx → EReal) = Spec.fn1 (m ((c.tc : Thread nD τ).loc main_arg11)) :=
  (HostRead.v34_eq (W4 m ρ c)).trans (congrArg Spec.fn1 (W4_untouched m ρ c main_arg11 (by decide) (by decide) (by decide) (by decide)))
theorem e35 : (V5 m ρ c main_v35 : S256x64.Idx → EReal) = m ((c.tc : Thread nD τ).loc main_arg12) :=
  (HostRead.v35_eq (W4 m ρ c)).trans (W4_untouched m ρ c main_arg12 (by decide) (by decide) (by decide) (by decide))
theorem e36 : Spec.row1 (V5 m ρ c main_v36 : (Spec.Mat 1 64).Idx → EReal) = Spec.fn1 (m ((c.tc : Thread nD τ).loc main_arg13)) :=
  (HostRead.v36_eq (W4 m ρ c)).trans (congrArg Spec.fn1 (W4_untouched m ρ c main_arg13 (by decide) (by decide) (by decide) (by decide)))

/-- The dense branch's hidden layer of the second region's entry contents is the specification's. -/
theorem beo_hid :
    Spec.hid (Spec.fn2 (V5 m ρ c main_v30 : (Spec.Mat 2048 512).Idx → EReal)) (Spec.fn2 (V5 m ρ c main_v31 : (Spec.Mat 512 256).Idx → EReal))
        (Spec.row1 (V5 m ρ c main_v32 : (Spec.Mat 1 256).Idx → EReal))
      = Spec.beoHid (m ((c.tc : Thread nD τ).loc main_arg1)) (m ((c.tc : Thread nD τ).loc main_arg8)) (m ((c.tc : Thread nD τ).loc main_arg9)) := by
  unfold Spec.beoHid
  rw [e30 m ρ c, e31 m ρ c, e32 m ρ c]

/-! ## The first region's entry contents -/

theorem e21 : Spec.row1 (V3 m ρ c main_v21 : (Spec.Mat 1 256).Idx → EReal) = Spec.fn1 (m ((c.tc : Thread nD τ).loc main_arg3)) :=
  HostRead.v21_eq (W0 m ρ c)
theorem e22 : (V3 m ρ c main_v22 : S256x5.Idx → EReal) = m ((c.tc : Thread nD τ).loc main_arg4) :=
  HostRead.v22_eq (W0 m ρ c)
theorem e23 : Spec.row1 (V3 m ρ c main_v23 : (Spec.Mat 1 5).Idx → EReal) = Spec.fn1 (m ((c.tc : Thread nD τ).loc main_arg5)) :=
  HostRead.v23_eq (W0 m ρ c)
theorem e24 : (V3 m ρ c main_v24 : S256x64.Idx → EReal) = m ((c.tc : Thread nD τ).loc main_arg6) :=
  HostRead.v24_eq (W0 m ρ c)
theorem e25 : Spec.row1 (V3 m ρ c main_v25 : (Spec.Mat 1 64).Idx → EReal) = Spec.fn1 (m ((c.tc : Thread nD τ).loc main_arg7)) :=
  HostRead.v25_eq (W0 m ρ c)

/-- The multi-hot operand the first region finds is the scatter of the launch ids. -/
theorem e18 : (V3 m ρ c main_v18 : (Spec.Mat 2048 102400).Idx → EReal) = Cert.MultiHot.MK (m ((c.tc : Thread nD τ).loc main_arg0)) :=
  HostRead.v18_eq (W0 m ρ c)

/-- The bag-of-words branch's hidden layer of the first region's entry contents is the specification's, when every id
    is below 100000: the 2400 extra columns of the multi-hot matrix and the 2400 extra rows of the weights are zero. -/
theorem bow_hid (hs : ∀ i : S2048x50.Idx, (m ((c.tc : Thread nD τ).loc main_arg0) i).toNat < 100000) :
    Spec.hid (Spec.fn2 (V3 m ρ c main_v18 : (Spec.Mat 2048 102400).Idx → EReal)) (Spec.fn2 (V3 m ρ c main_v20 : (Spec.Mat 102400 256).Idx → EReal))
        (Spec.row1 (V3 m ρ c main_v21 : (Spec.Mat 1 256).Idx → EReal))
      = Spec.bowHid (m ((c.tc : Thread nD τ).loc main_arg0)) (m ((c.tc : Thread nD τ).loc main_arg2)) (m ((c.tc : Thread nD τ).loc main_arg3)) := by
  unfold Spec.bowHid
  rw [e21 m ρ c]
  refine Cert.PadSum.hid_pad _ _ _ _ _ (fun r k => ?_) (fun k c' => ?_)
  · show (V3 m ρ c main_v18 : (Spec.Mat 2048 102400).Idx → EReal) (ix2 r k) = _
    rw [e18 m ρ c]
    exact Cert.MultiHot.hotK _ hs r k
  · exact HostRead.v20_apply (W0 m ρ c) k c'

/-! ## The run, in the specification's vocabulary -/

theorem run_spec [hPre_finite_inputs : Cert.Pre_finite_inputs.Facts] (hPre : Cert.Pre_KernelIdeal m) :
    θ_run (Cert.KernelIdeal.defs (F := Ideal)) (onTc (τ := τ) (main (F := Ideal))) ⟨m, fun _ => 0, ρ⟩ (fun r => ∀ c : Dev nD,
      r.2.mem ((c.tc : Thread nD τ).loc main_v26_1) = Spec.out (Spec.bowHid (m ((c.tc : Thread nD τ).loc main_arg0)) (m ((c.tc : Thread nD τ).loc main_arg2)) (m ((c.tc : Thread nD τ).loc main_arg3))) (m ((c.tc : Thread nD τ).loc main_arg6)) (m ((c.tc : Thread nD τ).loc main_arg7))
      ∧ r.2.mem ((c.tc : Thread nD τ).loc main_v37_1) = Spec.out (Spec.beoHid (m ((c.tc : Thread nD τ).loc main_arg1)) (m ((c.tc : Thread nD τ).loc main_arg8)) (m ((c.tc : Thread nD τ).loc main_arg9))) (m ((c.tc : Thread nD τ).loc main_arg12)) (m ((c.tc : Thread nD τ).loc main_arg13))
      ∧ r.2.mem ((c.tc : Thread nD τ).loc main_v26_0) = Spec.out (Spec.bowHid (m ((c.tc : Thread nD τ).loc main_arg0)) (m ((c.tc : Thread nD τ).loc main_arg2)) (m ((c.tc : Thread nD τ).loc main_arg3))) (m ((c.tc : Thread nD τ).loc main_arg4)) (m ((c.tc : Thread nD τ).loc main_arg5))
      ∧ r.2.mem ((c.tc : Thread nD τ).loc main_v37_0) = Spec.out (Spec.beoHid (m ((c.tc : Thread nD τ).loc main_arg1)) (m ((c.tc : Thread nD τ).loc main_arg8)) (m ((c.tc : Thread nD τ).loc main_arg9))) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) := by
  refine (θ_run (Cert.KernelIdeal.defs (F := Ideal)) _ _).mono (fun r h c => ?_) (run_all (F := Ideal) m ρ)
  have hs : ∀ i : S2048x50.Idx, (m ((c.tc : Thread nD τ).loc main_arg0) i).toNat < 100000 :=
    Cert.PreIds.ids_range (F := Ideal) _ _ _ _ _ _ _ _ _ _ _ _ _ _ (hPre c)
  refine ⟨?_, ?_, ?_, ?_, arg_end m ρ r.2 h c main_arg0 (by decide) (by decide) (by decide) (by decide) (by decide) (by decide) (by decide),
      arg_end m ρ r.2 h c main_arg1 (by decide) (by decide) (by decide) (by decide) (by decide) (by decide) (by decide),
      arg_end m ρ r.2 h c main_arg2 (by decide) (by decide) (by decide) (by decide) (by decide) (by decide) (by decide),
      arg_end m ρ r.2 h c main_arg3 (by decide) (by decide) (by decide) (by decide) (by decide) (by decide) (by decide),
      arg_end m ρ r.2 h c main_arg4 (by decide) (by decide) (by decide) (by decide) (by decide) (by decide) (by decide),
      arg_end m ρ r.2 h c main_arg5 (by decide) (by decide) (by decide) (by decide) (by decide) (by decide) (by decide),
      arg_end m ρ r.2 h c main_arg6 (by decide) (by decide) (by decide) (by decide) (by decide) (by decide) (by decide),
      arg_end m ρ r.2 h c main_arg7 (by decide) (by decide) (by decide) (by decide) (by decide) (by decide) (by decide),
      arg_end m ρ r.2 h c main_arg8 (by decide) (by decide) (by decide) (by decide) (by decide) (by decide) (by decide),
      arg_end m ρ r.2 h c main_arg9 (by decide) (by decide) (by decide) (by decide) (by decide) (by decide) (by decide),
      arg_end m ρ r.2 h c main_arg10 (by decide) (by decide) (by decide) (by decide) (by decide) (by decide) (by decide),
      arg_end m ρ r.2 h c main_arg11 (by decide) (by decide) (by decide) (by decide) (by decide) (by decide) (by decide),
      arg_end m ρ r.2 h c main_arg12 (by decide) (by decide) (by decide) (by decide) (by decide) (by decide) (by decide),
      arg_end m ρ r.2 h c main_arg13 (by decide) (by decide) (by decide) (by decide) (by decide) (by decide) (by decide)⟩
  · -- the bag-of-words head of width 64: window 8 of the first region, untouched by the second branch
    refine (h c _ (mem_uc main_v26_1 (by decide))).trans ?_
    refine (W6_of_first m ρ c main_v26_1 (by decide) (by decide)).trans ?_
    refine (W4_arr m ρ c 8).trans ?_
    rw [Cert.KernelIdeal.BowValue.value0_8 (V3 m ρ) c, bow_hid m ρ c hs, e24 m ρ c, e25 m ρ c]
    rfl
  · -- the dense head of width 64: window 8 of the second region
    refine (h c _ (mem_uc main_v37_1 (by decide))).trans ?_
    refine (W6_arr m ρ c 8).trans ?_
    rw [Cert.KernelIdeal.BeoValue.value1_8 (V5 m ρ) c, beo_hid m ρ c, e35 m ρ c, e36 m ρ c]
    rfl
  · refine (h c _ (mem_uc main_v26_0 (by decide))).trans ?_
    refine (W6_of_first m ρ c main_v26_0 (by decide) (by decide)).trans ?_
    refine (W4_arr m ρ c 7).trans ?_
    rw [Cert.KernelIdeal.BowValue.value0_7 (V3 m ρ) c, bow_hid m ρ c hs, e22 m ρ c, e23 m ρ c]
    rfl
  · refine (h c _ (mem_uc main_v37_0 (by decide))).trans ?_
    refine (W6_arr m ρ c 7).trans ?_
    rw [Cert.KernelIdeal.BeoValue.value1_7 (V5 m ρ) c, beo_hid m ρ c, e33 m ρ c, e34 m ρ c]
    rfl

end Cert.KernelIdeal.Value

end
-- ==== Proof.RefRun.lean ====
/-
  The reference program's run.

  The rectifier is written twice in the program, once per branch, as the seven operations of its two nested helper
  functions; listed in place of the two calls they make the program one straight line of seventy-one operations, each
  writing one buffer of its own. Running that line from any memory with zero counters terminates with every buffer at
  the composition of the operations that wrote it: the four results at the terms named beside this module, the fourteen
  arguments — which no operation writes — unchanged.
-/
import proofs.«165028_j4097398800503_1_alg».proof.Proof.RefTerms
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

section Line

variable {F : FTy → Type} [FloatOps F]

/-- Two columns of indices side by side: the concatenation along the last axis, as a function of the two columns (its
    operands plain arguments, so that a composed term can be rewritten inside them). -/
def pairCols : (⟨S2048x50x1, .i32⟩ : BufTy).Contents (Elt F) → (⟨S2048x50x1, .i32⟩ : BufTy).Contents (Elt F) → (⟨S2048x50x2, .i32⟩ : BufTy).Contents (Elt F) :=
  fun a b => concatenate S2048x50x2 2 [⟨S2048x50x1, a⟩, ⟨S2048x50x1, b⟩] concatenates_S2048x50x1_S2048x50x1_S2048x50x2_d2

/-- The program's operations in order, the two calls of the rectifier replaced by the seven operations each runs: the
    scalar zero, its broadcast, the comparison z ≥ 0, the slope's identity conversion, its broadcast, the product
    slope · z, and the inner helper's select. -/
abbrev ops : List (HloOp τ sig (Elt F)) :=
  [ nullary main_cst (constant S_ .f32 0x00000000#32),
    unary main_cst main_v0 (broadcastInDim S2048x512 ![] bcast_S_S2048x512 : (⟨S_, .f32⟩ : BufTy).Contents (Elt F) → (⟨S2048x512, .f32⟩ : BufTy).Contents (Elt F)),
    binary main_arg1 main_v0 main_v1 (subf : (⟨S2048x512, .f32⟩ : BufTy).Contents (Elt F) → (⟨S2048x512, .f32⟩ : BufTy).Contents (Elt F) → (⟨S2048x512, .f32⟩ : BufTy).Contents (Elt F)),
    nullary main_cst_0 (constant S_ .f32 0x3F800000#32),
    unary main_cst_0 main_v2 (broadcastInDim S2048x512 ![] bcast_S_S2048x512 : (⟨S_, .f32⟩ : BufTy).Contents (Elt F) → (⟨S2048x512, .f32⟩ : BufTy).Contents (Elt F)),
    binary main_v1 main_v2 main_v3 (Host.divf : (⟨S2048x512, .f32⟩ : BufTy).Contents (Elt F) → (⟨S2048x512, .f32⟩ : BufTy).Contents (Elt F) → (⟨S2048x512, .f32⟩ : BufTy).Contents (Elt F)),
    nullary main_v4 (iotaInDim S2048 32 0),
    unary main_v4 main_v5 (broadcastInDim S2048x1 ![0] bcast_S2048_S2048x1_0 : (⟨S2048, .i32⟩ : BufTy).Contents (Elt F) → (⟨S2048x1, .i32⟩ : BufTy).Contents (Elt F)),
    nullary main_cst_1 (constant S_ .f32 0x00000000#32),
    unary main_cst_1 main_v6 (broadcastInDim S2048x100000 ![] bcast_S_S2048x100000 : (⟨S_, .f32⟩ : BufTy).Contents (Elt F) → (⟨S2048x100000, .f32⟩ : BufTy).Contents (Elt F)),
    nullary main_c (constantI S_ 32 0#32),
    unary main_c main_v7 (broadcastInDim S2048x1 ![] bcast_S_S2048x1 : (⟨S_, .i32⟩ : BufTy).Contents (Elt F) → (⟨S2048x1, .i32⟩ : BufTy).Contents (Elt F)),
    binary main_v5 main_v7 main_v8 (cmpi .slt : (⟨S2048x1, .i32⟩ : BufTy).Contents (Elt F) → (⟨S2048x1, .i32⟩ : BufTy).Contents (Elt F) → (⟨S2048x1, .i1⟩ : BufTy).Contents (Elt F)),
    nullary main_c_2 (constantI S_ 32 2048#32),
    unary main_c_2 main_v9 (broadcastInDim S2048x1 ![] bcast_S_S2048x1 : (⟨S_, .i32⟩ : BufTy).Contents (Elt F) → (⟨S2048x1, .i32⟩ : BufTy).Contents (Elt F)),
    binary main_v5 main_v9 main_v10 (addi : (⟨S2048x1, .i32⟩ : BufTy).Contents (Elt F) → (⟨S2048x1, .i32⟩ : BufTy).Contents (Elt F) → (⟨S2048x1, .i32⟩ : BufTy).Contents (Elt F)),
    ternary main_v8 main_v10 main_v5 main_v11 (select : (⟨S2048x1, .i1⟩ : BufTy).Contents (Elt F) → (⟨S2048x1, .i32⟩ : BufTy).Contents (Elt F) → (⟨S2048x1, .i32⟩ : BufTy).Contents (Elt F) → (⟨S2048x1, .i32⟩ : BufTy).Contents (Elt F)),
    nullary main_c_3 (constantI S_ 32 0#32),
    unary main_c_3 main_v12 (broadcastInDim S2048x50 ![] bcast_S_S2048x50 : (⟨S_, .i32⟩ : BufTy).Contents (Elt F) → (⟨S2048x50, .i32⟩ : BufTy).Contents (Elt F)),
    binary main_arg0 main_v12 main_v13 (cmpi .slt : (⟨S2048x50, .i32⟩ : BufTy).Contents (Elt F) → (⟨S2048x50, .i32⟩ : BufTy).Contents (Elt F) → (⟨S2048x50, .i1⟩ : BufTy).Contents (Elt F)),
    nullary main_c_4 (constantI S_ 32 100000#32),
    unary main_c_4 main_v14 (broadcastInDim S2048x50 ![] bcast_S_S2048x50 : (⟨S_, .i32⟩ : BufTy).Contents (Elt F) → (⟨S2048x50, .i32⟩ : BufTy).Contents (Elt F)),
    binary main_arg0 main_v14 main_v15 (addi : (⟨S2048x50, .i32⟩ : BufTy).Contents (Elt F) → (⟨S2048x50, .i32⟩ : BufTy).Contents (Elt F) → (⟨S2048x50, .i32⟩ : BufTy).Contents (Elt F)),
    ternary main_v13 main_v15 main_arg0 main_v16 (select : (⟨S2048x50, .i1⟩ : BufTy).Contents (Elt F) → (⟨S2048x50, .i32⟩ : BufTy).Contents (Elt F) → (⟨S2048x50, .i32⟩ : BufTy).Contents (Elt F) → (⟨S2048x50, .i32⟩ : BufTy).Contents (Elt F)),
    unary main_v11 main_v17 (broadcastInDim S2048x50 ![0, 1] bcast_S2048x1_S2048x50_0_1 : (⟨S2048x1, .i32⟩ : BufTy).Contents (Elt F) → (⟨S2048x50, .i32⟩ : BufTy).Contents (Elt F)),
    unary main_v17 main_v18 (broadcastInDim S2048x50x1 ![0, 1] bcast_S2048x50_S2048x50x1_0_1 : (⟨S2048x50, .i32⟩ : BufTy).Contents (Elt F) → (⟨S2048x50x1, .i32⟩ : BufTy).Contents (Elt F)),
    unary main_v16 main_v19 (broadcastInDim S2048x50x1 ![0, 1] bcast_S2048x50_S2048x50x1_0_1 : (⟨S2048x50, .i32⟩ : BufTy).Contents (Elt F) → (⟨S2048x50x1, .i32⟩ : BufTy).Contents (Elt F)),
    binary main_v18 main_v19 main_v20 (pairCols (F := F)),
    nullary main_cst_5 (constant S_ .f32 0x3F800000#32),
    unary main_cst_5 main_v21 (broadcastInDim S2048x50 ![] bcast_S_S2048x50 : (⟨S_, .f32⟩ : BufTy).Contents (Elt F) → (⟨S2048x50, .f32⟩ : BufTy).Contents (Elt F)),
    ternary main_v6 main_v20 main_v21 main_v22 ((fun x i u => Host.scatter scatter_S2048x100000_S2048x50x2_S2048x50_n_01_01_2 (fun _ b => b) x i u) : (⟨S2048x100000, .f32⟩ : BufTy).Contents (Elt F) → (⟨S2048x50x2, .i32⟩ : BufTy).Contents (Elt F) → (⟨S2048x50, .f32⟩ : BufTy).Contents (Elt F) → (⟨S2048x100000, .f32⟩ : BufTy).Contents (Elt F)),
    binary main_v22 main_arg2 main_v23 ((fun l r => Host.dotGeneral dot_S2048x100000_S100000x256_S2048x256_1_0_0_1_n_n none l r) : (⟨S2048x100000, .f32⟩ : BufTy).Contents (Elt F) → (⟨S100000x256, .f32⟩ : BufTy).Contents (Elt F) → (⟨S2048x256, .f32⟩ : BufTy).Contents (Elt F)),
    unary main_arg3 main_v24 (broadcastInDim S1x256 ![1] bcast_S256_S1x256_1 : (⟨S256, .f32⟩ : BufTy).Contents (Elt F) → (⟨S1x256, .f32⟩ : BufTy).Contents (Elt F)),
    unary main_v24 main_v25 (broadcastInDim S2048x256 ![0, 1] bcast_S1x256_S2048x256_0_1 : (⟨S1x256, .f32⟩ : BufTy).Contents (Elt F) → (⟨S2048x256, .f32⟩ : BufTy).Contents (Elt F)),
    binary main_v23 main_v25 main_v26 (addf : (⟨S2048x256, .f32⟩ : BufTy).Contents (Elt F) → (⟨S2048x256, .f32⟩ : BufTy).Contents (Elt F) → (⟨S2048x256, .f32⟩ : BufTy).Contents (Elt F)),
    nullary main_cst_6 (constant S_ .f32 0x3E4CCCCD#32),
    nullary main_call0_cst (constant S_ .f32 0x00000000#32),
    unary main_call0_cst main_call0_v0 (broadcastInDim S2048x256 ![] bcast_S_S2048x256 : (⟨S_, .f32⟩ : BufTy).Contents (Elt F) → (⟨S2048x256, .f32⟩ : BufTy).Contents (Elt F)),
    binary main_v26 main_call0_v0 main_call0_v1 (cmpf .oge : (⟨S2048x256, .f32⟩ : BufTy).Contents (Elt F) → (⟨S2048x256, .f32⟩ : BufTy).Contents (Elt F) → (⟨S2048x256, .i1⟩ : BufTy).Contents (Elt F)),
    unary main_cst_6 main_call0_v2 (id : (⟨S_, .f32⟩ : BufTy).Contents (Elt F) → (⟨S_, .f32⟩ : BufTy).Contents (Elt F)),
    unary main_call0_v2 main_call0_v3 (broadcastInDim S2048x256 ![] bcast_S_S2048x256 : (⟨S_, .f32⟩ : BufTy).Contents (Elt F) → (⟨S2048x256, .f32⟩ : BufTy).Contents (Elt F)),
    binary main_call0_v3 main_v26 main_call0_v4 (mulf : (⟨S2048x256, .f32⟩ : BufTy).Contents (Elt F) → (⟨S2048x256, .f32⟩ : BufTy).Contents (Elt F) → (⟨S2048x256, .f32⟩ : BufTy).Contents (Elt F)),
    ternary main_call0_v1 main_v26 main_call0_v4 main_v27 (select : (⟨S2048x256, .i1⟩ : BufTy).Contents (Elt F) → (⟨S2048x256, .f32⟩ : BufTy).Contents (Elt F) → (⟨S2048x256, .f32⟩ : BufTy).Contents (Elt F) → (⟨S2048x256, .f32⟩ : BufTy).Contents (Elt F)),
    binary main_v3 main_arg8 main_v28 ((fun l r => Host.dotGeneral dot_S2048x512_S512x256_S2048x256_1_0_0_1_n_n none l r) : (⟨S2048x512, .f32⟩ : BufTy).Contents (Elt F) → (⟨S512x256, .f32⟩ : BufTy).Contents (Elt F) → (⟨S2048x256, .f32⟩ : BufTy).Contents (Elt F)),
    unary main_arg9 main_v29 (broadcastInDim S1x256 ![1] bcast_S256_S1x256_1 : (⟨S256, .f32⟩ : BufTy).Contents (Elt F) → (⟨S1x256, .f32⟩ : BufTy).Contents (Elt F)),
    unary main_v29 main_v30 (broadcastInDim S2048x256 ![0, 1] bcast_S1x256_S2048x256_0_1 : (⟨S1x256, .f32⟩ : BufTy).Contents (Elt F) → (⟨S2048x256, .f32⟩ : BufTy).Contents (Elt F)),
    binary main_v28 main_v30 main_v31 (addf : (⟨S2048x256, .f32⟩ : BufTy).Contents (Elt F) → (⟨S2048x256, .f32⟩ : BufTy).Contents (Elt F) → (⟨S2048x256, .f32⟩ : BufTy).Contents (Elt F)),
    nullary main_cst_7 (constant S_ .f32 0x3E4CCCCD#32),
    nullary main_call1_cst (constant S_ .f32 0x00000000#32),
    unary main_call1_cst main_call1_v0 (broadcastInDim S2048x256 ![] bcast_S_S2048x256 : (⟨S_, .f32⟩ : BufTy).Contents (Elt F) → (⟨S2048x256, .f32⟩ : BufTy).Contents (Elt F)),
    binary main_v31 main_call1_v0 main_call1_v1 (cmpf .oge : (⟨S2048x256, .f32⟩ : BufTy).Contents (Elt F) → (⟨S2048x256, .f32⟩ : BufTy).Contents (Elt F) → (⟨S2048x256, .i1⟩ : BufTy).Contents (Elt F)),
    unary main_cst_7 main_call1_v2 (id : (⟨S_, .f32⟩ : BufTy).Contents (Elt F) → (⟨S_, .f32⟩ : BufTy).Contents (Elt F)),
    unary main_call1_v2 main_call1_v3 (broadcastInDim S2048x256 ![] bcast_S_S2048x256 : (⟨S_, .f32⟩ : BufTy).Contents (Elt F) → (⟨S2048x256, .f32⟩ : BufTy).Contents (Elt F)),
    binary main_call1_v3 main_v31 main_call1_v4 (mulf : (⟨S2048x256, .f32⟩ : BufTy).Contents (Elt F) → (⟨S2048x256, .f32⟩ : BufTy).Contents (Elt F) → (⟨S2048x256, .f32⟩ : BufTy).Contents (Elt F)),
    ternary main_call1_v1 main_v31 main_call1_v4 main_v32 (select : (⟨S2048x256, .i1⟩ : BufTy).Contents (Elt F) → (⟨S2048x256, .f32⟩ : BufTy).Contents (Elt F) → (⟨S2048x256, .f32⟩ : BufTy).Contents (Elt F) → (⟨S2048x256, .f32⟩ : BufTy).Contents (Elt F)),
    binary main_v27 main_arg4 main_v33 ((fun l r => Host.dotGeneral dot_S2048x256_S256x5_S2048x5_1_0_0_1_n_n none l r) : (⟨S2048x256, .f32⟩ : BufTy).Contents (Elt F) → (⟨S256x5, .f32⟩ : BufTy).Contents (Elt F) → (⟨S2048x5, .f32⟩ : BufTy).Contents (Elt F)),
    unary main_arg5 main_v34 (broadcastInDim S1x5 ![1] bcast_S5_S1x5_1 : (⟨S5, .f32⟩ : BufTy).Contents (Elt F) → (⟨S1x5, .f32⟩ : BufTy).Contents (Elt F)),
    unary main_v34 main_v35 (broadcastInDim S2048x5 ![0, 1] bcast_S1x5_S2048x5_0_1 : (⟨S1x5, .f32⟩ : BufTy).Contents (Elt F) → (⟨S2048x5, .f32⟩ : BufTy).Contents (Elt F)),
    binary main_v33 main_v35 main_v36 (addf : (⟨S2048x5, .f32⟩ : BufTy).Contents (Elt F) → (⟨S2048x5, .f32⟩ : BufTy).Contents (Elt F) → (⟨S2048x5, .f32⟩ : BufTy).Contents (Elt F)),
    binary main_v32 main_arg10 main_v37 ((fun l r => Host.dotGeneral dot_S2048x256_S256x5_S2048x5_1_0_0_1_n_n none l r) : (⟨S2048x256, .f32⟩ : BufTy).Contents (Elt F) → (⟨S256x5, .f32⟩ : BufTy).Contents (Elt F) → (⟨S2048x5, .f32⟩ : BufTy).Contents (Elt F)),
    unary main_arg11 main_v38 (broadcastInDim S1x5 ![1] bcast_S5_S1x5_1 : (⟨S5, .f32⟩ : BufTy).Contents (Elt F) → (⟨S1x5, .f32⟩ : BufTy).Contents (Elt F)),
    unary main_v38 main_v39 (broadcastInDim S2048x5 ![0, 1] bcast_S1x5_S2048x5_0_1 : (⟨S1x5, .f32⟩ : BufTy).Contents (Elt F) → (⟨S2048x5, .f32⟩ : BufTy).Contents (Elt F)),
    binary main_v37 main_v39 main_v40 (addf : (⟨S2048x5, .f32⟩ : BufTy).Contents (Elt F) → (⟨S2048x5, .f32⟩ : BufTy).Contents (Elt F) → (⟨S2048x5, .f32⟩ : BufTy).Contents (Elt F)),
    binary main_v27 main_arg6 main_v41 ((fun l r => Host.dotGeneral dot_S2048x256_S256x64_S2048x64_1_0_0_1_n_n none l r) : (⟨S2048x256, .f32⟩ : BufTy).Contents (Elt F) → (⟨S256x64, .f32⟩ : BufTy).Contents (Elt F) → (⟨S2048x64, .f32⟩ : BufTy).Contents (Elt F)),
    unary main_arg7 main_v42 (broadcastInDim S1x64 ![1] bcast_S64_S1x64_1 : (⟨S64, .f32⟩ : BufTy).Contents (Elt F) → (⟨S1x64, .f32⟩ : BufTy).Contents (Elt F)),
    unary main_v42 main_v43 (broadcastInDim S2048x64 ![0, 1] bcast_S1x64_S2048x64_0_1 : (⟨S1x64, .f32⟩ : BufTy).Contents (Elt F) → (⟨S2048x64, .f32⟩ : BufTy).Contents (Elt F)),
    binary main_v41 main_v43 main_v44 (addf : (⟨S2048x64, .f32⟩ : BufTy).Contents (Elt F) → (⟨S2048x64, .f32⟩ : BufTy).Contents (Elt F) → (⟨S2048x64, .f32⟩ : BufTy).Contents (Elt F)),
    binary main_v32 main_arg12 main_v45 ((fun l r => Host.dotGeneral dot_S2048x256_S256x64_S2048x64_1_0_0_1_n_n none l r) : (⟨S2048x256, .f32⟩ : BufTy).Contents (Elt F) → (⟨S256x64, .f32⟩ : BufTy).Contents (Elt F) → (⟨S2048x64, .f32⟩ : BufTy).Contents (Elt F)),
    unary main_arg13 main_v46 (broadcastInDim S1x64 ![1] bcast_S64_S1x64_1 : (⟨S64, .f32⟩ : BufTy).Contents (Elt F) → (⟨S1x64, .f32⟩ : BufTy).Contents (Elt F)),
    unary main_v46 main_v47 (broadcastInDim S2048x64 ![0, 1] bcast_S1x64_S2048x64_0_1 : (⟨S1x64, .f32⟩ : BufTy).Contents (Elt F) → (⟨S2048x64, .f32⟩ : BufTy).Contents (Elt F)),
    binary main_v45 main_v47 main_v48 (addf : (⟨S2048x64, .f32⟩ : BufTy).Contents (Elt F) → (⟨S2048x64, .f32⟩ : BufTy).Contents (Elt F) → (⟨S2048x64, .f32⟩ : BufTy).Contents (Elt F)) ]

-- one bind re-associated per operation: the rewriting recurses once per statement of the chain
set_option maxRecDepth 8192 in
set_option maxHeartbeats 4000000 in
/-- The program is that straight line: with the two helper functions unfolded at their calls and the records at their
    fields, both sides are one chain of steps once sequencing is re-associated (a bind of a bind, a bind after a return). -/
theorem main_eq (c : Dev nD) : main (F := F) c = seq ops := by
  simp only [main, fn_leaky_relu.body, fn_where.body, seq, bind_assoc, pure_bind]
  rfl

/-- No buffer of the signature is scoped. -/
theorem scopedRefs_eq : (Finset.univ.filter fun b : Ref sig .tc => b.isScoped) = ∅ := by decide
/-- The signature has no semaphore, so none is scoped. -/
theorem scopedSems_eq : (Finset.univ.filter fun sm : SemLoc sig => sm.isScoped .tc) = ∅ := by decide

set_option maxRecDepth 8192 in
/-- Every operation touches buffers of the signature only. -/
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    nullary_bufs_sub .., unary_bufs_sub .., nullary_bufs_sub .., unary_bufs_sub .., nullary_bufs_sub .., unary_bufs_sub ..,
    binary_bufs_sub .., nullary_bufs_sub .., unary_bufs_sub .., binary_bufs_sub .., ternary_bufs_sub .., nullary_bufs_sub ..,
    unary_bufs_sub .., binary_bufs_sub .., nullary_bufs_sub .., unary_bufs_sub .., binary_bufs_sub .., ternary_bufs_sub ..,
    unary_bufs_sub .., unary_bufs_sub .., unary_bufs_sub .., binary_bufs_sub .., nullary_bufs_sub .., unary_bufs_sub ..,
    ternary_bufs_sub .., binary_bufs_sub .., unary_bufs_sub .., unary_bufs_sub .., binary_bufs_sub .., nullary_bufs_sub ..,
    nullary_bufs_sub .., unary_bufs_sub .., binary_bufs_sub .., unary_bufs_sub .., unary_bufs_sub .., binary_bufs_sub ..,
    ternary_bufs_sub .., binary_bufs_sub .., unary_bufs_sub .., unary_bufs_sub .., binary_bufs_sub .., nullary_bufs_sub ..,
    nullary_bufs_sub .., unary_bufs_sub .., binary_bufs_sub .., unary_bufs_sub .., unary_bufs_sub .., binary_bufs_sub ..,
    ternary_bufs_sub .., binary_bufs_sub .., unary_bufs_sub .., unary_bufs_sub .., binary_bufs_sub .., binary_bufs_sub ..,
    unary_bufs_sub .., unary_bufs_sub .., binary_bufs_sub .., binary_bufs_sub .., unary_bufs_sub .., unary_bufs_sub ..,
    binary_bufs_sub .., binary_bufs_sub .., unary_bufs_sub .., unary_bufs_sub .., binary_bufs_sub ..⟩

end Line

/-! ## What each result and each argument holds after the line -/

set_option maxRecDepth 8192 in
set_option maxHeartbeats 8000000 in
/-- The buffer of this result after the line: each operation read at the buffer it writes and passed over at every
    other, what is left is the named term, by unfolding the names. -/
theorem main_v44_eq (V : Valuation τ sig (Elt Ideal)) :
    after (ops (F := Ideal)) V (Proc.devRef .tc main_v44)
      = res44 (V (Proc.devRef .tc main_arg0)) (V (Proc.devRef .tc main_arg2)) (V (Proc.devRef .tc main_arg3)) (V (Proc.devRef .tc main_arg6)) (V (Proc.devRef .tc main_arg7)) := by
  after_results_simp <;> rfl

set_option maxRecDepth 8192 in
set_option maxHeartbeats 8000000 in
/-- The buffer of this result after the line: each operation read at the buffer it writes and passed over at every
    other, what is left is the named term, by unfolding the names. -/
theorem main_v48_eq (V : Valuation τ sig (Elt Ideal)) :
    after (ops (F := Ideal)) V (Proc.devRef .tc main_v48)
      = res48 (V (Proc.devRef .tc main_arg1)) (V (Proc.devRef .tc main_arg8)) (V (Proc.devRef .tc main_arg9)) (V (Proc.devRef .tc main_arg12)) (V (Proc.devRef .tc main_arg13)) := by
  after_results_simp <;> rfl

set_option maxRecDepth 8192 in
set_option maxHeartbeats 8000000 in
/-- The buffer of this result after the line: each operation read at the buffer it writes and passed over at every
    other, what is left is the named term, by unfolding the names. -/
theorem main_v36_eq (V : Valuation τ sig (Elt Ideal)) :
    after (ops (F := Ideal)) V (Proc.devRef .tc main_v36)
      = res36 (V (Proc.devRef .tc main_arg0)) (V (Proc.devRef .tc main_arg2)) (V (Proc.devRef .tc main_arg3)) (V (Proc.devRef .tc main_arg4)) (V (Proc.devRef .tc main_arg5)) := by
  after_results_simp <;> rfl

set_option maxRecDepth 8192 in
set_option maxHeartbeats 8000000 in
/-- The buffer of this result after the line: each operation read at the buffer it writes and passed over at every
    other, what is left is the named term, by unfolding the names. -/
theorem main_v40_eq (V : Valuation τ sig (Elt Ideal)) :
    after (ops (F := Ideal)) V (Proc.devRef .tc main_v40)
      = res40 (V (Proc.devRef .tc main_arg1)) (V (Proc.devRef .tc main_arg8)) (V (Proc.devRef .tc main_arg9)) (V (Proc.devRef .tc main_arg10)) (V (Proc.devRef .tc main_arg11)) := by
  after_results_simp <;> rfl

/-! No operation writes an argument: it is passed over by every one of them. -/

set_option maxRecDepth 8192 in
set_option maxHeartbeats 8000000 in
theorem main_arg0_eq (V : Valuation τ sig (Elt Ideal)) :
    after (ops (F := Ideal)) V (Proc.devRef .tc main_arg0) = V (Proc.devRef .tc main_arg0) := by
  after_results_simp <;> rfl

set_option maxRecDepth 8192 in
set_option maxHeartbeats 8000000 in
theorem main_arg1_eq (V : Valuation τ sig (Elt Ideal)) :
    after (ops (F := Ideal)) V (Proc.devRef .tc main_arg1) = V (Proc.devRef .tc main_arg1) := by
  after_results_simp <;> rfl

set_option maxRecDepth 8192 in
set_option maxHeartbeats 8000000 in
theorem main_arg2_eq (V : Valuation τ sig (Elt Ideal)) :
    after (ops (F := Ideal)) V (Proc.devRef .tc main_arg2) = V (Proc.devRef .tc main_arg2) := by
  after_results_simp <;> rfl

set_option maxRecDepth 8192 in
set_option maxHeartbeats 8000000 in
theorem main_arg3_eq (V : Valuation τ sig (Elt Ideal)) :
    after (ops (F := Ideal)) V (Proc.devRef .tc main_arg3) = V (Proc.devRef .tc main_arg3) := by
  after_results_simp <;> rfl

set_option maxRecDepth 8192 in
set_option maxHeartbeats 8000000 in
theorem main_arg4_eq (V : Valuation τ sig (Elt Ideal)) :
    after (ops (F := Ideal)) V (Proc.devRef .tc main_arg4) = V (Proc.devRef .tc main_arg4) := by
  after_results_simp <;> rfl

set_option maxRecDepth 8192 in
set_option maxHeartbeats 8000000 in
theorem main_arg5_eq (V : Valuation τ sig (Elt Ideal)) :
    after (ops (F := Ideal)) V (Proc.devRef .tc main_arg5) = V (Proc.devRef .tc main_arg5) := by
  after_results_simp <;> rfl

set_option maxRecDepth 8192 in
set_option maxHeartbeats 8000000 in
theorem main_arg6_eq (V : Valuation τ sig (Elt Ideal)) :
    after (ops (F := Ideal)) V (Proc.devRef .tc main_arg6) = V (Proc.devRef .tc main_arg6) := by
  after_results_simp <;> rfl

set_option maxRecDepth 8192 in
set_option maxHeartbeats 8000000 in
theorem main_arg7_eq (V : Valuation τ sig (Elt Ideal)) :
    after (ops (F := Ideal)) V (Proc.devRef .tc main_arg7) = V (Proc.devRef .tc main_arg7) := by
  after_results_simp <;> rfl

set_option maxRecDepth 8192 in
set_option maxHeartbeats 8000000 in
theorem main_arg8_eq (V : Valuation τ sig (Elt Ideal)) :
    after (ops (F := Ideal)) V (Proc.devRef .tc main_arg8) = V (Proc.devRef .tc main_arg8) := by
  after_results_simp <;> rfl

set_option maxRecDepth 8192 in
set_option maxHeartbeats 8000000 in
theorem main_arg9_eq (V : Valuation τ sig (Elt Ideal)) :
    after (ops (F := Ideal)) V (Proc.devRef .tc main_arg9) = V (Proc.devRef .tc main_arg9) := by
  after_results_simp <;> rfl

set_option maxRecDepth 8192 in
set_option maxHeartbeats 8000000 in
theorem main_arg10_eq (V : Valuation τ sig (Elt Ideal)) :
    after (ops (F := Ideal)) V (Proc.devRef .tc main_arg10) = V (Proc.devRef .tc main_arg10) := by
  after_results_simp <;> rfl

set_option maxRecDepth 8192 in
set_option maxHeartbeats 8000000 in
theorem main_arg11_eq (V : Valuation τ sig (Elt Ideal)) :
    after (ops (F := Ideal)) V (Proc.devRef .tc main_arg11) = V (Proc.devRef .tc main_arg11) := by
  after_results_simp <;> rfl

set_option maxRecDepth 8192 in
set_option maxHeartbeats 8000000 in
theorem main_arg12_eq (V : Valuation τ sig (Elt Ideal)) :
    after (ops (F := Ideal)) V (Proc.devRef .tc main_arg12) = V (Proc.devRef .tc main_arg12) := by
  after_results_simp <;> rfl

set_option maxRecDepth 8192 in
set_option maxHeartbeats 8000000 in
theorem main_arg13_eq (V : Valuation τ sig (Elt Ideal)) :
    after (ops (F := Ideal)) V (Proc.devRef .tc main_arg13) = V (Proc.devRef .tc main_arg13) := by
  after_results_simp <;> rfl

/-! ## The run -/

/-- On every device, from any memory with zero counters: every weakly fair execution of the program terminates with the
    four results at their named terms of the arguments' launch contents and the fourteen arguments unchanged. -/
theorem run (m : (ℓ : Loc nD τ sig) → Buf (Elt Ideal) ℓ) (ρ : Dev nD → PrngReg) :
    θ_run (Cert.ReferenceIdeal.defs (F := Ideal)) (onTc (τ := τ) (main (F := Ideal))) ⟨m, fun _ => 0, ρ⟩ fun r => ∀ c : Dev nD,
      r.2.mem ((c.tc : Thread nD τ).loc main_v44) = res44 (m ((c.tc : Thread nD τ).loc main_arg0)) (m ((c.tc : Thread nD τ).loc main_arg2)) (m ((c.tc : Thread nD τ).loc main_arg3)) (m ((c.tc : Thread nD τ).loc main_arg6)) (m ((c.tc : Thread nD τ).loc main_arg7))
      ∧ r.2.mem ((c.tc : Thread nD τ).loc main_v48) = res48 (m ((c.tc : Thread nD τ).loc main_arg1)) (m ((c.tc : Thread nD τ).loc main_arg8)) (m ((c.tc : Thread nD τ).loc main_arg9)) (m ((c.tc : Thread nD τ).loc main_arg12)) (m ((c.tc : Thread nD τ).loc main_arg13))
      ∧ r.2.mem ((c.tc : Thread nD τ).loc main_v36) = res36 (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v40) = res40 (m ((c.tc : Thread nD τ).loc main_arg1)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨(h c main_v44).trans (main_v44_eq _),
      (h c main_v48).trans (main_v48_eq _),
      (h c main_v36).trans (main_v36_eq _),
      (h c main_v40).trans (main_v40_eq _),
      (h c main_arg0).trans (main_arg0_eq _),
      (h c main_arg1).trans (main_arg1_eq _),
      (h c main_arg2).trans (main_arg2_eq _),
      (h c main_arg3).trans (main_arg3_eq _),
      (h c main_arg4).trans (main_arg4_eq _),
      (h c main_arg5).trans (main_arg5_eq _),
      (h c main_arg6).trans (main_arg6_eq _),
      (h c main_arg7).trans (main_arg7_eq _),
      (h c main_arg8).trans (main_arg8_eq _),
      (h c main_arg9).trans (main_arg9_eq _),
      (h c main_arg10).trans (main_arg10_eq _),
      (h c main_arg11).trans (main_arg11_eq _),
      (h c main_arg12).trans (main_arg12_eq _),
      (h c main_arg13).trans (main_arg13_eq _)⟩)
    (run_seq scopedRefs_eq scopedSems_eq defs main (fun _ => ops) main_eq (fun _ => ops_sub) m ρ)

end Cert.ReferenceIdeal.Hand

end
-- ==== Proof.RefValue.lean ====
/-
  The reference's four results are the specification, entry by entry, on the extended reals.

  Each result is a head of a hidden layer. Read at an entry, a matrix product of plain m×k by k×n arrays is the finite
  sum over the contracted coordinate of the products of the entries, and a bias vector repeated along the rows adds its
  entry of the column. The rectifier's three array operations (compare with zero, scale by the slope, select) are, at an
  entry, z where 0 ≤ z and slope · z elsewhere. The dense input shifted by zero and divided by one is the input itself:
  the word 0x00000000 is 0, the word 0x3F800000 is 1, and x · (1/1) = x on the extended reals. The bag-of-words input is
  the multi-hot matrix of the ids, which is taken here as a hypothesis on the entries of the scattered matrix.
-/
import proofs.«165028_j4097398800503_1_alg».proof.Proof.Spec
import proofs.«165028_j4097398800503_1_alg».proof.Proof.LibHostReads
import proofs.«165028_j4097398800503_1_alg».proof.Proof.RefTerms
import Idealize.ShloMosaic.PureOps.Ideal.Laws

noncomputable section

open scoped BigOperators

namespace Cert.ReferenceIdeal.Value2

open Idealize.ShloMosaic Idealize.ShloMosaic.ValueIdx Cert.ReferenceIdeal Cert.ReferenceIdeal.Gen Cert.ReferenceIdeal.Hand

/-! ## Words and scalars -/

/-- The f32 word 0x3F800000 is the real number one. -/
theorem ofBits_one_f32 : Ideal.ofBits .f32 0x3F800000#32 = 1 := by
  simp [Ideal.ofBits, Ideal.ieee, -EReal.coe_mul]; norm_num

/-- Division by one is the identity on the extended reals: x · (1/1) = x. -/
theorem div_one (x : EReal) : Ideal.div x 1 = x := by
  rw [← EReal.coe_one, Ideal.div_coe one_ne_zero]
  simp

/-- The comparison "at least zero" as a one-bit word. -/
theorem cmp_oge_zero (z : EReal) : Ideal.cmp .oge z 0 = BitVec.ofBool (decide (0 ≤ z)) := rfl

/-! ## The array operations read at an entry -/

/-- The rectifier read at an entry: where 0 ≤ z the value itself, elsewhere the slope times the value. -/
theorem leaky_apply {s : Shape} (h : (⟨0, ![]⟩ : Shape).BroadcastsInDim s ![]) (z : FVec Ideal s .f32) (i : s.Idx) :
    select (cmpf .oge z (broadcastInDim s ![] h (constant (F := Ideal) ⟨0, ![]⟩ .f32 0x00000000#32))) z
        (mulf (broadcastInDim s ![] h (id (constant (F := Ideal) ⟨0, ![]⟩ .f32 0x3E4CCCCD#32))) z) i
      = Cert.Spec.lrelu (z i) := by
  rw [select_apply, cmpf_apply, mulf_apply, Cert.LibHostReads.splat_apply, Cert.LibHostReads.splat_apply, id, constant_apply,
    constant_apply, Ideal.ofBits_zero_f32, Ideal.cmpf_def, cmp_oge_zero]
  unfold Cert.Spec.lrelu Cert.Spec.slope
  by_cases hz : 0 ≤ z i
  · rw [if_pos hz, decide_eq_true hz]; exact select_one _ _
  · rw [if_neg hz, decide_eq_false hz]; exact select_zero _ _

/-- (x − 0) / 1 read at an entry is x there. -/
theorem xn_apply {s : Shape} (h : (⟨0, ![]⟩ : Shape).BroadcastsInDim s ![]) (x : FVec Ideal s .f32) (i : s.Idx) :
    Host.divf (F := Ideal) (subf x (broadcastInDim s ![] h (constant (F := Ideal) ⟨0, ![]⟩ .f32 0x00000000#32)))
        (broadcastInDim s ![] h (constant (F := Ideal) ⟨0, ![]⟩ .f32 0x3F800000#32)) i = x i := by
  show Ideal.div (x i - broadcastInDim s ![] h (constant (F := Ideal) ⟨0, ![]⟩ .f32 0x00000000#32) i)
      (broadcastInDim s ![] h (constant (F := Ideal) ⟨0, ![]⟩ .f32 0x3F800000#32) i) = x i
  rw [Cert.LibHostReads.splat_apply, Cert.LibHostReads.splat_apply, constant_apply, constant_apply, Ideal.ofBits_zero_f32,
    ofBits_one_f32, sub_zero, div_one]

/-- A plain product plus a bias row, read at (r, c): the sum over the contracted coordinate plus the bias at c. -/
theorem dense_apply {m k n : Nat} (hn : n ≠ 1) (D : DotDims ⟨2, ![m, k]⟩ ⟨2, ![k, n]⟩ ⟨2, ![m, n]⟩) (hD : D = DotDims.plain m k n)
    (h1 : (⟨1, ![n]⟩ : Shape).BroadcastsInDim ⟨2, ![1, n]⟩ ![1])
    (h2 : (⟨2, ![1, n]⟩ : Shape).BroadcastsInDim ⟨2, ![m, n]⟩ ![0, 1])
    (L : FVec Ideal ⟨2, ![m, k]⟩ .f32) (R : FVec Ideal ⟨2, ![k, n]⟩ .f32) (b : FVec Ideal ⟨1, ![n]⟩ .f32) (r : Fin m) (c : Fin n) :
    addf (Host.dotGeneral D none L R) (broadcastInDim ⟨2, ![m, n]⟩ ![0, 1] h2 (broadcastInDim ⟨2, ![1, n]⟩ ![1] h1 b)) (ix2 r c)
      = (∑ j : Fin k, L (ix2 r j) * R (ix2 j c)) + b (ix1 c) := by
  rw [addf_apply, Cert.LibHostReads.dot_apply D hD, Cert.LibHostReads.rowBias_apply hn]

/-- The four printed products are plain ones: rows by contraction times contraction by columns. -/
theorem dot_bow : dot_S2048x100000_S100000x256_S2048x256_1_0_0_1_n_n = DotDims.plain 2048 100000 256 := rfl
theorem dot_beo : dot_S2048x512_S512x256_S2048x256_1_0_0_1_n_n = DotDims.plain 2048 512 256 := rfl
theorem dot_5 : dot_S2048x256_S256x5_S2048x5_1_0_0_1_n_n = DotDims.plain 2048 256 5 := rfl
theorem dot_64 : dot_S2048x256_S256x64_S2048x64_1_0_0_1_n_n = DotDims.plain 2048 256 64 := rfl

/-! ## A hidden layer and a head, given the entries of what they are applied to -/

/-- The rectifier of (M · W + b) at (r, c) is the specification's hidden layer of X, when M's entries are X's. -/
theorem hid_apply {K : Nat} (D : DotDims ⟨2, ![2048, K]⟩ ⟨2, ![K, 256]⟩ ⟨2, ![2048, 256]⟩) (hD : D = DotDims.plain 2048 K 256)
    (M : FVec Ideal ⟨2, ![2048, K]⟩ .f32) (W : FVec Ideal ⟨2, ![K, 256]⟩ .f32) (b : FVec Ideal S256 .f32)
    (X : Fin 2048 → Fin K → EReal) (hX : ∀ r k, M (ix2 r k) = X r k) (r : Fin 2048) (c : Fin 256) :
    leaky (addf (Host.dotGeneral (F := Ideal) D none M W) (bias256 b)) (ix2 r c)
      = Cert.Spec.hid X (Cert.Spec.fn2 W) (Cert.Spec.fn1 b) r c := by
  unfold leaky bias256
  rw [leaky_apply, dense_apply (by decide) D hD]
  unfold Cert.Spec.hid Cert.Spec.fn2 Cert.Spec.fn1
  refine congrArg (fun t => Cert.Spec.lrelu (t + b (ix1 c))) ?_
  exact Finset.sum_congr rfl fun k _ => by rw [hX r k]

/-- H · W + b is the specification's head of Hf, when H's entries are Hf's. -/
theorem head_apply {n : Nat} (hn : n ≠ 1) (D : DotDims ⟨2, ![2048, 256]⟩ ⟨2, ![256, n]⟩ ⟨2, ![2048, n]⟩)
    (hD : D = DotDims.plain 2048 256 n)
    (h1 : (⟨1, ![n]⟩ : Shape).BroadcastsInDim ⟨2, ![1, n]⟩ ![1])
    (h2 : (⟨2, ![1, n]⟩ : Shape).BroadcastsInDim ⟨2, ![2048, n]⟩ ![0, 1])
    (H : FVec Ideal ⟨2, ![2048, 256]⟩ .f32) (W : FVec Ideal ⟨2, ![256, n]⟩ .f32) (b : FVec Ideal ⟨1, ![n]⟩ .f32)
    (Hf : Fin 2048 → Fin 256 → EReal) (hH : ∀ r k, H (ix2 r k) = Hf r k) :
    addf (Host.dotGeneral (F := Ideal) D none H W)
        (broadcastInDim ⟨2, ![2048, n]⟩ ![0, 1] h2 (broadcastInDim ⟨2, ![1, n]⟩ ![1] h1 b))
      = Cert.Spec.out Hf W b := by
  funext i
  obtain ⟨r, c, rfl⟩ : ∃ r c, i = ix2 r c := ⟨i 0, i 1, eq_ix2 i⟩
  rw [dense_apply hn D hD]
  unfold Cert.Spec.out
  rw [Cert.Spec.arr_ix2]
  unfold Cert.Spec.head Cert.Spec.fn2 Cert.Spec.fn1
  refine congrArg (fun t => t + b (ix1 c)) ?_
  exact Finset.sum_congr rfl fun k _ => by rw [hH r k]

/-! ## The two hidden layers -/

/-- The dense hidden layer at (r, c). -/
theorem hidE_apply (x : FVec Ideal S2048x512 .f32) (W8 : FVec Ideal S512x256 .f32) (b9 : FVec Ideal S256 .f32)
    (r : Fin 2048) (c : Fin 256) :
    hidE x W8 b9 (ix2 r c) = Cert.Spec.beoHid x W8 b9 r c := by
  unfold hidE
  refine hid_apply _ dot_beo (xn x) W8 b9 (Cert.Spec.fn2 x) (fun r k => ?_) r c
  unfold xn
  exact xn_apply _ x (ix2 r k)

/-- The bag-of-words hidden layer at (r, c), given that the scattered matrix is the multi-hot matrix of the ids. -/
theorem hidB_apply_of_hot (s : IVec S2048x50 32) (W2 : FVec Ideal S100000x256 .f32) (b3 : FVec Ideal S256 .f32)
    (hhot : ∀ r k, bowM s (ix2 r k) = Cert.Spec.hot (Cert.Spec.fn2 s) r k) (r : Fin 2048) (c : Fin 256) :
    hidB s W2 b3 (ix2 r c) = Cert.Spec.bowHid s W2 b3 r c := by
  unfold hidB
  exact hid_apply _ dot_bow (bowM s) W2 b3 (Cert.Spec.hot (Cert.Spec.fn2 s)) hhot r c

/-! ## The four results -/

/-- The dense branch's head of width 64. -/
theorem res48_eq (x : FVec Ideal S2048x512 .f32) (W8 : FVec Ideal S512x256 .f32) (b9 : FVec Ideal S256 .f32)
    (W12 : FVec Ideal S256x64 .f32) (b13 : FVec Ideal S64 .f32) :
    res48 x W8 b9 W12 b13 = Cert.Spec.out (Cert.Spec.beoHid x W8 b9) W12 b13 := by
  unfold res48 head64 bias64
  exact head_apply (by decide) _ dot_64 _ _ (hidE x W8 b9) W12 b13 _ (hidE_apply x W8 b9)

/-- The dense branch's head of width 5. -/
theorem res40_eq (x : FVec Ideal S2048x512 .f32) (W8 : FVec Ideal S512x256 .f32) (b9 : FVec Ideal S256 .f32)
    (W10 : FVec Ideal S256x5 .f32) (b11 : FVec Ideal S5 .f32) :
    res40 x W8 b9 W10 b11 = Cert.Spec.out (Cert.Spec.beoHid x W8 b9) W10 b11 := by
  unfold res40 head5 bias5
  exact head_apply (by decide) _ dot_5 _ _ (hidE x W8 b9) W10 b11 _ (hidE_apply x W8 b9)

/-- The bag-of-words branch's head of width 64, given the multi-hot reading of the scattered matrix. -/
theorem res44_eq_of_hot (s : IVec S2048x50 32) (W2 : FVec Ideal S100000x256 .f32) (b3 : FVec Ideal S256 .f32)
    (W6 : FVec Ideal S256x64 .f32) (b7 : FVec Ideal S64 .f32)
    (hhot : ∀ r k, bowM s (ix2 r k) = Cert.Spec.hot (Cert.Spec.fn2 s) r k) :
    res44 s W2 b3 W6 b7 = Cert.Spec.out (Cert.Spec.bowHid s W2 b3) W6 b7 := by
  unfold res44 head64 bias64
  exact head_apply (by decide) _ dot_64 _ _ (hidB s W2 b3) W6 b7 _ (hidB_apply_of_hot s W2 b3 hhot)

/-- The bag-of-words branch's head of width 5, given the multi-hot reading of the scattered matrix. -/
theorem res36_eq_of_hot (s : IVec S2048x50 32) (W2 : FVec Ideal S100000x256 .f32) (b3 : FVec Ideal S256 .f32)
    (W4 : FVec Ideal S256x5 .f32) (b5 : FVec Ideal S5 .f32)
    (hhot : ∀ r k, bowM s (ix2 r k) = Cert.Spec.hot (Cert.Spec.fn2 s) r k) :
    res36 s W2 b3 W4 b5 = Cert.Spec.out (Cert.Spec.bowHid s W2 b3) W4 b5 := by
  unfold res36 head5 bias5
  exact head_apply (by decide) _ dot_5 _ _ (hidB s W2 b3) W4 b5 _ (hidB_apply_of_hot s W2 b3 hhot)

end Cert.ReferenceIdeal.Value2

end
-- ==== Proof.RefFinal.lean ====
/-
  The reference's run in the specification's vocabulary.

  Run from any memory whose argument arrays satisfy the precondition, the reference terminates; its four result buffers
  hold the specification's two heads of the bag-of-words hidden layer and two heads of the dense hidden layer, taken at
  the argument arrays, and the fourteen argument arrays are unchanged. The run gives each result as the composition of the
  array operations that wrote it; the value equations read that composition entry by entry; the one hypothesis they need,
  that every id is below 100000, is a conjunct of the precondition.
-/
import proofs.«165028_j4097398800503_1_alg».proof.Defs
import proofs.«165028_j4097398800503_1_alg».proof.Proof.RefRun
import proofs.«165028_j4097398800503_1_alg».proof.Proof.RefValue
import proofs.«165028_j4097398800503_1_alg».proof.Proof.MultiHot
import proofs.«165028_j4097398800503_1_alg».proof.Proof.PreIds
import proofs.«165028_j4097398800503_1_alg».proof.Proof.Gen.ReferenceIdeal
import proofs.«165028_j4097398800503_1_alg».proof.Proof.Gen.Pre_finite_inputs

noncomputable section

namespace Cert.ReferenceIdeal.Final

open Idealize.ShloMosaic Idealize.SL.Sem Idealize.ShloMosaic.ValueIdx

/-- Under the precondition every id is below 100000, on every device. -/
theorem ids_lt [hPre_finite_inputs : Cert.Pre_finite_inputs.Facts] (m : (ℓ : Loc Cert.ReferenceIdeal.nD Cert.ReferenceIdeal.τ Cert.ReferenceIdeal.sig) → Buf (Elt Ideal) ℓ)
    (hPre : Cert.Pre_ReferenceIdeal m) (c : Dev Cert.ReferenceIdeal.nD) :
    ∀ i : Cert.ReferenceIdeal.S2048x50.Idx, (m ((c.tc : Thread Cert.ReferenceIdeal.nD Cert.ReferenceIdeal.τ).loc Cert.ReferenceIdeal.main_arg0) i).toNat < 100000 :=
  Cert.PreIds.ids_range (F := Ideal) _ _ _ _ _ _ _ _ _ _ _ _ _ _ (hPre c)

/-- The reference runs, its results are the specification's at the argument arrays, and the arguments are unchanged. -/
theorem run_spec [hReferenceIdeal : Cert.ReferenceIdeal.Facts] [hPre_finite_inputs : Cert.Pre_finite_inputs.Facts]
    (m : (ℓ : Loc Cert.ReferenceIdeal.nD Cert.ReferenceIdeal.τ Cert.ReferenceIdeal.sig) → Buf (Elt Ideal) ℓ) (ρ : Dev Cert.ReferenceIdeal.nD → PrngReg) (hPre : Cert.Pre_ReferenceIdeal m) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v44) = Cert.Spec.out (Cert.Spec.bowHid (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))
      ∧ r.2.mem ((c.tc : Thread Cert.ReferenceIdeal.nD Cert.ReferenceIdeal.τ).loc Cert.ReferenceIdeal.main_v48) = Cert.Spec.out (Cert.Spec.beoHid (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))
      ∧ r.2.mem ((c.tc : Thread Cert.ReferenceIdeal.nD Cert.ReferenceIdeal.τ).loc Cert.ReferenceIdeal.main_v36) = Cert.Spec.out (Cert.Spec.bowHid (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))
      ∧ r.2.mem ((c.tc : Thread Cert.ReferenceIdeal.nD Cert.ReferenceIdeal.τ).loc Cert.ReferenceIdeal.main_v40) = Cert.Spec.out (Cert.Spec.beoHid (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)) := by
  refine (θ_run _ _ _).mono (fun _ h c => ?_) (Cert.ReferenceIdeal.Hand.run m ρ)
  obtain ⟨h44, h48, h36, h40, hargs⟩ := h c
  have hs := ids_lt m hPre c
  exact ⟨h44.trans (Cert.ReferenceIdeal.Value2.res44_eq_of_hot _ _ _ _ _ (Cert.MultiHot.hotR _ hs)),
    h48.trans (Cert.ReferenceIdeal.Value2.res48_eq _ _ _ _ _),
    h36.trans (Cert.ReferenceIdeal.Value2.res36_eq_of_hot _ _ _ _ _ (Cert.MultiHot.hotR _ hs)),
    h40.trans (Cert.ReferenceIdeal.Value2.res40_eq _ _ _ _ _), hargs⟩

/-- The reference runs and leaves its argument arrays unchanged. -/
theorem frame : Cert.frame_ReferenceIdeal (hReferenceIdeal := Cert.ReferenceIdeal.Gen.facts)
    (hPre_finite_inputs := Cert.Pre_finite_inputs.Gen.facts) :=
  fun m ρ _ => (θ_run _ _ _).mono (fun _ h c => (h c).2.2.2.2) (Cert.ReferenceIdeal.Hand.run m ρ)

end Cert.ReferenceIdeal.Final

end
-- ==== Proof.lean ====
/-
  The certificate: a two-branch classifier computed by two pipelined kernels against its plain reference.

  Both programs turn each row of token ids into a multi-hot row and feed it through a hidden layer (a matrix product, a
  bias, a leaky rectifier) and two heads; a second, dense branch does the same from a float input. The kernel program pads
  the vocabulary from 100000 to 102400, tiles the big product into 2 × 25 blocks accumulated in a scratch buffer, and
  computes each branch's rectifier and heads on blocks of 1024 rows; the reference uses whole-array operations. On the
  extended reals a change of float format is the identity and a sum may be regrouped freely, so the two programs compute
  the same four arrays — provided every id lies in [0, 100000): a negative id is wrapped by the extent of the array it
  indexes, which differs between the two programs, and the precondition states that range beside the finiteness of the
  float inputs. The precondition's range is the only part of it the proof uses.

  The three frames: each kernel region's body is run at every grid point (the first region carrying its accumulator from
  point to point), the regions and the host operations between them are chained, and no item writes an argument array.
  The idealized kernel is the kernel's own text read on the extended reals, so nothing is owed for `preserves`.
-/
import proofs.«165028_j4097398800503_1_alg».proof.Defs
import proofs.«165028_j4097398800503_1_alg».proof.Proof.Gen.Kernel
import proofs.«165028_j4097398800503_1_alg».proof.Proof.Gen.KernelIdeal
import proofs.«165028_j4097398800503_1_alg».proof.Proof.Gen.ReferenceIdeal
import proofs.«165028_j4097398800503_1_alg».proof.Proof.Gen.Pre_finite_inputs
import proofs.«165028_j4097398800503_1_alg».proof.Proof.KernelRunK
import proofs.«165028_j4097398800503_1_alg».proof.Proof.KernelRun
import proofs.«165028_j4097398800503_1_alg».proof.Proof.KernelValue
import proofs.«165028_j4097398800503_1_alg».proof.Proof.RefFinal

noncomputable section

namespace Cert.Proof

open Idealize.ShloMosaic Idealize.SL.Sem

/-- The kernel program as printed, on machine words: it runs to the end and leaves its arguments as launched. -/
theorem frame_k : Cert.frame_Kernel (hKernel := Cert.Kernel.Gen.facts) (hPre_finite_inputs := Cert.Pre_finite_inputs.Gen.facts) :=
  fun m ρ _ => Cert.Kernel.Run.frame (F := Bits) m ρ

/-- The same program read on the extended reals. -/
theorem frame_ki : Cert.frame_KernelIdeal (hKernelIdeal := Cert.KernelIdeal.Gen.facts) (hPre_finite_inputs := Cert.Pre_finite_inputs.Gen.facts) :=
  fun m ρ _ => Cert.KernelIdeal.Run.frame (F := Ideal) m ρ

/-- The reference. -/
theorem frame_ri : Cert.frame_ReferenceIdeal (hReferenceIdeal := Cert.ReferenceIdeal.Gen.facts) (hPre_finite_inputs := Cert.Pre_finite_inputs.Gen.facts) :=
  Cert.ReferenceIdeal.Final.frame

/-- From memories that agree on the arguments both programs end with the specification's four arrays of those
    arguments: the kernel program's run and the reference's run, each stated in the specification's vocabulary. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hPre hagree
  have hPre' : Cert.Pre_ReferenceIdeal (hPre_finite_inputs := Cert.Pre_finite_inputs.Gen.facts) m' := fun c => by
    obtain ⟨h0, h1, h2, h3, h4, h5, h6, h7, h8, h9, h10, h11, h12, h13⟩ := hagree c
    rw [h0, h1, h2, h3, h4, h5, h6, h7, h8, h9, h10, h11, h12, h13]
    exact hPre c
  refine ⟨_, _, _, _, Cert.KernelIdeal.Value.run_spec (hPre_finite_inputs := Cert.Pre_finite_inputs.Gen.facts) m ρ hPre, ?_⟩
  refine (θ_run (Cert.ReferenceIdeal.defs (F := Ideal)) _ _).mono (fun r h c => ?_)
    (Cert.ReferenceIdeal.Final.run_spec (hReferenceIdeal := Cert.ReferenceIdeal.Gen.facts)
      (hPre_finite_inputs := Cert.Pre_finite_inputs.Gen.facts) m' ρ' hPre')
  obtain ⟨h0, h1, h2, h3, h4, h5, h6, h7, h8, h9, h10, h11, h12, h13⟩ := hagree c
  obtain ⟨r44, r48, r36, r40, hargs⟩ := h c
  refine ⟨r44.trans ?_, r48.trans ?_, r36.trans ?_, r40.trans ?_, hargs⟩
  · rw [h0, h2, h3, h6, h7]
  · rw [h1, h8, h9, h12, h13]
  · rw [h0, h2, h3, h4, h5]
  · rw [h1, h8, h9, h10, h11]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
